-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v121)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v121) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x2048 : Shape := ⟨2, ![50000, 2048]⟩
abbrev S64x2048 : Shape := ⟨2, ![64, 2048]⟩
abbrev S64 : Shape := ⟨1, ![64]⟩
abbrev S3x64x64 : Shape := ⟨3, ![3, 64, 64]⟩
abbrev S3x64 : Shape := ⟨2, ![3, 64]⟩
abbrev S2000000 : Shape := ⟨1, ![2000000]⟩
abbrev S2x2000000 : Shape := ⟨2, ![2, 2000000]⟩
abbrev S8192 : Shape := ⟨1, ![8192]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x2048 : S_.BroadcastsInDim S50000x2048 (![] : Fin 0 → Fin S50000x2048.rank)
  reducesTo_S50000x2048_S_d0_1 : S50000x2048.ReducesTo [0, 1] S_
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S2000000 : S_.BroadcastsInDim S2000000 (![] : Fin 0 → Fin S2000000.rank)
  reducesTo_S2000000_S_d0 : S2000000.ReducesTo [0] S_

variable [Facts]

def fn_part3 {F : FTy → Type} [FloatOps F] (main_v48 : IVec S_ 1) (main_v49 : FVec F S2000000 .f32) (main_v50 : FVec F S2000000 .f32) : IVec S_ 1 :=
  let main_v51 : IVec S2000000 1 := cmpf .olt main_v49 main_v50
  let main_c_19 : IVec S_ 1 := constantI S_ 1 1#1
  let main_v52 : IVec S_ 1 := (fun x v => Host.reduce IntOp.andi x v reducesTo_S2000000_S_d0 h_S_) main_v51 main_c_19
  let main_v53 : IVec S_ 1 := andi main_v48 main_v52
  main_v53

def fn_part2 {F : FTy → Type} [FloatOps F] (main_arg7 : FVec F S3x64 .f32) (main_arg8 : FVec F S3x64x64 .f32) (main_arg9 : FVec F S3x64 .f32) (main_arg10 : FVec F S2000000 .f32) (main_v33 : IVec S_ 1) : IVec S_ 1 :=
  let main_v34 : FVec F S3x64 .f32 := Host.absf main_arg7
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S3x64x64 .f32 := Host.absf main_arg8
  let main_cst_14 : FVec F S_ .f32 := constant S_ .f32 0x7F800000#32
  let main_v40 : FVec F S3x64x64 .f32 := broadcastInDim S3x64x64 ![] bcast_S_S3x64x64 main_cst_14
  let main_v41 : IVec S3x64x64 1 := cmpf .olt main_v39 main_v40
  let main_c_15 : IVec S_ 1 := constantI S_ 1 1#1
  let main_v42 : IVec S_ 1 := (fun x v => Host.reduce IntOp.andi x v reducesTo_S3x64x64_S_d0_1_2 h_S_) main_v41 main_c_15
  let main_v43 : IVec S_ 1 := andi main_v38 main_v42
  let main_v44 : FVec F S3x64 .f32 := Host.absf main_arg9
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S2000000 .f32 := Host.absf main_arg10
  let main_cst_18 : FVec F S_ .f32 := constant S_ .f32 0x7F800000#32
  let main_v50 : FVec F S2000000 .f32 := broadcastInDim S2000000 ![] bcast_S_S2000000 main_cst_18
  fn_part3 (F := F) main_v48 main_v49 main_v50

def fn_part1 {F : FTy → Type} [FloatOps F] (main_arg4 : FVec F S64x2048 .f32) (main_arg5 : FVec F S64 .f32) (main_arg6 : FVec F S3x64x64 .f32) (main_arg7 : FVec F S3x64 .f32) (main_arg8 : FVec F S3x64x64 .f32) (main_arg9 : FVec F S3x64 .f32) (main_arg10 : FVec F S2000000 .f32) (main_v13 : IVec S_ 1) (main_v16 : IVec S50000x2048 1) : IVec S_ 1 :=
  let main_c_5 : IVec S_ 1 := constantI S_ 1 1#1
  let main_v17 : IVec S_ 1 := (fun x v => Host.reduce IntOp.andi x v reducesTo_S50000x2048_S_d0_1 h_S_) main_v16 main_c_5
  let main_v18 : IVec S_ 1 := andi main_v13 main_v17
  let main_v19 : FVec F S64x2048 .f32 := Host.absf main_arg4
  let main_cst_6 : FVec F S_ .f32 := constant S_ .f32 0x7F800000#32
  let main_v20 : FVec F S64x2048 .f32 := broadcastInDim S64x2048 ![] bcast_S_S64x2048 main_cst_6
  let main_v21 : IVec S64x2048 1 := cmpf .olt main_v19 main_v20
  let main_c_7 : IVec S_ 1 := constantI S_ 1 1#1
  let main_v22 : IVec S_ 1 := (fun x v => Host.reduce IntOp.andi x v reducesTo_S64x2048_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S3x64x64 .f32 := Host.absf main_arg6
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg7 main_arg8 main_arg9 main_arg10 main_v33

def fn {F : FTy → Type} [FloatOps F] (main_arg0 : FVec F S50000x64 .f32) (main_arg1 : FVec F S50000x64 .f32) (main_arg2 : FVec F S50000x64 .f32) (main_arg3 : FVec F S50000x2048 .f32) (main_arg4 : FVec F S64x2048 .f32) (main_arg5 : FVec F S64 .f32) (main_arg6 : FVec F S3x64x64 .f32) (main_arg7 : FVec F S3x64 .f32) (main_arg8 : FVec F S3x64x64 .f32) (main_arg9 : FVec F S3x64 .f32) (main_arg10 : FVec F S2000000 .f32) (main_arg11 : IVec S2x2000000 32) (main_arg12 : IVec S8192 32) (main_arg13 : IVec S8192 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S50000x64 .f32 := Host.absf main_arg2
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S50000x2048 .f32 := Host.absf main_arg3
  let main_cst_4 : FVec F S_ .f32 := constant S_ .f32 0x7F800000#32
  let main_v15 : FVec F S50000x2048 .f32 := broadcastInDim S50000x2048 ![] bcast_S_S50000x2048 main_cst_4
  let main_v16 : IVec S50000x2048 1 := cmpf .olt main_v14 main_v15
  fn_part1 (F := F) main_arg4 main_arg5 main_arg6 main_arg7 main_arg8 main_arg9 main_arg10 main_v13 main_v16
-- ==== Kernel.lean ====
abbrev S50000x64 : Shape := ⟨2, ![50000, 64]⟩
abbrev S50000x2048 : Shape := ⟨2, ![50000, 2048]⟩
abbrev S64x2048 : Shape := ⟨2, ![64, 2048]⟩
abbrev S64 : Shape := ⟨1, ![64]⟩
abbrev S3x64x64 : Shape := ⟨3, ![3, 64, 64]⟩
abbrev S3x64 : Shape := ⟨2, ![3, 64]⟩
abbrev S2000000 : Shape := ⟨1, ![2000000]⟩
abbrev S2x2000000 : Shape := ⟨2, ![2, 2000000]⟩
abbrev S8192 : Shape := ⟨1, ![8192]⟩
abbrev S1x2000000 : Shape := ⟨2, ![1, 2000000]⟩
abbrev S100000x64 : Shape := ⟨2, ![100000, 64]⟩
abbrev S_ : Shape := ⟨0, ![]⟩
abbrev S2000000x1 : Shape := ⟨2, ![2000000, 1]⟩
abbrev S2000000x64 : Shape := ⟨2, ![2000000, 64]⟩
abbrev S1x64x64 : Shape := ⟨3, ![1, 64, 64]⟩
abbrev S64x64 : Shape := ⟨2, ![64, 64]⟩
abbrev S1x64 : Shape := ⟨2, ![1, 64]⟩
abbrev S2000x64 : Shape := ⟨2, ![2000, 64]⟩
abbrev S2000 : Shape := ⟨1, ![2000]⟩
abbrev S2000x1 : Shape := ⟨2, ![2000, 1]⟩
abbrev S8192x1 : Shape := ⟨2, ![8192, 1]⟩
abbrev S8192x64 : Shape := ⟨2, ![8192, 64]⟩
abbrev S8192x2048 : Shape := ⟨2, ![8192, 2048]⟩
abbrev S2048x64 : Shape := ⟨2, ![2048, 64]⟩
abbrev S512x2048 : Shape := ⟨2, ![512, 2048]⟩
abbrev S512x64 : Shape := ⟨2, ![512, 64]⟩
abbrev S512x1 : Shape := ⟨2, ![512, 1]⟩
abbrev S512 : Shape := ⟨1, ![512]⟩

abbrev nBuf : Space → Nat
  | .hbm => 154
  | .vmem => 42
  | .smem => 0
  | _ => 0

abbrev hbmTy0_0 (i : Nat) : BufTy := match i % 128 with
  | 0 => ⟨S50000x64, .f32⟩
  | 1 => ⟨S50000x64, .f32⟩
  | 2 => ⟨S50000x64, .f32⟩
  | 3 => ⟨S50000x2048, .f32⟩
  | 4 => ⟨S64x2048, .f32⟩
  | 5 => ⟨S64, .f32⟩
  | 6 => ⟨S3x64x64, .f32⟩
  | 7 => ⟨S3x64, .f32⟩
  | 8 => ⟨S3x64x64, .f32⟩
  | 9 => ⟨S3x64, .f32⟩
  | 10 => ⟨S2000000, .f32⟩
  | 11 => ⟨S2x2000000, .i32⟩
  | 12 => ⟨S8192, .i32⟩
  | 13 => ⟨S8192, .i32⟩
  | 14 => ⟨S1x2000000, .i32⟩
  | 15 => ⟨S2000000, .i32⟩
  | 16 => ⟨S1x2000000, .i32⟩
  | 17 => ⟨S2000000, .i32⟩
  | 18 => ⟨S100000x64, .f32⟩
  | 19 => ⟨S_, .i32⟩
  | 20 => ⟨S2000000, .i32⟩
  | 21 => ⟨S2000000, .i1⟩
  | 22 => ⟨S_, .i32⟩
  | 23 => ⟨S2000000, .i32⟩
  | 24 => ⟨S2000000, .i32⟩
  | 25 => ⟨S2000000, .i32⟩
  | 26 => ⟨S2000000x1, .i32⟩
  | 27 => ⟨S2000000x64, .f32⟩
  | 28 => ⟨S2000000x1, .f32⟩
  | 29 => ⟨S2000000x64, .f32⟩
  | 30 => ⟨S2000000x64, .f32⟩
  | 31 => ⟨S_, .f32⟩
  | 32 => ⟨S100000x64, .f32⟩
  | 33 => ⟨S2000000x1, .i32⟩
  | 34 => ⟨S100000x64, .f32⟩
  | 35 => ⟨S1x64x64, .f32⟩
  | 36 => ⟨S64x64, .f32⟩
  | 37 => ⟨S64x64, .f32⟩
  | 38 => ⟨S1x64x64, .f32⟩
  | 39 => ⟨S64x64, .f32⟩
  | 40 => ⟨S64x64, .f32⟩
  | 41 => ⟨S1x64, .f32⟩
  | 42 => ⟨S64, .f32⟩
  | 43 => ⟨S1x64, .f32⟩
  | 44 => ⟨S1x64, .f32⟩
  | 45 => ⟨S64, .f32⟩
  | 46 => ⟨S1x64, .f32⟩
  | 47 => ⟨S100000x64, .f32⟩
  | 48 => ⟨S100000x64, .f32⟩
  | 49 => ⟨S_, .i32⟩
  | 50 => ⟨S2000000, .i32⟩
  | 51 => ⟨S2000000, .i1⟩
  | 52 => ⟨S_, .i32⟩
  | 53 => ⟨S2000000, .i32⟩
  | 54 => ⟨S2000000, .i32⟩
  | 55 => ⟨S2000000, .i32⟩
  | 56 => ⟨S2000000x1, .i32⟩
  | 57 => ⟨S2000000x64, .f32⟩
  | 58 => ⟨S2000000x1, .f32⟩
  | 59 => ⟨S2000000x64, .f32⟩
  | 60 => ⟨S2000000x64, .f32⟩
  | 61 => ⟨S_, .f32⟩
  | 62 => ⟨S100000x64, .f32⟩
  | 63 => ⟨S2000000x1, .i32⟩
  | 64 => ⟨S100000x64, .f32⟩
  | 65 => ⟨S1x64x64, .f32⟩
  | 66 => ⟨S64x64, .f32⟩
  | 67 => ⟨S64x64, .f32⟩
  | 68 => ⟨S1x64x64, .f32⟩
  | 69 => ⟨S64x64, .f32⟩
  | 70 => ⟨S64x64, .f32⟩
  | 71 => ⟨S1x64, .f32⟩
  | 72 => ⟨S64, .f32⟩
  | 73 => ⟨S1x64, .f32⟩
  | 74 => ⟨S1x64, .f32⟩
  | 75 => ⟨S64, .f32⟩
  | 76 => ⟨S1x64, .f32⟩
  | 77 => ⟨S100000x64, .f32⟩
  | 78 => ⟨S100000x64, .f32⟩
  | 79 => ⟨S_, .i32⟩
  | 80 => ⟨S2000000, .i32⟩
  | 81 => ⟨S2000000, .i1⟩
  | 82 => ⟨S_, .i32⟩
  | 83 => ⟨S2000000, .i32⟩
  | 84 => ⟨S2000000, .i32⟩
  | 85 => ⟨S2000000, .i32⟩
  | 86 => ⟨S2000000x1, .i32⟩
  | 87 => ⟨S2000000x64, .f32⟩
  | 88 => ⟨S2000000x1, .f32⟩
  | 89 => ⟨S2000000x64, .f32⟩
  | 90 => ⟨S2000000x64, .f32⟩
  | 91 => ⟨S_, .f32⟩
  | 92 => ⟨S100000x64, .f32⟩
  | 93 => ⟨S2000000x1, .i32⟩
  | 94 => ⟨S100000x64, .f32⟩
  | 95 => ⟨S1x64x64, .f32⟩
  | 96 => ⟨S64x64, .f32⟩
  | 97 => ⟨S64x64, .f32⟩
  | 98 => ⟨S1x64x64, .f32⟩
  | 99 => ⟨S64x64, .f32⟩
  | 100 => ⟨S64x64, .f32⟩
  | 101 => ⟨S1x64, .f32⟩
  | 102 => ⟨S64, .f32⟩
  | 103 => ⟨S1x64, .f32⟩
  | 104 => ⟨S1x64, .f32⟩
  | 105 => ⟨S64, .f32⟩
  | 106 => ⟨S1x64, .f32⟩
  | 107 => ⟨S100000x64, .f32⟩
  | 108 => ⟨S100000x64, .f32⟩
  | 109 => ⟨S_, .f32⟩
  | 110 => ⟨S100000x64, .f32⟩
  | 111 => ⟨S100000x64, .f32⟩
  | 112 => ⟨S50000x64, .f32⟩
  | 113 => ⟨S50000x64, .f32⟩
  | 114 => ⟨S_, .i32⟩
  | 115 => ⟨S8192, .i32⟩
  | 116 => ⟨S8192, .i1⟩
  | 117 => ⟨S_, .i32⟩
  | 118 => ⟨S8192, .i32⟩
  | 119 => ⟨S8192, .i32⟩
  | 120 => ⟨S8192, .i32⟩
  | 121 => ⟨S8192x1, .i32⟩
  | 122 => ⟨S8192x64, .f32⟩
  | 123 => ⟨S_, .i32⟩
  | 124 => ⟨S8192, .i32⟩
  | 125 => ⟨S8192, .i1⟩
  | 126 => ⟨S_, .i32⟩
  | 127 => ⟨S8192, .i32⟩
  | _ => ⟨S50000x64, .f32⟩

abbrev hbmTy0_1 (i : Nat) : BufTy := match i % 128 with
  | 0 => ⟨S8192, .i32⟩
  | 1 => ⟨S8192, .i32⟩
  | 2 => ⟨S8192x1, .i32⟩
  | 3 => ⟨S8192x64, .f32⟩
  | 4 => ⟨S_, .i32⟩
  | 5 => ⟨S8192, .i32⟩
  | 6 => ⟨S8192, .i1⟩
  | 7 => ⟨S_, .i32⟩
  | 8 => ⟨S8192, .i32⟩
  | 9 => ⟨S8192, .i32⟩
  | 10 => ⟨S8192, .i32⟩
  | 11 => ⟨S8192x1, .i32⟩
  | 12 => ⟨S8192x64, .f32⟩
  | 13 => ⟨S_, .i32⟩
  | 14 => ⟨S8192, .i32⟩
  | 15 => ⟨S8192, .i1⟩
  | 16 => ⟨S_, .i32⟩
  | 17 => ⟨S8192, .i32⟩
  | 18 => ⟨S8192, .i32⟩
  | 19 => ⟨S8192, .i32⟩
  | 20 => ⟨S8192x1, .i32⟩
  | 21 => ⟨S8192x2048, .f32⟩
  | 22 => ⟨S2048x64, .f32⟩
  | 23 => ⟨S1x64, .f32⟩
  | 24 => ⟨S8192x1, .f32⟩
  | 25 => ⟨S8192, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S2000x64, .f32⟩
  | .local _ .vmem, ⟨29, _⟩ => ⟨S2000x64, .f32⟩
  | .local _ .vmem, ⟨30, _⟩ => ⟨S512x2048, .f32⟩
  | .local _ .vmem, ⟨31, _⟩ => ⟨S512x2048, .f32⟩
  | .local _ .vmem, ⟨32, _⟩ => ⟨S2048x64, .f32⟩
  | .local _ .vmem, ⟨33, _⟩ => ⟨S1x64, .f32⟩
  | .local _ .vmem, ⟨34, _⟩ => ⟨S512x64, .f32⟩
  | .local _ .vmem, ⟨35, _⟩ => ⟨S512x64, .f32⟩
  | .local _ .vmem, ⟨36, _⟩ => ⟨S512x64, .f32⟩
  | .local _ .vmem, ⟨37, _⟩ => ⟨S512x64, .f32⟩
  | .local _ .vmem, ⟨38, _⟩ => ⟨S512x64, .f32⟩
  | .local _ .vmem, ⟨39, _⟩ => ⟨S512x64, .f32⟩
  | .local _ .vmem, ⟨40, _⟩ => ⟨S512x1, .f32⟩
  | .local _ .vmem, ⟨41, _⟩ => ⟨S512x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_1 : Ref sig .tc := ⟨.hbm, 49, rfl⟩
abbrev main_v32 : Ref sig .tc := ⟨.hbm, 50, rfl⟩
abbrev main_v33 : Ref sig .tc := ⟨.hbm, 51, rfl⟩
abbrev main_c_2 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_3 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_4 : Ref sig .tc := ⟨.hbm, 79, rfl⟩
abbrev main_v59 : Ref sig .tc := ⟨.hbm, 80, rfl⟩
abbrev main_v60 : Ref sig .tc := ⟨.hbm, 81, rfl⟩
abbrev main_c_5 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_6 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_7 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_c_8 : Ref sig .tc := ⟨.hbm, 114, rfl⟩
abbrev main_v90 : Ref sig .tc := ⟨.hbm, 115, rfl⟩
abbrev main_v91 : Ref sig .tc := ⟨.hbm, 116, rfl⟩
abbrev main_c_9 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_c_10 : Ref sig .tc := ⟨.hbm, 123, rfl⟩
abbrev main_v97 : Ref sig .tc := ⟨.hbm, 124, rfl⟩
abbrev main_v98 : Ref sig .tc := ⟨.hbm, 125, rfl⟩
abbrev main_c_11 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_c_12 : Ref sig .tc := ⟨.hbm, 132, rfl⟩
abbrev main_v104 : Ref sig .tc := ⟨.hbm, 133, rfl⟩
abbrev main_v105 : Ref sig .tc := ⟨.hbm, 134, rfl⟩
abbrev main_c_13 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_c_14 : Ref sig .tc := ⟨.hbm, 141, rfl⟩
abbrev main_v111 : Ref sig .tc := ⟨.hbm, 142, rfl⟩
abbrev main_v112 : Ref sig .tc := ⟨.hbm, 143, rfl⟩
abbrev main_c_15 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg3_1 : Ref sig .tc := ⟨.vmem, 35, rfl⟩
abbrev cc3_stg4_0 : Ref sig .tc := ⟨.vmem, 36, rfl⟩
abbrev cc3_stg4_1 : Ref sig .tc := ⟨.vmem, 37, rfl⟩
abbrev cc3_stg5_0 : Ref sig .tc := ⟨.vmem, 38, rfl⟩
abbrev cc3_stg5_1 : Ref sig .tc := ⟨.vmem, 39, rfl⟩
abbrev cc3_stg6_0 : Ref sig .tc := ⟨.vmem, 40, rfl⟩
abbrev cc3_stg6_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem3_1 : DmaSem sig := 35
abbrev cc3_sem4_0 : DmaSem sig := 36
abbrev cc3_sem4_1 : DmaSem sig := 37
abbrev cc3_sem5_0 : DmaSem sig := 38
abbrev cc3_sem5_1 : DmaSem sig := 39
abbrev cc3_sem6_0 : DmaSem sig := 40
abbrev cc3_sem6_1 : DmaSem sig := 41

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S512x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S512x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S512x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  concatenates_S50000x64_S50000x64_S100000x64_d0 : Shape.Concatenates [S50000x64, S50000x64] S100000x64 0
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000x1_S2000000x64_0_1 : S2000000x1.BroadcastsInDim S2000000x64 (![0, 1] : Fin 2 → Fin S2000000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  slices_S3x64_S1x64_0_0 : S3x64.Slices ![0, 0] S1x64
  shapeCasts_S1x64_S64 : S1x64.ShapeCasts S64
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  bitsLt_bf16_f32 : FTy.bits .bf16 < FTy.bits .f32
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  slices_S100000x64_S50000x64_0_0 : S100000x64.Slices ![0, 0] S50000x64
  slices_S100000x64_S50000x64_50000_0 : S100000x64.Slices ![50000, 0] S50000x64
  bcast_S_S8192 : S_.BroadcastsInDim S8192 (![] : Fin 0 → Fin S8192.rank)
  bcast_S8192_S8192x1_0 : S8192.BroadcastsInDim S8192x1 (![0] : Fin 1 → Fin S8192x1.rank)
  transposes_S64x2048_S2048x64_1_0 : S64x2048.Transposes [1, 0] S2048x64
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  broadcasts_S1x64_S512x64 : S1x64.Broadcasts S512x64
  reduces_S512x64_S512 : S512x64.Reduces [1] S512
  shapeCasts_S512_S512x1 : S512.ShapeCasts S512x1
  broadcasts_S512x1_S512x64 : S512x1.Broadcasts S512x64
  inb_S512x1_S512x1_0_0 : ∀ a, (![0, 0] : Fin 2 → Nat) a + S512x1.size a ≤ S512x1.size a
  h_S512x1 : 0 < S512x1.numel
  shapeCasts_S8192x1_S8192 : S8192x1.ShapeCasts S8192
  gather_S100000x64_S2000000x1_S2000000x64_1_0_n_n_0_1_164_wf : GatherDims.WF S100000x64 S2000000x1 S2000000x64 [1] [0] [] [0] [] 1 ![1, 64]
  scatter_S100000x64_S2000000x1_S2000000x64_1_0_0_1_wf : ScatterDims.WF S100000x64 S2000000x1 S2000000x64 [1] [0] [0] 1
  dot_S2000x64_S64x64_S2000x64_1_0_0_1_n_n_wf : DotDims.WF S2000x64 S64x64 S2000x64 [1] [0] [0] [1] [] []
  gather_S50000x64_S8192x1_S8192x64_1_0_n_n_0_1_164_wf : GatherDims.WF S50000x64 S8192x1 S8192x64 [1] [0] [] [0] [] 1 ![1, 64]
  gather_S50000x2048_S8192x1_S8192x2048_1_0_n_n_0_1_12048_wf : GatherDims.WF S50000x2048 S8192x1 S8192x2048 [1] [0] [] [0] [] 1 ![1, 2048]
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S100000x64.size a
  hwx0_6 : ∀ i : grid0.Coords, EltTy.bits .f32 = 32 ∨ (Rect.block (s := S100000x64) S2000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S100000x64.size a
  hwx1_6 : ∀ i : grid1.Coords, EltTy.bits .f32 = 32 ∨ (Rect.block (s := S100000x64) S2000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S100000x64.size a
  hwx2_6 : ∀ i : grid2.Coords, EltTy.bits .f32 = 32 ∨ (Rect.block (s := S100000x64) S2000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x2048.size a ≤ S8192x2048.size a
  hwx3_0 : ∀ i : grid3.Coords, EltTy.bits .f32 = 32 ∨ (Rect.block (s := S8192x2048) S512x2048.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2048x64.size a ≤ S2048x64.size a
  hwx3_1 : ∀ i : grid3.Coords, EltTy.bits .f32 = 32 ∨ (Rect.block (s := S2048x64) S2048x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x64.size a ≤ S8192x64.size a
  hwx3_3 : ∀ i : grid3.Coords, EltTy.bits .f32 = 32 ∨ (Rect.block (s := S8192x64) S512x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x64.size a ≤ S8192x64.size a
  hwx3_4 : ∀ i : grid3.Coords, EltTy.bits .f32 = 32 ∨ (Rect.block (s := S8192x64) S512x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S512x64.size a ≤ S8192x64.size a
  hwx3_5 : ∀ i : grid3.Coords, EltTy.bits .f32 = 32 ∨ (Rect.block (s := S8192x64) S512x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S512x1.size a ≤ S8192x1.size a
  hwx3_6 : ∀ i : grid3.Coords, EltTy.bits .f32 = 32 ∨ (Rect.block (s := S8192x1) S512x1.size (cc3_transform_6 i) (hinb3_6 i)).WholeWords (EltTy.packing .f32)

variable [Facts₀]

def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S50000x64_S8192x1_S8192x64_1_0_n_n_0_1_164 : GatherDims S50000x64 S8192x1 S8192x64 where
  offsetDims := [1]
  collapsedSliceDims := [0]
  operandBatchingDims := []
  startIndicesBatchingDims := []
  startIndexMap := [0]
  indexVectorDim := 1
  sliceSizes := ![1, 64]
  wf := gather_S50000x64_S8192x1_S8192x64_1_0_n_n_0_1_164_wf
def gather_S50000x2048_S8192x1_S8192x2048_1_0_n_n_0_1_12048 : GatherDims S50000x2048 S8192x1 S8192x2048 where
  offsetDims := [1]
  collapsedSliceDims := [0]
  operandBatchingDims := []
  startIndicesBatchingDims := []
  startIndexMap := [0]
  indexVectorDim := 1
  sliceSizes := ![1, 2048]
  wf := gather_S50000x2048_S8192x1_S8192x2048_1_0_n_n_0_1_12048_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v4) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v30) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v56) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v57) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v57) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v71) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v74) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v80) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v77) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v83) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v84) S2000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v117) S512x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v118) S2048x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v119) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v96) S512x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v103) S512x64.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v110) S512x64.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v120) S512x1.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x64 : Shape := ⟨2, ![50000, 64]⟩
abbrev S50000x2048 : Shape := ⟨2, ![50000, 2048]⟩
abbrev S64x2048 : Shape := ⟨2, ![64, 2048]⟩
abbrev S64 : Shape := ⟨1, ![64]⟩
abbrev S3x64x64 : Shape := ⟨3, ![3, 64, 64]⟩
abbrev S3x64 : Shape := ⟨2, ![3, 64]⟩
abbrev S2000000 : Shape := ⟨1, ![2000000]⟩
abbrev S2x2000000 : Shape := ⟨2, ![2, 2000000]⟩
abbrev S8192 : Shape := ⟨1, ![8192]⟩
abbrev S1x2000000 : Shape := ⟨2, ![1, 2000000]⟩
abbrev S100000x64 : Shape := ⟨2, ![100000, 64]⟩
abbrev S_ : Shape := ⟨0, ![]⟩
abbrev S2000000x1 : Shape := ⟨2, ![2000000, 1]⟩
abbrev S2000000x64 : Shape := ⟨2, ![2000000, 64]⟩
abbrev S1x64x64 : Shape := ⟨3, ![1, 64, 64]⟩
abbrev S64x64 : Shape := ⟨2, ![64, 64]⟩
abbrev S1x64 : Shape := ⟨2, ![1, 64]⟩
abbrev S100000 : Shape := ⟨1, ![100000]⟩
abbrev S100000x1 : Shape := ⟨2, ![100000, 1]⟩
abbrev S100000x1x64 : Shape := ⟨3, ![100000, 1, 64]⟩
abbrev S100000x4x64 : Shape := ⟨3, ![100000, 4, 64]⟩
abbrev S8192x1 : Shape := ⟨2, ![8192, 1]⟩
abbrev S8192x64 : Shape := ⟨2, ![8192, 64]⟩
abbrev S8192x2048 : Shape := ⟨2, ![8192, 2048]⟩
abbrev S2048x64 : Shape := ⟨2, ![2048, 64]⟩

abbrev nBuf : Space → Nat
  | .hbm => 254
  | .vmem => 0
  | .smem => 0
  | _ => 0

abbrev hbmTy0_0 (i : Nat) : BufTy := match i % 128 with
  | 0 => ⟨S50000x64, .f32⟩
  | 1 => ⟨S50000x64, .f32⟩
  | 2 => ⟨S50000x64, .f32⟩
  | 3 => ⟨S50000x2048, .f32⟩
  | 4 => ⟨S64x2048, .f32⟩
  | 5 => ⟨S64, .f32⟩
  | 6 => ⟨S3x64x64, .f32⟩
  | 7 => ⟨S3x64, .f32⟩
  | 8 => ⟨S3x64x64, .f32⟩
  | 9 => ⟨S3x64, .f32⟩
  | 10 => ⟨S2000000, .f32⟩
  | 11 => ⟨S2x2000000, .i32⟩
  | 12 => ⟨S8192, .i32⟩
  | 13 => ⟨S8192, .i32⟩
  | 14 => ⟨S1x2000000, .i32⟩
  | 15 => ⟨S2000000, .i32⟩
  | 16 => ⟨S1x2000000, .i32⟩
  | 17 => ⟨S2000000, .i32⟩
  | 18 => ⟨S100000x64, .f32⟩
  | 19 => ⟨S_, .i32⟩
  | 20 => ⟨S2000000, .i32⟩
  | 21 => ⟨S2000000, .i1⟩
  | 22 => ⟨S_, .i32⟩
  | 23 => ⟨S2000000, .i32⟩
  | 24 => ⟨S2000000, .i32⟩
  | 25 => ⟨S2000000, .i32⟩
  | 26 => ⟨S2000000x1, .i32⟩
  | 27 => ⟨S2000000x64, .f32⟩
  | 28 => ⟨S2000000x1, .f32⟩
  | 29 => ⟨S2000000x64, .f32⟩
  | 30 => ⟨S2000000x64, .f32⟩
  | 31 => ⟨S_, .f32⟩
  | 32 => ⟨S100000x64, .f32⟩
  | 33 => ⟨S2000000x1, .i32⟩
  | 34 => ⟨S100000x64, .f32⟩
  | 35 => ⟨S100000x64, .f32⟩
  | 36 => ⟨S1x64x64, .f32⟩
  | 37 => ⟨S64x64, .f32⟩
  | 38 => ⟨S64x64, .f32⟩
  | 39 => ⟨S100000x64, .f32⟩
  | 40 => ⟨S1x64, .f32⟩
  | 41 => ⟨S64, .f32⟩
  | 42 => ⟨S1x64, .f32⟩
  | 43 => ⟨S100000x64, .f32⟩
  | 44 => ⟨S100000x64, .f32⟩
  | 45 => ⟨S100000x64, .f32⟩
  | 46 => ⟨S1x64x64, .f32⟩
  | 47 => ⟨S64x64, .f32⟩
  | 48 => ⟨S64x64, .f32⟩
  | 49 => ⟨S100000x64, .f32⟩
  | 50 => ⟨S100000x64, .f32⟩
  | 51 => ⟨S1x64, .f32⟩
  | 52 => ⟨S64, .f32⟩
  | 53 => ⟨S1x64, .f32⟩
  | 54 => ⟨S100000x64, .f32⟩
  | 55 => ⟨S100000x64, .f32⟩
  | 56 => ⟨S_, .f32⟩
  | 57 => ⟨S_, .f32⟩
  | 58 => ⟨S100000x64, .f32⟩
  | 59 => ⟨S100000x64, .i1⟩
  | 60 => ⟨S_, .f32⟩
  | 61 => ⟨S100000x64, .f32⟩
  | 62 => ⟨S100000x64, .f32⟩
  | 63 => ⟨S100000x64, .f32⟩
  | 64 => ⟨S100000x64, .f32⟩
  | 65 => ⟨S_, .f32⟩
  | 66 => ⟨S100000, .f32⟩
  | 67 => ⟨S100000x1, .f32⟩
  | 68 => ⟨S100000x1, .f32⟩
  | 69 => ⟨S_, .f32⟩
  | 70 => ⟨S100000x1, .f32⟩
  | 71 => ⟨S100000x1, .f32⟩
  | 72 => ⟨S100000x64, .f32⟩
  | 73 => ⟨S100000x64, .f32⟩
  | 74 => ⟨S_, .i32⟩
  | 75 => ⟨S2000000, .i32⟩
  | 76 => ⟨S2000000, .i1⟩
  | 77 => ⟨S_, .i32⟩
  | 78 => ⟨S2000000, .i32⟩
  | 79 => ⟨S2000000, .i32⟩
  | 80 => ⟨S2000000, .i32⟩
  | 81 => ⟨S2000000x1, .i32⟩
  | 82 => ⟨S2000000x64, .f32⟩
  | 83 => ⟨S2000000x1, .f32⟩
  | 84 => ⟨S2000000x64, .f32⟩
  | 85 => ⟨S2000000x64, .f32⟩
  | 86 => ⟨S_, .f32⟩
  | 87 => ⟨S100000x64, .f32⟩
  | 88 => ⟨S2000000x1, .i32⟩
  | 89 => ⟨S100000x64, .f32⟩
  | 90 => ⟨S100000x64, .f32⟩
  | 91 => ⟨S1x64x64, .f32⟩
  | 92 => ⟨S64x64, .f32⟩
  | 93 => ⟨S64x64, .f32⟩
  | 94 => ⟨S100000x64, .f32⟩
  | 95 => ⟨S1x64, .f32⟩
  | 96 => ⟨S64, .f32⟩
  | 97 => ⟨S1x64, .f32⟩
  | 98 => ⟨S100000x64, .f32⟩
  | 99 => ⟨S100000x64, .f32⟩
  | 100 => ⟨S100000x64, .f32⟩
  | 101 => ⟨S1x64x64, .f32⟩
  | 102 => ⟨S64x64, .f32⟩
  | 103 => ⟨S64x64, .f32⟩
  | 104 => ⟨S100000x64, .f32⟩
  | 105 => ⟨S100000x64, .f32⟩
  | 106 => ⟨S1x64, .f32⟩
  | 107 => ⟨S64, .f32⟩
  | 108 => ⟨S1x64, .f32⟩
  | 109 => ⟨S100000x64, .f32⟩
  | 110 => ⟨S100000x64, .f32⟩
  | 111 => ⟨S_, .f32⟩
  | 112 => ⟨S_, .f32⟩
  | 113 => ⟨S100000x64, .f32⟩
  | 114 => ⟨S100000x64, .i1⟩
  | 115 => ⟨S_, .f32⟩
  | 116 => ⟨S100000x64, .f32⟩
  | 117 => ⟨S100000x64, .f32⟩
  | 118 => ⟨S100000x64, .f32⟩
  | 119 => ⟨S100000x64, .f32⟩
  | 120 => ⟨S_, .f32⟩
  | 121 => ⟨S100000, .f32⟩
  | 122 => ⟨S100000x1, .f32⟩
  | 123 => ⟨S100000x1, .f32⟩
  | 124 => ⟨S_, .f32⟩
  | 125 => ⟨S100000x1, .f32⟩
  | 126 => ⟨S100000x1, .f32⟩
  | 127 => ⟨S100000x64, .f32⟩
  | _ => ⟨S50000x64, .f32⟩

abbrev hbmTy0_1 (i : Nat) : BufTy := match i % 128 with
  | 0 => ⟨S100000x64, .f32⟩
  | 1 => ⟨S_, .i32⟩
  | 2 => ⟨S2000000, .i32⟩
  | 3 => ⟨S2000000, .i1⟩
  | 4 => ⟨S_, .i32⟩
  | 5 => ⟨S2000000, .i32⟩
  | 6 => ⟨S2000000, .i32⟩
  | 7 => ⟨S2000000, .i32⟩
  | 8 => ⟨S2000000x1, .i32⟩
  | 9 => ⟨S2000000x64, .f32⟩
  | 10 => ⟨S2000000x1, .f32⟩
  | 11 => ⟨S2000000x64, .f32⟩
  | 12 => ⟨S2000000x64, .f32⟩
  | 13 => ⟨S_, .f32⟩
  | 14 => ⟨S100000x64, .f32⟩
  | 15 => ⟨S2000000x1, .i32⟩
  | 16 => ⟨S100000x64, .f32⟩
  | 17 => ⟨S100000x64, .f32⟩
  | 18 => ⟨S1x64x64, .f32⟩
  | 19 => ⟨S64x64, .f32⟩
  | 20 => ⟨S64x64, .f32⟩
  | 21 => ⟨S100000x64, .f32⟩
  | 22 => ⟨S1x64, .f32⟩
  | 23 => ⟨S64, .f32⟩
  | 24 => ⟨S1x64, .f32⟩
  | 25 => ⟨S100000x64, .f32⟩
  | 26 => ⟨S100000x64, .f32⟩
  | 27 => ⟨S100000x64, .f32⟩
  | 28 => ⟨S1x64x64, .f32⟩
  | 29 => ⟨S64x64, .f32⟩
  | 30 => ⟨S64x64, .f32⟩
  | 31 => ⟨S100000x64, .f32⟩
  | 32 => ⟨S100000x64, .f32⟩
  | 33 => ⟨S1x64, .f32⟩
  | 34 => ⟨S64, .f32⟩
  | 35 => ⟨S1x64, .f32⟩
  | 36 => ⟨S100000x64, .f32⟩
  | 37 => ⟨S100000x64, .f32⟩
  | 38 => ⟨S_, .f32⟩
  | 39 => ⟨S_, .f32⟩
  | 40 => ⟨S100000x64, .f32⟩
  | 41 => ⟨S100000x64, .i1⟩
  | 42 => ⟨S_, .f32⟩
  | 43 => ⟨S100000x64, .f32⟩
  | 44 => ⟨S100000x64, .f32⟩
  | 45 => ⟨S100000x64, .f32⟩
  | 46 => ⟨S100000x64, .f32⟩
  | 47 => ⟨S_, .f32⟩
  | 48 => ⟨S100000, .f32⟩
  | 49 => ⟨S100000x1, .f32⟩
  | 50 => ⟨S100000x1, .f32⟩
  | 51 => ⟨S_, .f32⟩
  | 52 => ⟨S100000x1, .f32⟩
  | 53 => ⟨S100000x1, .f32⟩
  | 54 => ⟨S100000x64, .f32⟩
  | 55 => ⟨S100000x64, .f32⟩
  | 56 => ⟨S100000x1x64, .f32⟩
  | 57 => ⟨S100000x1x64, .f32⟩
  | 58 => ⟨S100000x1x64, .f32⟩
  | 59 => ⟨S100000x1x64, .f32⟩
  | 60 => ⟨S100000x4x64, .f32⟩
  | 61 => ⟨S_, .f32⟩
  | 62 => ⟨S100000x64, .f32⟩
  | 63 => ⟨S_, .f32⟩
  | 64 => ⟨S100000x64, .f32⟩
  | 65 => ⟨S100000x64, .f32⟩
  | 66 => ⟨S50000x64, .f32⟩
  | 67 => ⟨S50000x64, .f32⟩
  | 68 => ⟨S_, .i32⟩
  | 69 => ⟨S8192, .i32⟩
  | 70 => ⟨S8192, .i1⟩
  | 71 => ⟨S_, .i32⟩
  | 72 => ⟨S8192, .i32⟩
  | 73 => ⟨S8192, .i32⟩
  | 74 => ⟨S8192, .i32⟩
  | 75 => ⟨S8192x1, .i32⟩
  | 76 => ⟨S8192x64, .f32⟩
  | 77 => ⟨S_, .i32⟩
  | 78 => ⟨S8192, .i32⟩
  | 79 => ⟨S8192, .i1⟩
  | 80 => ⟨S_, .i32⟩
  | 81 => ⟨S8192, .i32⟩
  | 82 => ⟨S8192, .i32⟩
  | 83 => ⟨S8192, .i32⟩
  | 84 => ⟨S8192x1, .i32⟩
  | 85 => ⟨S8192x64, .f32⟩
  | 86 => ⟨S_, .i32⟩
  | 87 => ⟨S8192, .i32⟩
  | 88 => ⟨S8192, .i1⟩
  | 89 => ⟨S_, .i32⟩
  | 90 => ⟨S8192, .i32⟩
  | 91 => ⟨S8192, .i32⟩
  | 92 => ⟨S8192, .i32⟩
  | 93 => ⟨S8192x1, .i32⟩
  | 94 => ⟨S8192x64, .f32⟩
  | 95 => ⟨S_, .i32⟩
  | 96 => ⟨S8192, .i32⟩
  | 97 => ⟨S8192, .i1⟩
  | 98 => ⟨S_, .i32⟩
  | 99 => ⟨S8192, .i32⟩
  | 100 => ⟨S8192, .i32⟩
  | 101 => ⟨S8192, .i32⟩
  | 102 => ⟨S8192x1, .i32⟩
  | 103 => ⟨S8192x2048, .f32⟩
  | 104 => ⟨S2048x64, .f32⟩
  | 105 => ⟨S8192x64, .f32⟩
  | 106 => ⟨S1x64, .f32⟩
  | 107 => ⟨S8192x64, .f32⟩
  | 108 => ⟨S8192x64, .f32⟩
  | 109 => ⟨S8192x64, .f32⟩
  | 110 => ⟨S_, .f32⟩
  | 111 => ⟨S8192, .f32⟩
  | 112 => ⟨S8192x1, .f32⟩
  | 113 => ⟨S8192x1, .f32⟩
  | 114 => ⟨S_, .f32⟩
  | 115 => ⟨S8192x1, .f32⟩
  | 116 => ⟨S8192x1, .f32⟩
  | 117 => ⟨S8192x64, .f32⟩
  | 118 => ⟨S8192x64, .f32⟩
  | 119 => ⟨S8192x64, .f32⟩
  | 120 => ⟨S_, .f32⟩
  | 121 => ⟨S8192, .f32⟩
  | 122 => ⟨S8192x64, .f32⟩
  | 123 => ⟨S_, .f32⟩
  | 124 => ⟨S8192, .f32⟩
  | 125 => ⟨S8192, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_1 : Ref sig .tc := ⟨.hbm, 56, rfl⟩
abbrev main_call0_cst : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_v39 : Ref sig .tc := ⟨.hbm, 63, rfl⟩
abbrev main_call1_v0 : Ref sig .tc := ⟨.hbm, 64, rfl⟩
abbrev main_call1_cst : Ref sig .tc := ⟨.hbm, 65, rfl⟩
abbrev main_call1_v1 : Ref sig .tc := ⟨.hbm, 66, rfl⟩
abbrev main_call1_v2 : Ref sig .tc := ⟨.hbm, 67, rfl⟩
abbrev main_v40 : Ref sig .tc := ⟨.hbm, 68, rfl⟩
abbrev main_cst_2 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_3 : Ref sig .tc := ⟨.hbm, 74, rfl⟩
abbrev main_v45 : Ref sig .tc := ⟨.hbm, 75, rfl⟩
abbrev main_v46 : Ref sig .tc := ⟨.hbm, 76, rfl⟩
abbrev main_c_4 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_5 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_6 : Ref sig .tc := ⟨.hbm, 111, rfl⟩
abbrev main_call2_cst : Ref sig .tc := ⟨.hbm, 112, rfl⟩
abbrev main_call2_v0 : Ref sig .tc := ⟨.hbm, 113, rfl⟩
abbrev main_call2_v1 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_v79 : Ref sig .tc := ⟨.hbm, 118, rfl⟩
abbrev main_call3_v0 : Ref sig .tc := ⟨.hbm, 119, rfl⟩
abbrev main_call3_cst : Ref sig .tc := ⟨.hbm, 120, rfl⟩
abbrev main_call3_v1 : Ref sig .tc := ⟨.hbm, 121, rfl⟩
abbrev main_call3_v2 : Ref sig .tc := ⟨.hbm, 122, rfl⟩
abbrev main_v80 : Ref sig .tc := ⟨.hbm, 123, rfl⟩
abbrev main_cst_7 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_c_8 : Ref sig .tc := ⟨.hbm, 129, rfl⟩
abbrev main_v85 : Ref sig .tc := ⟨.hbm, 130, rfl⟩
abbrev main_v86 : Ref sig .tc := ⟨.hbm, 131, rfl⟩
abbrev main_c_9 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_10 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_cst_11 : Ref sig .tc := ⟨.hbm, 166, rfl⟩
abbrev main_call4_cst : Ref sig .tc := ⟨.hbm, 167, rfl⟩
abbrev main_call4_v0 : Ref sig .tc := ⟨.hbm, 168, rfl⟩
abbrev main_call4_v1 : Ref sig .tc := ⟨.hbm, 169, rfl⟩
abbrev main_call4_v2 : Ref sig .tc := ⟨.hbm, 170, rfl⟩
abbrev main_call4_v3 : Ref sig .tc := ⟨.hbm, 171, rfl⟩
abbrev main_call4_v4 : Ref sig .tc := ⟨.hbm, 172, rfl⟩
abbrev main_v119 : Ref sig .tc := ⟨.hbm, 173, rfl⟩
abbrev main_call5_v0 : Ref sig .tc := ⟨.hbm, 174, rfl⟩
abbrev main_call5_cst : Ref sig .tc := ⟨.hbm, 175, rfl⟩
abbrev main_call5_v1 : Ref sig .tc := ⟨.hbm, 176, rfl⟩
abbrev main_call5_v2 : Ref sig .tc := ⟨.hbm, 177, rfl⟩
abbrev main_v120 : Ref sig .tc := ⟨.hbm, 178, rfl⟩
abbrev main_cst_12 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_cst_13 : Ref sig .tc := ⟨.hbm, 189, rfl⟩
abbrev main_v130 : Ref sig .tc := ⟨.hbm, 190, rfl⟩
abbrev main_cst_14 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_c_15 : Ref sig .tc := ⟨.hbm, 196, rfl⟩
abbrev main_v135 : Ref sig .tc := ⟨.hbm, 197, rfl⟩
abbrev main_v136 : Ref sig .tc := ⟨.hbm, 198, rfl⟩
abbrev main_c_16 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_c_17 : Ref sig .tc := ⟨.hbm, 205, rfl⟩
abbrev main_v142 : Ref sig .tc := ⟨.hbm, 206, rfl⟩
abbrev main_v143 : Ref sig .tc := ⟨.hbm, 207, rfl⟩
abbrev main_c_18 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_c_19 : Ref sig .tc := ⟨.hbm, 214, rfl⟩
abbrev main_v149 : Ref sig .tc := ⟨.hbm, 215, rfl⟩
abbrev main_v150 : Ref sig .tc := ⟨.hbm, 216, rfl⟩
abbrev main_c_20 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_c_21 : Ref sig .tc := ⟨.hbm, 223, rfl⟩
abbrev main_v156 : Ref sig .tc := ⟨.hbm, 224, rfl⟩
abbrev main_v157 : Ref sig .tc := ⟨.hbm, 225, rfl⟩
abbrev main_c_22 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_call6_v0 : Ref sig .tc := ⟨.hbm, 237, rfl⟩
abbrev main_call6_cst : Ref sig .tc := ⟨.hbm, 238, rfl⟩
abbrev main_call6_v1 : Ref sig .tc := ⟨.hbm, 239, rfl⟩
abbrev main_call6_v2 : Ref sig .tc := ⟨.hbm, 240, rfl⟩
abbrev main_v168 : Ref sig .tc := ⟨.hbm, 241, rfl⟩
abbrev main_cst_23 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_cst_24 : Ref sig .tc := ⟨.hbm, 248, rfl⟩
abbrev main_v174 : Ref sig .tc := ⟨.hbm, 249, rfl⟩
abbrev main_v175 : Ref sig .tc := ⟨.hbm, 250, rfl⟩
abbrev main_cst_25 : Ref sig .tc := ⟨.hbm, 251, rfl⟩
abbrev main_v176 : Ref sig .tc := ⟨.hbm, 252, rfl⟩
abbrev main_v177 : Ref sig .tc := ⟨.hbm, 253, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  concatenates_S50000x64_S50000x64_S100000x64_d0 : Shape.Concatenates [S50000x64, S50000x64] S100000x64 0
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000x1_S2000000x64_0_1 : S2000000x1.BroadcastsInDim S2000000x64 (![0, 1] : Fin 2 → Fin S2000000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S100000x64_S100000x1x64_0_2 : S100000x64.BroadcastsInDim S100000x1x64 (![0, 2] : Fin 2 → Fin S100000x1x64.rank)
  concatenates_S100000x1x64_S100000x1x64_S100000x1x64_S100000x1x64_S100000x4x64_d1 : Shape.Concatenates [S100000x1x64, S100000x1x64, S100000x1x64, S100000x1x64] S100000x4x64 1
  reducesTo_S100000x4x64_S100000x64_d1 : S100000x4x64.ReducesTo [1] S100000x64
  slices_S100000x64_S50000x64_0_0 : S100000x64.Slices ![0, 0] S50000x64
  slices_S100000x64_S50000x64_50000_0 : S100000x64.Slices ![50000, 0] S50000x64
  bcast_S_S8192 : S_.BroadcastsInDim S8192 (![] : Fin 0 → Fin S8192.rank)
  bcast_S8192_S8192x1_0 : S8192.BroadcastsInDim S8192x1 (![0] : Fin 1 → Fin S8192x1.rank)
  transposes_S64x2048_S2048x64_1_0 : S64x2048.Transposes [1, 0] S2048x64
  bcast_S1x64_S8192x64_0_1 : S1x64.BroadcastsInDim S8192x64 (![0, 1] : Fin 2 → Fin S8192x64.rank)
  reducesTo_S8192x64_S8192_d1 : S8192x64.ReducesTo [1] S8192
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  gather_S100000x64_S2000000x1_S2000000x64_1_0_n_n_0_1_164_wf : GatherDims.WF S100000x64 S2000000x1 S2000000x64 [1] [0] [] [0] [] 1 ![1, 64]
  scatter_S100000x64_S2000000x1_S2000000x64_1_0_0_1_wf : ScatterDims.WF S100000x64 S2000000x1 S2000000x64 [1] [0] [0] 1
  dot_S100000x64_S64x64_S100000x64_1_0_0_1_n_n_wf : DotDims.WF S100000x64 S64x64 S100000x64 [1] [0] [0] [1] [] []
  gather_S50000x64_S8192x1_S8192x64_1_0_n_n_0_1_164_wf : GatherDims.WF S50000x64 S8192x1 S8192x64 [1] [0] [] [0] [] 1 ![1, 64]
  gather_S50000x2048_S8192x1_S8192x2048_1_0_n_n_0_1_12048_wf : GatherDims.WF S50000x2048 S8192x1 S8192x2048 [1] [0] [] [0] [] 1 ![1, 2048]
  dot_S8192x2048_S2048x64_S8192x64_1_0_0_1_n_n_wf : DotDims.WF S8192x2048 S2048x64 S8192x64 [1] [0] [0] [1] [] []

variable [Facts₀]

def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S50000x64_S8192x1_S8192x64_1_0_n_n_0_1_164 : GatherDims S50000x64 S8192x1 S8192x64 where
  offsetDims := [1]
  collapsedSliceDims := [0]
  operandBatchingDims := []
  startIndicesBatchingDims := []
  startIndexMap := [0]
  indexVectorDim := 1
  sliceSizes := ![1, 64]
  wf := gather_S50000x64_S8192x1_S8192x64_1_0_n_n_0_1_164_wf
def gather_S50000x2048_S8192x1_S8192x2048_1_0_n_n_0_1_12048 : GatherDims S50000x2048 S8192x1 S8192x2048 where
  offsetDims := [1]
  collapsedSliceDims := [0]
  operandBatchingDims := []
  startIndicesBatchingDims := []
  startIndexMap := [0]
  indexVectorDim := 1
  sliceSizes := ![1, 2048]
  wf := gather_S50000x2048_S8192x1_S8192x2048_1_0_n_n_0_1_12048_wf
def dot_S8192x2048_S2048x64_S8192x64_1_0_0_1_n_n : DotDims S8192x2048 S2048x64 S8192x64 where
  lhsContracting := [1]
  rhsContracting := [0]
  lhsNonContracting := [0]
  rhsNonContracting := [1]
  lhsBatch := []
  rhsBatch := []
  wf := dot_S8192x2048_S2048x64_S8192x64_1_0_0_1_n_n_wf

class Facts : Prop extends Facts₀ where

variable [Facts]
-- ==== Proof.KerRun.lean ====
/-
  The idealized kernel program's run with its result named.

  @main is nine segments: five stretches of host operations around four pipelined regions.  Every weakly fair execution
  terminates, and in the final state every unscoped buffer of a core holds the contents the segments' fold leaves there
  (`W9`): the result buffer among them, and each argument as launched.
-/
import proofs.«174847_j28037546508681_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting; the result buffer ends at the last boundary's
    contents and the argument arrays as launched. -/
theorem run_result : θ_run defs (onTc (τ := τ) (main (F := F))) ⟨m, fun _ => 0, ρ⟩ (fun r => ∀ c : Dev nD,
      r.2.mem ((c.tc : Thread nD τ).loc main_v121) = W9 m ρ c (Proc.devRef .tc main_v121)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v121 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c)⟩)

end Cert.KernelIdeal.Run

end
-- ==== Proof.Spec.lean ====
/-
  The row-level specification both programs are compared against.

  One NGCF layer acts on a node's row alone once the neighbourhood sum is given: with `x` the node's embedding and `a` its
  aggregated neighbourhood, the pre-activation at feature `q` is
      ((Σ_k (x k + a k) · w₁ k q + b₁ q) + Σ_k (x k · a k) · w₂ k q) + b₂ q,
  then a leaky rectifier of slope 0.2, then the row divided by `max (‖row‖₂, 1e-12)`.  The batch score of a (user, item) pair is
  `Σ γᵤ·γᵢ + Σ θᵤ·p`, `p` the normalised projection `f · Pw + pb` of the item's feature row.  The three literals are kept as
  the words both programs print (0, 0.2 and 1e-12 as f32 patterns); all arithmetic is on the extended reals.
-/
import Idealize.ShloMosaic.PureOps.Ideal
import Idealize.ShloMosaic.PureOps.Ideal.Laws

noncomputable section

namespace Cert.Spec

open Idealize.ShloMosaic
open scoped BigOperators

/-- The f32 word of `0`. -/
abbrev zeroW : EReal := Ideal.ofBits .f32 0x00000000#32
/-- The f32 word of the slope `0.2`. -/
abbrev slopeW : EReal := Ideal.ofBits .f32 0x3E4CCCCD#32
/-- The f32 word of the floor `1e-12` under a norm. -/
abbrev floorW : EReal := Ideal.ofBits .f32 0x2B8CBCCC#32

/-- The leaky rectifier: `v` where `v ≥ 0`, else `0.2 · v`. -/
def lrelu (v : EReal) : EReal :=
  Scalar.select (FloatOps.cmpf (F := Ideal) (φ := .f32) .oge v zeroW) v (slopeW * v)

/-- Entry `q` of a row divided by the larger of its Euclidean norm and the floor. -/
def unitRow {n : ℕ} (h : Fin n → EReal) (q : Fin n) : EReal :=
  Ideal.div (h q) (max (Ideal.sqrt (∑ k, h k * h k)) floorW)

/-- A layer's pre-activation at feature `q`, from the node's row `xr`, its neighbourhood sum `ar`, the two weight matrices read
    as `w k q` (input feature `k`, output feature `q`) and the two biases. -/
def rowPre {n : ℕ} (xr ar : Fin n → EReal) (w1 w2 : Fin n → Fin n → EReal) (b1 b2 : Fin n → EReal) (q : Fin n) : EReal :=
  (((∑ k, (xr k + ar k) * w1 k q) + b1 q) + ∑ k, (xr k * ar k) * w2 k q) + b2 q

/-- One layer on one node's row, at feature `q`. -/
def rowLayer {n : ℕ} (xr ar : Fin n → EReal) (w1 w2 : Fin n → Fin n → EReal) (b1 b2 : Fin n → EReal) (q : Fin n) : EReal :=
  unitRow (fun q' => lrelu (rowPre xr ar w1 w2 b1 b2 q')) q

/-- The score of one (user, item) pair: `f` the item's feature row, `pw j q` the projection, `pb` its bias, `gu gi tu` the
    pair's three embedding rows. -/
def rowBatch {K n : ℕ} (f : Fin K → EReal) (pw : Fin K → Fin n → EReal) (pb gu gi tu : Fin n → EReal) : EReal :=
  (∑ k, gu k * gi k) + ∑ k, tu k * unitRow (fun q => (∑ j, f j * pw j q) + pb q) k

end Cert.Spec

end
-- ==== Proof.KerArr.lean ====
/-
  What a layer region and the batch region leave in their output arrays, as whole-array functions.

  A layer region tiles the node array by blocks of 2000 rows; row `r` of its output depends only on row `r` of the node array
  and of the neighbourhood sum (and on the whole weights and biases), so the output array is one function of the region's six
  input arrays, row by row the specification's `rowLayer`.  The batch region tiles the 8192 pairs by blocks of 512 and leaves a
  one-column array, row by row the specification's `rowBatch`.
-/
import Idealize.ShloMosaic.Lib.ValueIdx
import proofs.«174847_j28037546508681_1_alg».proof.Proof.Spec

noncomputable section

namespace Cert.Arr

open Idealize.ShloMosaic Idealize.ShloMosaic.ValueIdx

/-- One layer over the whole node array: `x` the nodes, `a` their neighbourhood sums, `w1 w2` the weights read `(k, q)`
    (input feature, output feature), `b1 b2` the biases as one-row arrays. -/
def layerArr (x a : (⟨2, ![100000, 64]⟩ : Shape).Idx → EReal) (w1 : (⟨2, ![64, 64]⟩ : Shape).Idx → EReal)
    (b1 : (⟨2, ![1, 64]⟩ : Shape).Idx → EReal) (w2 : (⟨2, ![64, 64]⟩ : Shape).Idx → EReal)
    (b2 : (⟨2, ![1, 64]⟩ : Shape).Idx → EReal) : (⟨2, ![100000, 64]⟩ : Shape).Idx → EReal :=
  fun i => Cert.Spec.rowLayer (fun k => x (ix2 (n0 := 100000) (n1 := 64) (i 0) k)) (fun k => a (ix2 (n0 := 100000) (n1 := 64) (i 0) k))
    (fun k q => w1 (ix2 k q)) (fun k q => w2 (ix2 k q)) (fun q => b1 (ix2 (0 : Fin 1) q)) (fun q => b2 (ix2 (0 : Fin 1) q)) (i 1)

/-- The batch scores as a one-column array: `f` the pairs' feature rows, `pw` the projection read `(j, q)`, `pb` its bias as a
    one-row array, `gu gi tu` the pairs' embedding rows. -/
def batchArr (f : (⟨2, ![8192, 2048]⟩ : Shape).Idx → EReal) (pw : (⟨2, ![2048, 64]⟩ : Shape).Idx → EReal)
    (pb : (⟨2, ![1, 64]⟩ : Shape).Idx → EReal) (gu gi tu : (⟨2, ![8192, 64]⟩ : Shape).Idx → EReal) :
    (⟨2, ![8192, 1]⟩ : Shape).Idx → EReal :=
  fun i => Cert.Spec.rowBatch (fun j => f (ix2 (n0 := 8192) (n1 := 2048) (i 0) j)) (fun j q => pw (ix2 j q)) (fun q => pb (ix2 (0 : Fin 1) q))
    (fun k => gu (ix2 (n0 := 8192) (n1 := 64) (i 0) k)) (fun k => gi (ix2 (n0 := 8192) (n1 := 64) (i 0) k))
    (fun k => tu (ix2 (n0 := 8192) (n1 := 64) (i 0) k))

/-- `rowLayer` depends on its arguments only through their values. -/
theorem rowLayer_congr {n : ℕ} {x x' a a' : Fin n → EReal} {w1 w1' w2 w2' : Fin n → Fin n → EReal} {b1 b1' b2 b2' : Fin n → EReal}
    {q q' : Fin n} (hx : ∀ k, x k = x' k) (ha : ∀ k, a k = a' k) (hw1 : ∀ k r, w1 k r = w1' k r) (hw2 : ∀ k r, w2 k r = w2' k r)
    (hb1 : ∀ r, b1 r = b1' r) (hb2 : ∀ r, b2 r = b2' r) (hq : q = q') :
    Cert.Spec.rowLayer x a w1 w2 b1 b2 q = Cert.Spec.rowLayer x' a' w1' w2' b1' b2' q' := by
  obtain rfl : x = x' := funext hx
  obtain rfl : a = a' := funext ha
  obtain rfl : w1 = w1' := funext fun k => funext (hw1 k)
  obtain rfl : w2 = w2' := funext fun k => funext (hw2 k)
  obtain rfl : b1 = b1' := funext hb1
  obtain rfl : b2 = b2' := funext hb2
  rw [hq]

/-- `rowBatch` depends on its arguments only through their values. -/
theorem rowBatch_congr {K n : ℕ} {f f' : Fin K → EReal} {pw pw' : Fin K → Fin n → EReal} {pb pb' gu gu' gi gi' tu tu' : Fin n → EReal}
    (hf : ∀ j, f j = f' j) (hpw : ∀ j r, pw j r = pw' j r) (hpb : ∀ r, pb r = pb' r) (hgu : ∀ k, gu k = gu' k)
    (hgi : ∀ k, gi k = gi' k) (htu : ∀ k, tu k = tu' k) :
    Cert.Spec.rowBatch f pw pb gu gi tu = Cert.Spec.rowBatch f' pw' pb' gu' gi' tu' := by
  obtain rfl : f = f' := funext hf
  obtain rfl : pw = pw' := funext fun j => funext (hpw j)
  obtain rfl : pb = pb' := funext hpb
  obtain rfl : gu = gu' := funext hgu
  obtain rfl : gi = gi' := funext hgi
  obtain rfl : tu = tu' := funext htu
  rfl

end Cert.Arr

end
-- ==== Proof.KerStages.lean ====
/-
  The host operations around the kernel program's four regions, as named stages, for any float instance.

  Between its regions the kernel program prepares each layer's operands — the node array, the edges' sources and targets, the
  weighted neighbourhood sum, the layer's slab of each weight array transposed and its bias row —, keeps a running sum of the
  embeddings, and after the last layer divides it by 4, splits it into users and items and looks up the batch's rows.
-/
import proofs.«174847_j28037546508681_1_alg».proof.Proof.Gen.KernelIdeal

noncomputable section

namespace Cert.KernelIdeal.Stage

open Idealize.ShloMosaic Cert.KernelIdeal Cert.KernelIdeal.Facts₀ Cert.KernelIdeal.Facts

variable {F : FTy → Type} [FloatOps F]

/-- Row `r` of the edge list `[2, E]` as a vector (`r = 0`: sources). -/
def edgeSrc (ei : IVec S2x2000000 32) : IVec S2000000 32 :=
  shapeCast S2000000 (extractStridedSlice S1x2000000 ![0, 0] ei slices_S2x2000000_S1x2000000_0_0) shapeCasts_S1x2000000_S2000000
/-- Row 1 of the edge list: targets. -/
def edgeDst (ei : IVec S2x2000000 32) : IVec S2000000 32 :=
  shapeCast S2000000 (extractStridedSlice S1x2000000 ![1, 0] ei slices_S2x2000000_S1x2000000_1_0) shapeCasts_S1x2000000_S2000000

/-- Users above items: the node array. -/
def nodes (gu gi : FVec F S50000x64 .f32) : FVec F S100000x64 .f32 :=
  concatenate S100000x64 0 [⟨S50000x64, gu⟩, ⟨S50000x64, gi⟩] concatenates_S50000x64_S50000x64_S100000x64_d0

/-- A negative node number counts from the end (the node count added), as array indexing normalises it. -/
def wrapNode (idx : IVec S2000000 32) : IVec S2000000 32 :=
  select (cmpi .slt idx (broadcastInDim S2000000 ![] bcast_S_S2000000 (constantI S_ 32 0#32)))
    (addi idx (broadcastInDim S2000000 ![] bcast_S_S2000000 (constantI S_ 32 100000#32))) idx

/-- The weighted neighbourhood sum: rows of `x` at the edges' sources, each scaled by its edge weight, accumulated at the
    edges' targets into zeros. -/
def aggK (x : FVec F S100000x64 .f32) (ew : FVec F S2000000 .f32) (src dst : IVec S2000000 32) : FVec F S100000x64 .f32 :=
  Host.scatterAdd scatter_S100000x64_S2000000x1_S2000000x64_1_0_0_1
    (broadcastInDim S100000x64 ![] bcast_S_S100000x64 (constant S_ .f32 0x00000000#32))
    (broadcastInDim S2000000x1 ![0] bcast_S2000000_S2000000x1_0 dst)
    (mulf (Host.gather gather_S100000x64_S2000000x1_S2000000x64_1_0_n_n_0_1_164 x
            (broadcastInDim S2000000x1 ![0] bcast_S2000000_S2000000x1_0 (wrapNode src)))
          (broadcastInDim S2000000x64 ![0, 1] bcast_S2000000x1_S2000000x64_0_1
            (broadcastInDim S2000000x1 ![0] bcast_S2000000_S2000000x1_0 ew)))

/-- Layer 0's slab of a stacked `[3, 64, 64]` weight array. -/
def slabW0 (w : FVec F S3x64x64 .f32) : FVec F S64x64 .f32 :=
  shapeCast S64x64 (extractStridedSlice S1x64x64 ![0, 0, 0] w slices_S3x64x64_S1x64x64_0_0_0) shapeCasts_S1x64x64_S64x64
/-- Layer 1's slab. -/
def slabW1 (w : FVec F S3x64x64 .f32) : FVec F S64x64 .f32 :=
  shapeCast S64x64 (extractStridedSlice S1x64x64 ![1, 0, 0] w slices_S3x64x64_S1x64x64_1_0_0) shapeCasts_S1x64x64_S64x64
/-- Layer 2's slab. -/
def slabW2 (w : FVec F S3x64x64 .f32) : FVec F S64x64 .f32 :=
  shapeCast S64x64 (extractStridedSlice S1x64x64 ![2, 0, 0] w slices_S3x64x64_S1x64x64_2_0_0) shapeCasts_S1x64x64_S64x64
/-- Layer 0's row of a stacked `[3, 64]` bias array. -/
def slabB0 (b : FVec F S3x64 .f32) : FVec F S64 .f32 :=
  shapeCast S64 (extractStridedSlice S1x64 ![0, 0] b slices_S3x64_S1x64_0_0) shapeCasts_S1x64_S64
/-- Layer 1's row. -/
def slabB1 (b : FVec F S3x64 .f32) : FVec F S64 .f32 :=
  shapeCast S64 (extractStridedSlice S1x64 ![1, 0] b slices_S3x64_S1x64_1_0) shapeCasts_S1x64_S64
/-- Layer 2's row. -/
def slabB2 (b : FVec F S3x64 .f32) : FVec F S64 .f32 :=
  shapeCast S64 (extractStridedSlice S1x64 ![2, 0] b slices_S3x64_S1x64_2_0) shapeCasts_S1x64_S64

/-- The users' half of the node array. -/
def userHalf (e : FVec F S100000x64 .f32) : FVec F S50000x64 .f32 :=
  extractStridedSlice S50000x64 ![0, 0] e slices_S100000x64_S50000x64_0_0
/-- The items' half. -/
def itemHalf (e : FVec F S100000x64 .f32) : FVec F S50000x64 .f32 :=
  extractStridedSlice S50000x64 ![50000, 0] e slices_S100000x64_S50000x64_50000_0

/-- A negative batch index counts from the end of a 50000-row table. -/
def wrapBatch (idx : IVec S8192 32) : IVec S8192 32 :=
  select (cmpi .slt idx (broadcastInDim S8192 ![] bcast_S_S8192 (constantI S_ 32 0#32)))
    (addi idx (broadcastInDim S8192 ![] bcast_S_S8192 (constantI S_ 32 50000#32))) idx

/-- The batch's rows of a `[50000, 64]` table. -/
def take64 (x : FVec F S50000x64 .f32) (idx : IVec S8192 32) : FVec F S8192x64 .f32 :=
  Host.gather gather_S50000x64_S8192x1_S8192x64_1_0_n_n_0_1_164 x
    (broadcastInDim S8192x1 ![0] bcast_S8192_S8192x1_0 (wrapBatch idx))
/-- The batch's rows of the `[50000, 2048]` feature table. -/
def take2048 (x : FVec F S50000x2048 .f32) (idx : IVec S8192 32) : FVec F S8192x2048 .f32 :=
  Host.gather gather_S50000x2048_S8192x1_S8192x2048_1_0_n_n_0_1_12048 x
    (broadcastInDim S8192x1 ![0] bcast_S8192_S8192x1_0 (wrapBatch idx))

/-- A `[64, 64]` weight slab transposed: `(k, q) ↦ w (q, k)`. -/
def tr64 (w : FVec F S64x64 .f32) : FVec F S64x64 .f32 := transpose S64x64 [1, 0] w transposes_S64x64_S64x64_1_0
/-- A bias vector as a one-row array. -/
def asRow64 (b : FVec F S64 .f32) : FVec F S1x64 .f32 := shapeCast S1x64 b shapeCasts_S64_S1x64
/-- The projection `[64, 2048]` transposed. -/
def trPw (pw : FVec F S64x2048 .f32) : FVec F S2048x64 .f32 := transpose S2048x64 [1, 0] pw transposes_S64x2048_S2048x64_1_0
/-- A node array divided by 4. -/
def quarter (e : FVec F S100000x64 .f32) : FVec F S100000x64 .f32 :=
  Host.divf e (broadcastInDim S100000x64 ![] bcast_S_S100000x64 (constant S_ .f32 0x40800000#32))
/-- The running sum of four embeddings divided by 4. -/
def mean4K (e0 e1 e2 e3 : FVec F S100000x64 .f32) : FVec F S100000x64 .f32 :=
  quarter (addf (addf (addf e0 e1) e2) e3)
/-- A one-column array as a vector. -/
def colVec (v : FVec F S8192x1 .f32) : FVec F S8192 .f32 := shapeCast S8192 v shapeCasts_S8192x1_S8192

end Cert.KernelIdeal.Stage

end
-- ==== Proof.KerHost.lean ====
/-
  The kernel program's host stretches read at the buffers later segments use.

  Each stretch is a list of host operations folded over the buffer contents it starts from; read at one buffer the fold is the
  composition of the operations that lead to it, written with the named stages.
-/
import proofs.«174847_j28037546508681_1_alg».proof.Proof.Gen.KernelIdeal.Launch
import proofs.«174847_j28037546508681_1_alg».proof.Proof.KerStages
import Idealize.ShloMosaic.Lib.StableHlo.Run

set_option maxRecDepth 16384

noncomputable section

namespace Cert.KernelIdeal.HostRead

open Cert.KernelIdeal Cert.KernelIdeal.Gen Cert.KernelIdeal.Stage
open Idealize.ShloMosaic Idealize.ShloMosaic.TcCoe Idealize.SL.Sem Idealize.ShloMosaic.StableHlo

variable {F : FTy → Type} [FloatOps F] (W : Valuation τ sig (Elt F))

/-! ## Before the first layer -/

theorem h0_nodes : after hostOps0 W (Proc.devRef .tc main_v4) = nodes (W (Proc.devRef .tc main_arg0)) (W (Proc.devRef .tc main_arg1)) := by
  after_results_simp
  first | done | rfl
theorem h0_src : after hostOps0 W (Proc.devRef .tc main_v1) = edgeSrc (W (Proc.devRef .tc main_arg11)) := by
  after_results_simp
  first | done | rfl
theorem h0_dst : after hostOps0 W (Proc.devRef .tc main_v3) = edgeDst (W (Proc.devRef .tc main_arg11)) := by
  after_results_simp
  first | done | rfl
theorem h0_agg : after hostOps0 W (Proc.devRef .tc main_v17) = aggK (nodes (W (Proc.devRef .tc main_arg0)) (W (Proc.devRef .tc main_arg1))) (W (Proc.devRef .tc main_arg10)) (edgeSrc (W (Proc.devRef .tc main_arg11))) (edgeDst (W (Proc.devRef .tc main_arg11))) := by
  after_results_simp
  first | done | rfl
theorem h0_w1 : after hostOps0 W (Proc.devRef .tc main_v20) = tr64 (slabW0 (W (Proc.devRef .tc main_arg6))) := by
  after_results_simp
  first | done | rfl
theorem h0_w2 : after hostOps0 W (Proc.devRef .tc main_v23) = tr64 (slabW0 (W (Proc.devRef .tc main_arg8))) := by
  after_results_simp
  first | done | rfl
theorem h0_b1 : after hostOps0 W (Proc.devRef .tc main_v26) = asRow64 (slabB0 (W (Proc.devRef .tc main_arg7))) := by
  after_results_simp
  first | done | rfl
theorem h0_b2 : after hostOps0 W (Proc.devRef .tc main_v29) = asRow64 (slabB0 (W (Proc.devRef .tc main_arg9))) := by
  after_results_simp
  first | done | rfl
theorem h0_arg2 : after hostOps0 W (Proc.devRef .tc main_arg2) = W (Proc.devRef .tc main_arg2) := by
  after_results_simp
theorem h0_arg3 : after hostOps0 W (Proc.devRef .tc main_arg3) = W (Proc.devRef .tc main_arg3) := by
  after_results_simp
theorem h0_arg4 : after hostOps0 W (Proc.devRef .tc main_arg4) = W (Proc.devRef .tc main_arg4) := by
  after_results_simp
theorem h0_arg5 : after hostOps0 W (Proc.devRef .tc main_arg5) = W (Proc.devRef .tc main_arg5) := by
  after_results_simp
theorem h0_arg6 : after hostOps0 W (Proc.devRef .tc main_arg6) = W (Proc.devRef .tc main_arg6) := by
  after_results_simp
theorem h0_arg7 : after hostOps0 W (Proc.devRef .tc main_arg7) = W (Proc.devRef .tc main_arg7) := by
  after_results_simp
theorem h0_arg8 : after hostOps0 W (Proc.devRef .tc main_arg8) = W (Proc.devRef .tc main_arg8) := by
  after_results_simp
theorem h0_arg9 : after hostOps0 W (Proc.devRef .tc main_arg9) = W (Proc.devRef .tc main_arg9) := by
  after_results_simp
theorem h0_arg10 : after hostOps0 W (Proc.devRef .tc main_arg10) = W (Proc.devRef .tc main_arg10) := by
  after_results_simp
theorem h0_arg12 : after hostOps0 W (Proc.devRef .tc main_arg12) = W (Proc.devRef .tc main_arg12) := by
  after_results_simp
theorem h0_arg13 : after hostOps0 W (Proc.devRef .tc main_arg13) = W (Proc.devRef .tc main_arg13) := by
  after_results_simp

/-! ## Between the first and second layers -/

theorem h1_sum : after hostOps1 W (Proc.devRef .tc main_v31) = addf (W (Proc.devRef .tc main_v4)) (W (Proc.devRef .tc main_v30)) := by
  after_results_simp
  first | done | rfl
theorem h1_agg : after hostOps1 W (Proc.devRef .tc main_v44) = aggK (W (Proc.devRef .tc main_v30)) (W (Proc.devRef .tc main_arg10)) (W (Proc.devRef .tc main_v1)) (W (Proc.devRef .tc main_v3)) := by
  after_results_simp
  first | done | rfl
theorem h1_w1 : after hostOps1 W (Proc.devRef .tc main_v47) = tr64 (slabW1 (W (Proc.devRef .tc main_arg6))) := by
  after_results_simp
  first | done | rfl
theorem h1_w2 : after hostOps1 W (Proc.devRef .tc main_v50) = tr64 (slabW1 (W (Proc.devRef .tc main_arg8))) := by
  after_results_simp
  first | done | rfl
theorem h1_b1 : after hostOps1 W (Proc.devRef .tc main_v53) = asRow64 (slabB1 (W (Proc.devRef .tc main_arg7))) := by
  after_results_simp
  first | done | rfl
theorem h1_b2 : after hostOps1 W (Proc.devRef .tc main_v56) = asRow64 (slabB1 (W (Proc.devRef .tc main_arg9))) := by
  after_results_simp
  first | done | rfl
theorem h1_v30 : after hostOps1 W (Proc.devRef .tc main_v30) = W (Proc.devRef .tc main_v30) := by
  after_results_simp
theorem h1_v1 : after hostOps1 W (Proc.devRef .tc main_v1) = W (Proc.devRef .tc main_v1) := by
  after_results_simp
theorem h1_v3 : after hostOps1 W (Proc.devRef .tc main_v3) = W (Proc.devRef .tc main_v3) := by
  after_results_simp
theorem h1_arg2 : after hostOps1 W (Proc.devRef .tc main_arg2) = W (Proc.devRef .tc main_arg2) := by
  after_results_simp
theorem h1_arg3 : after hostOps1 W (Proc.devRef .tc main_arg3) = W (Proc.devRef .tc main_arg3) := by
  after_results_simp
theorem h1_arg4 : after hostOps1 W (Proc.devRef .tc main_arg4) = W (Proc.devRef .tc main_arg4) := by
  after_results_simp
theorem h1_arg5 : after hostOps1 W (Proc.devRef .tc main_arg5) = W (Proc.devRef .tc main_arg5) := by
  after_results_simp
theorem h1_arg6 : after hostOps1 W (Proc.devRef .tc main_arg6) = W (Proc.devRef .tc main_arg6) := by
  after_results_simp
theorem h1_arg7 : after hostOps1 W (Proc.devRef .tc main_arg7) = W (Proc.devRef .tc main_arg7) := by
  after_results_simp
theorem h1_arg8 : after hostOps1 W (Proc.devRef .tc main_arg8) = W (Proc.devRef .tc main_arg8) := by
  after_results_simp
theorem h1_arg9 : after hostOps1 W (Proc.devRef .tc main_arg9) = W (Proc.devRef .tc main_arg9) := by
  after_results_simp
theorem h1_arg10 : after hostOps1 W (Proc.devRef .tc main_arg10) = W (Proc.devRef .tc main_arg10) := by
  after_results_simp
theorem h1_arg12 : after hostOps1 W (Proc.devRef .tc main_arg12) = W (Proc.devRef .tc main_arg12) := by
  after_results_simp
theorem h1_arg13 : after hostOps1 W (Proc.devRef .tc main_arg13) = W (Proc.devRef .tc main_arg13) := by
  after_results_simp

/-! ## Between the second and third layers -/

theorem h2_sum : after hostOps2 W (Proc.devRef .tc main_v58) = addf (W (Proc.devRef .tc main_v31)) (W (Proc.devRef .tc main_v57)) := by
  after_results_simp
  first | done | rfl
theorem h2_agg : after hostOps2 W (Proc.devRef .tc main_v71) = aggK (W (Proc.devRef .tc main_v57)) (W (Proc.devRef .tc main_arg10)) (W (Proc.devRef .tc main_v1)) (W (Proc.devRef .tc main_v3)) := by
  after_results_simp
  first | done | rfl
theorem h2_w1 : after hostOps2 W (Proc.devRef .tc main_v74) = tr64 (slabW2 (W (Proc.devRef .tc main_arg6))) := by
  after_results_simp
  first | done | rfl
theorem h2_w2 : after hostOps2 W (Proc.devRef .tc main_v77) = tr64 (slabW2 (W (Proc.devRef .tc main_arg8))) := by
  after_results_simp
  first | done | rfl
theorem h2_b1 : after hostOps2 W (Proc.devRef .tc main_v80) = asRow64 (slabB2 (W (Proc.devRef .tc main_arg7))) := by
  after_results_simp
  first | done | rfl
theorem h2_b2 : after hostOps2 W (Proc.devRef .tc main_v83) = asRow64 (slabB2 (W (Proc.devRef .tc main_arg9))) := by
  after_results_simp
  first | done | rfl
theorem h2_v57 : after hostOps2 W (Proc.devRef .tc main_v57) = W (Proc.devRef .tc main_v57) := by
  after_results_simp
theorem h2_arg2 : after hostOps2 W (Proc.devRef .tc main_arg2) = W (Proc.devRef .tc main_arg2) := by
  after_results_simp
theorem h2_arg3 : after hostOps2 W (Proc.devRef .tc main_arg3) = W (Proc.devRef .tc main_arg3) := by
  after_results_simp
theorem h2_arg4 : after hostOps2 W (Proc.devRef .tc main_arg4) = W (Proc.devRef .tc main_arg4) := by
  after_results_simp
theorem h2_arg5 : after hostOps2 W (Proc.devRef .tc main_arg5) = W (Proc.devRef .tc main_arg5) := by
  after_results_simp
theorem h2_arg12 : after hostOps2 W (Proc.devRef .tc main_arg12) = W (Proc.devRef .tc main_arg12) := by
  after_results_simp
theorem h2_arg13 : after hostOps2 W (Proc.devRef .tc main_arg13) = W (Proc.devRef .tc main_arg13) := by
  after_results_simp

/-! ## After the third layer: the mean, the halves and the batch's rows -/

theorem h3_gu : after hostOps3 W (Proc.devRef .tc main_v96) = take64 (userHalf (quarter (addf (W (Proc.devRef .tc main_v58)) (W (Proc.devRef .tc main_v84))))) (W (Proc.devRef .tc main_arg12)) := by
  after_results_simp
  first | done | rfl
theorem h3_gi : after hostOps3 W (Proc.devRef .tc main_v103) = take64 (itemHalf (quarter (addf (W (Proc.devRef .tc main_v58)) (W (Proc.devRef .tc main_v84))))) (W (Proc.devRef .tc main_arg13)) := by
  after_results_simp
  first | done | rfl
theorem h3_tu : after hostOps3 W (Proc.devRef .tc main_v110) = take64 (W (Proc.devRef .tc main_arg2)) (W (Proc.devRef .tc main_arg12)) := by
  after_results_simp
  first | done | rfl
theorem h3_f : after hostOps3 W (Proc.devRef .tc main_v117) = take2048 (W (Proc.devRef .tc main_arg3)) (W (Proc.devRef .tc main_arg13)) := by
  after_results_simp
  first | done | rfl
theorem h3_pw : after hostOps3 W (Proc.devRef .tc main_v118) = trPw (W (Proc.devRef .tc main_arg4)) := by
  after_results_simp
  first | done | rfl
theorem h3_pb : after hostOps3 W (Proc.devRef .tc main_v119) = asRow64 (W (Proc.devRef .tc main_arg5)) := by
  after_results_simp
  first | done | rfl

/-! ## After the batch region -/

theorem h4_out : after hostOps4 W (Proc.devRef .tc main_v121) = colVec (W (Proc.devRef .tc main_v120)) := by
  after_results_simp
  first | done | rfl

end Cert.KernelIdeal.HostRead

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.LibRowMax.lean ====
/-
  A row's maximum read at an index.

  A `vector.multi_reduction <maximumf>` of an `[R, K]` array over its second axis, read on the extended reals at row
  `p`, is the fold of `max` from the accumulator's value over the `K` entries `src (p, k)` of that row: the reduced index
  `(p)` with the coordinate `k` put back on the reduced axis is `(p, k)`.
-/
import Idealize.ShloMosaic.PureOps.Ideal.Laws
import Idealize.ShloMosaic.Lib.ValueIdx

noncomputable section

namespace Cert.Lib

open Idealize.ShloMosaic Idealize.ShloMosaic.ValueIdx

variable {R K : ℕ}

/-- The reduced index `(p)` with coordinate `k` inserted on axis 1 is `(p, k)`. -/
theorem lift_lastAxis2 (h : (⟨2, ![R, K]⟩ : Shape).Reduces [1] (⟨1, ![R]⟩ : Shape)) (p : Fin R)
    (k : Fin ((⟨2, ![R, K]⟩ : Shape).size 1)) : h.lift (ix1 p) k = ix2 p (⟨k.val, k.isLt⟩ : Fin K) := by
  funext c; apply Fin.ext
  fin_cases c <;> rfl

/-- A float maximum over the second axis of an `[R, K]` array, at row `p`: the fold of `max` over that row. -/
theorem multiReduction_maximumf_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin K)).fold max (Ideal.ofBits φ acc) (fun k => src (ix2 p k)) := by
  refine (Ideal.multiReduction_maximumf_single src acc h hφ hacc (ix1 p)).trans ?_
  have hf : (src ∘ h.lift (ix1 p)) = fun k : Fin K => src (ix2 p k) :=
    funext fun k => congrArg src (lift_lastAxis2 h p k)
  exact congrArg (fun f => Finset.fold max (Ideal.ofBits φ acc) f (Finset.univ : Finset (Fin K))) hf

end Cert.Lib

end
-- ==== Proof.LibRowSum.lean ====
/-
  A row's sum read at an index.

  A `vector.multi_reduction <add>` of an `[R, K]` array over its second axis, read on the extended reals at row `p`, is
  the sum of the `K` entries `src (p, k)` of that row (the accumulator is the additive neutral word, so nothing is added
  in front); the host's one-operand `reduce` with an add body over the same axis is its initial value plus that sum.
-/
import Idealize.ShloMosaic.PureOps.Ideal.Laws
import Idealize.ShloMosaic.Lib.ValueIdx
import proofs.«174847_j28037546508681_1_alg».proof.Proof.LibRowMax

noncomputable section

namespace Cert.Lib

open Idealize.ShloMosaic Idealize.ShloMosaic.ValueIdx
open scoped BigOperators

variable {R K : ℕ}

/-- A float sum over the second axis of an `[R, K]` array, at row `p`: the sum over that row. -/
theorem multiReduction_add_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin K, src (ix2 p k) := by
  refine (Ideal.multiReduction_add_single src acc h hφ hacc (ix1 p)).trans ?_
  exact Finset.sum_congr rfl fun k _ => congrArg src (lift_lastAxis2 h p k)

/-- The host's float sum over the second axis of an `[R, K]` array, at row `p`: the initial value plus the sum over that row. -/
theorem hostReduceAdd_rows {φ : FTy} {u : Shape} (x : FVec Ideal ⟨2, ![R, K]⟩ φ) (init : u.Idx → Ideal φ)
    (h' : (⟨2, ![R, K]⟩ : Shape).ReducesTo [1] (⟨1, ![R]⟩ : Shape)) (h : (⟨2, ![R, K]⟩ : Shape).Reduces [1] (⟨1, ![R]⟩ : Shape))
    (hu : 0 < u.numel) (p : Fin R) :
    Host.reduceAdd x init h' hu (ix1 p) = init (Shape.Idx.first hu) + ∑ k : Fin K, x (ix2 p k) := by
  unfold Host.reduceAdd
  rw [Ideal.hostReduceAdd_def, Ideal.hostReduceAdd_single h' h]
  exact congrArg (_ + ·) (Finset.sum_congr rfl fun k _ => congrArg x (lift_lastAxis2 h p k))

end Cert.Lib

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.KerPay.lean ====
/-
  The kernels' arithmetic read at an index, against the row-level specification.

  Each layer region computes, on a block of 2000 node rows, the dense transform `(x + a)·W₁ + b₁ + (x ∘ a)·W₂ + b₂` (two matrix
  products into a zero accumulator, the operands' narrowing casts being the identity on the extended reals), the leaky rectifier,
  and the division of each row by the larger of its Euclidean norm and the floor. Read at `(p, q)` this is the specification's
  `rowLayer` of row `p` of the two blocks, at feature `q`: the matrix product at `(p, q)` is the sum over the contracted
  coordinate, the lane sum of the squares at row `p` is the sum over that row, and the keepdims column and the one-row biases
  read back their single entry.  The batch region's score of a pair is read the same way: two lane sums kept as columns, the
  second over the pair's third row times the normalised projection of the item's feature row.
-/
import proofs.«174847_j28037546508681_1_alg».proof.Proof.Gen.KernelIdeal.Skeleton
import proofs.«174847_j28037546508681_1_alg».proof.Proof.Spec
import proofs.«174847_j28037546508681_1_alg».proof.Proof.LibMatDot
import proofs.«174847_j28037546508681_1_alg».proof.Proof.LibRowSum
import proofs.«174847_j28037546508681_1_alg».proof.Proof.LibColumn
import Idealize.ShloMosaic.Lib.ValueLayout

noncomputable section

namespace Cert.KernelIdeal.Pay

open Cert.KernelIdeal Cert.KernelIdeal.Gen
open Idealize.ShloMosaic Idealize.ShloMosaic.ValueIdx Idealize.SL.Sem
open scoped BigOperators

/-- The leaky rectifier, as the kernels print it, read at an index. -/
theorem act_apply {s : Shape} (h : FVec Ideal s .f32) (i : s.Idx) :
    select (cmpf .oge h (broadcast s (Scalar.ofBits (F := Ideal) .f32 0x00000000#32))) h
        (mulf (broadcast s (Scalar.ofBits (F := Ideal) .f32 0x3E4CCCCD#32)) h) i
      = Cert.Spec.lrelu (h i) := rfl

/-- A row divided by the larger of its Euclidean norm (lane sum of squares, kept as a column, square root) and the floor,
    read at an index. -/
theorem unit_apply {R n : ℕ} (h : FVec Ideal ⟨2, ![R, n]⟩ .f32)
    (hr : (⟨2, ![R, n]⟩ : Shape).Reduces [1] ⟨1, ![R]⟩) (hφ : FKind.Formats .f32)
    (hacc : (0x00000000#32 : BitVec FTy.f32.bits) = FKind.add.neutral .f32 hφ)
    (hs : (⟨1, ![R]⟩ : Shape).ShapeCasts ⟨2, ![R, 1]⟩) (hb : (⟨2, ![R, 1]⟩ : Shape).Broadcasts ⟨2, ![R, n]⟩)
    (p : Fin R) (q : Fin n) :
    divf h (broadcastTo ⟨2, ![R, n]⟩
        (maximumf (sqrt (shapeCast ⟨2, ![R, 1]⟩ (multiReduction .add [1] ⟨1, ![R]⟩ (mulf h h) 0x00000000#32 hr hφ hacc) hs))
          (broadcast ⟨2, ![R, 1]⟩ (Scalar.ofBits (F := Ideal) .f32 0x2B8CBCCC#32))) hb) (ix2 p q)
      = Cert.Spec.unitRow (fun k => h (ix2 p k)) q := by
  rw [divf_apply, Cert.Lib.broadcastTo_a1_ab_apply, maximumf_apply, broadcast_apply]
  show Ideal.div _ (max (Ideal.sqrt (shapeCast _ _ hs (ix2 p 0))) _) = _
  rw [Cert.Lib.shapeCast_a_a1_apply, Cert.Lib.multiReduction_add_rows]
  rfl

/-- The layer regions' matrix product into the zero accumulator at `(p, q)`: row `p` against column `q`. -/
theorem matmulK_apply {φ₁ φ₂ : FTy} (l : FVec Ideal S2000x64 φ₁) (r : FVec Ideal S64x64 φ₂) (p : Fin 2000) (q : Fin 64) :
    matmul dot_S2000x64_S64x64_S2000x64_1_0_0_1_n_n none l r (constant S2000x64 .f32 0x00000000#32) (ix2 p q)
      = ∑ k : Fin 64, l (ix2 p k) * r (ix2 k q) :=
  Cert.Lib.matmul_plain_zero_apply dot_S2000x64_S64x64_S2000x64_1_0_0_1_n_n_wf none l r p q

/-- The dense transform of a layer region at `(p, q)`. -/
theorem pre_apply (x a : FVec Ideal S2000x64 .f32) (w1 w2 : FVec Ideal S64x64 .f32) (b1 b2 : FVec Ideal S1x64 .f32)
    (p : Fin 2000) (q : Fin 64) :
    addf (addf (addf (matmul dot_S2000x64_S64x64_S2000x64_1_0_0_1_n_n none (truncf .bf16 (addf x a) bitsLt_bf16_f32)
              (truncf .bf16 w1 bitsLt_bf16_f32) (constant S2000x64 .f32 0x00000000#32))
            (broadcastTo S2000x64 b1 broadcasts_S1x64_S2000x64))
          (matmul dot_S2000x64_S64x64_S2000x64_1_0_0_1_n_n none (truncf .bf16 (mulf x a) bitsLt_bf16_f32)
            (truncf .bf16 w2 bitsLt_bf16_f32) (constant S2000x64 .f32 0x00000000#32)))
        (broadcastTo S2000x64 b2 broadcasts_S1x64_S2000x64) (ix2 p q)
      = Cert.Spec.rowPre (fun k => x (ix2 p k)) (fun k => a (ix2 p k)) (fun k q' => w1 (ix2 k q')) (fun k q' => w2 (ix2 k q'))
          (fun q' => b1 (ix2 0 q')) (fun q' => b2 (ix2 0 q')) q := by
  rw [addf_apply, addf_apply, addf_apply, matmulK_apply, matmulK_apply, broadcastTo_1b_ab_apply, broadcastTo_1b_ab_apply]
  rfl

/-- Layer region 0's result at `(p, q)` is the specification's layer on row `p`, at feature `q`. -/
theorem layerPay0 (x a : Vec Ideal S2000x64 .f32) (w1 w2 : Vec Ideal S64x64 .f32) (b1 b2 : Vec Ideal S1x64 .f32) (p : Fin 2000) (q : Fin 64) :
    k0_pay1 (F := Ideal) x a w1 w2 b1 b2 (ix2 p q) = Cert.Spec.rowLayer (fun k => x (ix2 p k)) (fun k => a (ix2 p k)) (fun k q' => w1 (ix2 k q')) (fun k q' => w2 (ix2 k q')) (fun q' => b1 (ix2 0 q')) (fun q' => b2 (ix2 0 q')) q := by
  unfold k0_pay1
  simp only [shapeCast_self]
  refine (unit_apply _ _ _ _ _ _ p q).trans ?_
  unfold Cert.Spec.rowLayer
  refine congrArg (fun f => Cert.Spec.unitRow f q) (funext fun k => ?_)
  rw [act_apply, pre_apply]

/-- Layer region 1's result at `(p, q)` is the specification's layer on row `p`, at feature `q`. -/
theorem layerPay1 (x a : Vec Ideal S2000x64 .f32) (w1 w2 : Vec Ideal S64x64 .f32) (b1 b2 : Vec Ideal S1x64 .f32) (p : Fin 2000) (q : Fin 64) :
    k1_pay1 (F := Ideal) x a w1 w2 b1 b2 (ix2 p q) = Cert.Spec.rowLayer (fun k => x (ix2 p k)) (fun k => a (ix2 p k)) (fun k q' => w1 (ix2 k q')) (fun k q' => w2 (ix2 k q')) (fun q' => b1 (ix2 0 q')) (fun q' => b2 (ix2 0 q')) q := by
  unfold k1_pay1
  simp only [shapeCast_self]
  refine (unit_apply _ _ _ _ _ _ p q).trans ?_
  unfold Cert.Spec.rowLayer
  refine congrArg (fun f => Cert.Spec.unitRow f q) (funext fun k => ?_)
  rw [act_apply, pre_apply]

/-- Layer region 2's result at `(p, q)` is the specification's layer on row `p`, at feature `q`. -/
theorem layerPay2 (x a : Vec Ideal S2000x64 .f32) (w1 w2 : Vec Ideal S64x64 .f32) (b1 b2 : Vec Ideal S1x64 .f32) (p : Fin 2000) (q : Fin 64) :
    k2_pay1 (F := Ideal) x a w1 w2 b1 b2 (ix2 p q) = Cert.Spec.rowLayer (fun k => x (ix2 p k)) (fun k => a (ix2 p k)) (fun k q' => w1 (ix2 k q')) (fun k q' => w2 (ix2 k q')) (fun q' => b1 (ix2 0 q')) (fun q' => b2 (ix2 0 q')) q := by
  unfold k2_pay1
  simp only [shapeCast_self]
  refine (unit_apply _ _ _ _ _ _ p q).trans ?_
  unfold Cert.Spec.rowLayer
  refine congrArg (fun f => Cert.Spec.unitRow f q) (funext fun k => ?_)
  rw [act_apply, pre_apply]

/-- The batch region's matrix product into the zero accumulator at `(p, q)`: row `p` against column `q`. -/
theorem matmulB_apply {φ₁ φ₂ : FTy} (l : FVec Ideal S512x2048 φ₁) (r : FVec Ideal S2048x64 φ₂) (p : Fin 512) (q : Fin 64) :
    matmul dot_S512x2048_S2048x64_S512x64_1_0_0_1_n_n none l r (constant S512x64 .f32 0x00000000#32) (ix2 p q)
      = ∑ k : Fin 2048, l (ix2 p k) * r (ix2 k q) :=
  Cert.Lib.matmul_plain_zero_apply dot_S512x2048_S2048x64_S512x64_1_0_0_1_n_n_wf none l r p q

/-- The batch region's result at row `p` is the specification's score of that row's pair. -/
theorem batchPay (f : Vec Ideal S512x2048 .f32) (pw : Vec Ideal S2048x64 .f32) (pb : Vec Ideal S1x64 .f32) (gu gi tu : Vec Ideal S512x64 .f32) (p : Fin 512) (u : Fin 1) :
    k3_pay1 (F := Ideal) f pw pb gu gi tu (ix2 p u) = Cert.Spec.rowBatch (fun j => f (ix2 p j)) (fun j q => pw (ix2 j q)) (fun q => pb (ix2 0 q)) (fun k => gu (ix2 p k)) (fun k => gi (ix2 p k)) (fun k => tu (ix2 p k)) := by
  unfold k3_pay1
  simp only [shapeCast_self]
  rw [addf_apply, Cert.Lib.shapeCast_a_a1_apply, Cert.Lib.shapeCast_a_a1_apply]
  unfold Cert.Spec.rowBatch
  refine congrArg₂ (· + ·) (Cert.Lib.multiReduction_add_rows _ _ _ _ _ p)
    ((Cert.Lib.multiReduction_add_rows _ _ _ _ _ p).trans (Finset.sum_congr rfl fun k _ => ?_))
  rw [mulf_apply]
  refine congrArg (tu (ix2 p k) * ·) ?_
  refine (unit_apply _ _ _ _ _ _ p k).trans ?_
  refine congrArg (fun g => Cert.Spec.unitRow g k) (funext fun q => ?_)
  rw [addf_apply, matmulB_apply, broadcastTo_1b_ab_apply]
  rfl

end Cert.KernelIdeal.Pay
end
-- ==== Proof.KerRegion0.lean ====
import proofs.«174847_j28037546508681_1_alg».proof.Proof.Gen.KernelIdeal.Frame
import proofs.«174847_j28037546508681_1_alg».proof.Proof.KerArr
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-tiled inputs move with the output's block, the weights and biases stay at
    block (0, 0), and point `t` writes block row `t`. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- WHAT POINT `t` WRITES BACK is block `t` of the layer function of the six arrays as the region finds them, given the body's
    arithmetic read at an entry (`hpay`). -/
theorem flushed_eq
    (hpay : ∀ (x a : Vec Ideal S2000x64 .f32) (w1 w2 : Vec Ideal S64x64 .f32) (b1 b2 : Vec Ideal S1x64 .f32) (p : Fin 2000) (q : Fin 64),
      k0_pay1 (F := Ideal) x a w1 w2 b1 b2 (ix2 p q) = Cert.Spec.rowLayer (fun k => x (ix2 p k)) (fun k => a (ix2 p k))
        (fun k q' => w1 (ix2 k q')) (fun k q' => w2 (ix2 k q')) (fun q' => b1 (ix2 0 q')) (fun q' => b2 (ix2 0 q')) q)
    (c : Dev nD) (t : Fin cfg0.N) :
    (dat0 (F := Ideal) V c).flushed 6 t = ((cfg0.win 6).blk t).view.read (Elt Ideal)
      (Cert.Arr.layerArr (V c main_v4) (V c main_v17) (V c main_v20) (V c main_v26) (V c main_v23) (V c main_v29)) := by
  show (cfg0.win 6).cut (grid0.coords t) ((dat0 V c).after 6 t) = _
  rw [after0_6]
  unfold out0_6
  rw [View.canon_unit_zero hz]
  simp only [View.ld_unit_zero (S := S2000x64) hz, View.ld_unit_zero (S := S64x64) hz, View.ld_unit_zero (S := S1x64) hz]
  obtain ⟨e00, e01, e10, e11, e20, e21, e30, e31, e40, e41, e50, e51, e60, e61⟩ := idx_facts t
  funext j
  obtain ⟨p, q, rfl⟩ : ∃ (p : Fin 2000) (q : Fin 64), j = ix2 p q := ⟨j 0, j 1, eq_ix2 j⟩
  show k0_pay1 (iblk0 V c 0 t) (iblk0 V c 1 t) (iblk0 V c 2 t) (iblk0 V c 4 t) (iblk0 V c 3 t) (iblk0 V c 5 t) (ix2 p q)
    = Cert.Arr.layerArr (V c main_v4) (V c main_v17) (V c main_v20) (V c main_v26) (V c main_v23) (V c main_v29) (((cfg0.win 6).blk t).view.emb (ix2 p q))
  refine (hpay _ _ _ _ _ _ p q).trans ?_
  unfold Cert.Arr.layerArr
  refine Cert.Arr.rowLayer_congr (fun k => ?_) (fun k => ?_) (fun k r => ?_) (fun k r => ?_) (fun r => ?_) (fun r => ?_) ?_
  · show V c main_v4 (((cfg0.win 0).blk t).view.emb (ix2 p k)) = V c main_v4 _
    refine congrArg (V c main_v4) (funext fun a => Fin.ext ?_)
    match a with
    | ⟨0, _⟩ => show win0_0.index t (0 : Fin 2) * 2000 + 1 * p.val = win0_6.index t (0 : Fin 2) * 2000 + 1 * p.val; omega
    | ⟨1, _⟩ => show win0_0.index t (1 : Fin 2) * 64 + 1 * k.val = k.val; omega
  · show V c main_v17 (((cfg0.win 1).blk t).view.emb (ix2 p k)) = V c main_v17 _
    refine congrArg (V c main_v17) (funext fun a => Fin.ext ?_)
    match a with
    | ⟨0, _⟩ => show win0_1.index t (0 : Fin 2) * 2000 + 1 * p.val = win0_6.index t (0 : Fin 2) * 2000 + 1 * p.val; omega
    | ⟨1, _⟩ => show win0_1.index t (1 : Fin 2) * 64 + 1 * k.val = k.val; omega
  · show V c main_v20 (((cfg0.win 2).blk t).view.emb (ix2 k r)) = V c main_v20 _
    refine congrArg (V c main_v20) (funext fun a => Fin.ext ?_)
    match a with
    | ⟨0, _⟩ => show win0_2.index t (0 : Fin 2) * 64 + 1 * k.val = k.val; omega
    | ⟨1, _⟩ => show win0_2.index t (1 : Fin 2) * 64 + 1 * r.val = r.val; omega
  · show V c main_v23 (((cfg0.win 4).blk t).view.emb (ix2 k r)) = V c main_v23 _
    refine congrArg (V c main_v23) (funext fun a => Fin.ext ?_)
    match a with
    | ⟨0, _⟩ => show win0_4.index t (0 : Fin 2) * 64 + 1 * k.val = k.val; omega
    | ⟨1, _⟩ => show win0_4.index t (1 : Fin 2) * 64 + 1 * r.val = r.val; omega
  · show V c main_v26 (((cfg0.win 3).blk t).view.emb (ix2 0 r)) = V c main_v26 _
    refine congrArg (V c main_v26) (funext fun a => Fin.ext ?_)
    match a with
    | ⟨0, _⟩ => show win0_3.index t (0 : Fin 2) * 1 + 1 * 0 = 0; omega
    | ⟨1, _⟩ => show win0_3.index t (1 : Fin 2) * 64 + 1 * r.val = r.val; omega
  · show V c main_v29 (((cfg0.win 5).blk t).view.emb (ix2 0 r)) = V c main_v29 _
    refine congrArg (V c main_v29) (funext fun a => Fin.ext ?_)
    match a with
    | ⟨0, _⟩ => show win0_5.index t (0 : Fin 2) * 1 + 1 * 0 = 0; omega
    | ⟨1, _⟩ => show win0_5.index t (1 : Fin 2) * 64 + 1 * r.val = r.val; omega
  · refine Fin.ext ?_
    show q.val = win0_6.index t (1 : Fin 2) * 64 + 1 * q.val
    omega

/-- An index of the output array is in point `t`'s block iff each coordinate is in the block's range on its axis. -/
theorem mem_blk (t : Fin cfg0.N) (i : S100000x64.Idx) :
    i ∈ ((cfg0.win 6).blk t).view.set ↔ ∀ a : Fin 2, win0_6.index t a * S2000x64.size a ≤ (i a).val ∧ (i a).val < win0_6.index t a * S2000x64.size a + S2000x64.size a := by
  show i ∈ ((View.whole main_v30).slice (win0_6.rect t)).set ↔ _
  rw [View.set_slice_whole, Rect.mem_set_unit]
  exact Iff.rfl

/-- Every row of the output array lies in the block of the point numbered by the row's quotient by 2000. -/
theorem cover (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 50 := N_0
  let t : Fin cfg0.N := ⟨(i 0).val / 2000, by rw [hN]; omega⟩
  obtain ⟨e00, e01, e10, e11, e20, e21, e30, e31, e40, e41, e50, e51, e60, e61⟩ := idx_facts t
  have ht : t.val = (i 0).val / 2000 := rfl
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 64 ≤ (i 1).val ∧ (i 1).val < win0_6.index t (1 : Fin 2) * 64 + 64; omega

/-- THE OUTPUT ARRAY after the region: the layer function of the six arrays as the region finds them. -/
theorem out_arr
    (hpay : ∀ (x a : Vec Ideal S2000x64 .f32) (w1 w2 : Vec Ideal S64x64 .f32) (b1 b2 : Vec Ideal S1x64 .f32) (p : Fin 2000) (q : Fin 64),
      k0_pay1 (F := Ideal) x a w1 w2 b1 b2 (ix2 p q) = Cert.Spec.rowLayer (fun k => x (ix2 p k)) (fun k => a (ix2 p k))
        (fun k q' => w1 (ix2 k q')) (fun k q' => w2 (ix2 k q')) (fun q' => b1 (ix2 0 q')) (fun q' => b2 (ix2 0 q')) q)
    (c : Dev nD) :
    (dat0 (F := Ideal) V c).arrAt 6 cfg0.N
      = Cert.Arr.layerArr (V c main_v4) (V c main_v17) (V c main_v20) (V c main_v26) (V c main_v23) (V c main_v29) :=
  (dat0 V c).arrAt_eq_of_cover 6 _ (fun t _ => flushed_eq V hpay c t) (cover)

end Cert.KernelIdeal.Region0

end
-- ==== Proof.KerRegion1.lean ====
import proofs.«174847_j28037546508681_1_alg».proof.Proof.Gen.KernelIdeal.Frame
import proofs.«174847_j28037546508681_1_alg».proof.Proof.KerArr
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-tiled inputs move with the output's block, the weights and biases stay at
    block (0, 0), and point `t` writes block row `t`. -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- WHAT POINT `t` WRITES BACK is block `t` of the layer function of the six arrays as the region finds them, given the body's
    arithmetic read at an entry (`hpay`). -/
theorem flushed_eq
    (hpay : ∀ (x a : Vec Ideal S2000x64 .f32) (w1 w2 : Vec Ideal S64x64 .f32) (b1 b2 : Vec Ideal S1x64 .f32) (p : Fin 2000) (q : Fin 64),
      k1_pay1 (F := Ideal) x a w1 w2 b1 b2 (ix2 p q) = Cert.Spec.rowLayer (fun k => x (ix2 p k)) (fun k => a (ix2 p k))
        (fun k q' => w1 (ix2 k q')) (fun k q' => w2 (ix2 k q')) (fun q' => b1 (ix2 0 q')) (fun q' => b2 (ix2 0 q')) q)
    (c : Dev nD) (t : Fin cfg1.N) :
    (dat1 (F := Ideal) V c).flushed 6 t = ((cfg1.win 6).blk t).view.read (Elt Ideal)
      (Cert.Arr.layerArr (V c main_v30) (V c main_v44) (V c main_v47) (V c main_v53) (V c main_v50) (V c main_v56)) := by
  show (cfg1.win 6).cut (grid1.coords t) ((dat1 V c).after 6 t) = _
  rw [after1_6]
  unfold out1_6
  rw [View.canon_unit_zero hz]
  simp only [View.ld_unit_zero (S := S2000x64) hz, View.ld_unit_zero (S := S64x64) hz, View.ld_unit_zero (S := S1x64) hz]
  obtain ⟨e00, e01, e10, e11, e20, e21, e30, e31, e40, e41, e50, e51, e60, e61⟩ := idx_facts t
  funext j
  obtain ⟨p, q, rfl⟩ : ∃ (p : Fin 2000) (q : Fin 64), j = ix2 p q := ⟨j 0, j 1, eq_ix2 j⟩
  show k1_pay1 (iblk1 V c 0 t) (iblk1 V c 1 t) (iblk1 V c 2 t) (iblk1 V c 4 t) (iblk1 V c 3 t) (iblk1 V c 5 t) (ix2 p q)
    = Cert.Arr.layerArr (V c main_v30) (V c main_v44) (V c main_v47) (V c main_v53) (V c main_v50) (V c main_v56) (((cfg1.win 6).blk t).view.emb (ix2 p q))
  refine (hpay _ _ _ _ _ _ p q).trans ?_
  unfold Cert.Arr.layerArr
  refine Cert.Arr.rowLayer_congr (fun k => ?_) (fun k => ?_) (fun k r => ?_) (fun k r => ?_) (fun r => ?_) (fun r => ?_) ?_
  · show V c main_v30 (((cfg1.win 0).blk t).view.emb (ix2 p k)) = V c main_v30 _
    refine congrArg (V c main_v30) (funext fun a => Fin.ext ?_)
    match a with
    | ⟨0, _⟩ => show win1_0.index t (0 : Fin 2) * 2000 + 1 * p.val = win1_6.index t (0 : Fin 2) * 2000 + 1 * p.val; omega
    | ⟨1, _⟩ => show win1_0.index t (1 : Fin 2) * 64 + 1 * k.val = k.val; omega
  · show V c main_v44 (((cfg1.win 1).blk t).view.emb (ix2 p k)) = V c main_v44 _
    refine congrArg (V c main_v44) (funext fun a => Fin.ext ?_)
    match a with
    | ⟨0, _⟩ => show win1_1.index t (0 : Fin 2) * 2000 + 1 * p.val = win1_6.index t (0 : Fin 2) * 2000 + 1 * p.val; omega
    | ⟨1, _⟩ => show win1_1.index t (1 : Fin 2) * 64 + 1 * k.val = k.val; omega
  · show V c main_v47 (((cfg1.win 2).blk t).view.emb (ix2 k r)) = V c main_v47 _
    refine congrArg (V c main_v47) (funext fun a => Fin.ext ?_)
    match a with
    | ⟨0, _⟩ => show win1_2.index t (0 : Fin 2) * 64 + 1 * k.val = k.val; omega
    | ⟨1, _⟩ => show win1_2.index t (1 : Fin 2) * 64 + 1 * r.val = r.val; omega
  · show V c main_v50 (((cfg1.win 4).blk t).view.emb (ix2 k r)) = V c main_v50 _
    refine congrArg (V c main_v50) (funext fun a => Fin.ext ?_)
    match a with
    | ⟨0, _⟩ => show win1_4.index t (0 : Fin 2) * 64 + 1 * k.val = k.val; omega
    | ⟨1, _⟩ => show win1_4.index t (1 : Fin 2) * 64 + 1 * r.val = r.val; omega
  · show V c main_v53 (((cfg1.win 3).blk t).view.emb (ix2 0 r)) = V c main_v53 _
    refine congrArg (V c main_v53) (funext fun a => Fin.ext ?_)
    match a with
    | ⟨0, _⟩ => show win1_3.index t (0 : Fin 2) * 1 + 1 * 0 = 0; omega
    | ⟨1, _⟩ => show win1_3.index t (1 : Fin 2) * 64 + 1 * r.val = r.val; omega
  · show V c main_v56 (((cfg1.win 5).blk t).view.emb (ix2 0 r)) = V c main_v56 _
    refine congrArg (V c main_v56) (funext fun a => Fin.ext ?_)
    match a with
    | ⟨0, _⟩ => show win1_5.index t (0 : Fin 2) * 1 + 1 * 0 = 0; omega
    | ⟨1, _⟩ => show win1_5.index t (1 : Fin 2) * 64 + 1 * r.val = r.val; omega
  · refine Fin.ext ?_
    show q.val = win1_6.index t (1 : Fin 2) * 64 + 1 * q.val
    omega

/-- An index of the output array is in point `t`'s block iff each coordinate is in the block's range on its axis. -/
theorem mem_blk (t : Fin cfg1.N) (i : S100000x64.Idx) :
    i ∈ ((cfg1.win 6).blk t).view.set ↔ ∀ a : Fin 2, win1_6.index t a * S2000x64.size a ≤ (i a).val ∧ (i a).val < win1_6.index t a * S2000x64.size a + S2000x64.size a := by
  show i ∈ ((View.whole main_v57).slice (win1_6.rect t)).set ↔ _
  rw [View.set_slice_whole, Rect.mem_set_unit]
  exact Iff.rfl

/-- Every row of the output array lies in the block of the point numbered by the row's quotient by 2000. -/
theorem cover (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 50 := N_1
  let t : Fin cfg1.N := ⟨(i 0).val / 2000, by rw [hN]; omega⟩
  obtain ⟨e00, e01, e10, e11, e20, e21, e30, e31, e40, e41, e50, e51, e60, e61⟩ := idx_facts t
  have ht : t.val = (i 0).val / 2000 := rfl
  refine ⟨t, flush1_6 t, ?_⟩
  rw [mem_blk]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 64 ≤ (i 1).val ∧ (i 1).val < win1_6.index t (1 : Fin 2) * 64 + 64; omega

/-- THE OUTPUT ARRAY after the region: the layer function of the six arrays as the region finds them. -/
theorem out_arr
    (hpay : ∀ (x a : Vec Ideal S2000x64 .f32) (w1 w2 : Vec Ideal S64x64 .f32) (b1 b2 : Vec Ideal S1x64 .f32) (p : Fin 2000) (q : Fin 64),
      k1_pay1 (F := Ideal) x a w1 w2 b1 b2 (ix2 p q) = Cert.Spec.rowLayer (fun k => x (ix2 p k)) (fun k => a (ix2 p k))
        (fun k q' => w1 (ix2 k q')) (fun k q' => w2 (ix2 k q')) (fun q' => b1 (ix2 0 q')) (fun q' => b2 (ix2 0 q')) q)
    (c : Dev nD) :
    (dat1 (F := Ideal) V c).arrAt 6 cfg1.N
      = Cert.Arr.layerArr (V c main_v30) (V c main_v44) (V c main_v47) (V c main_v53) (V c main_v50) (V c main_v56) :=
  (dat1 V c).arrAt_eq_of_cover 6 _ (fun t _ => flushed_eq V hpay c t) (cover)

end Cert.KernelIdeal.Region1

end
-- ==== Proof.KerRegion2.lean ====
import proofs.«174847_j28037546508681_1_alg».proof.Proof.Gen.KernelIdeal.Frame
import proofs.«174847_j28037546508681_1_alg».proof.Proof.KerArr
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-tiled inputs move with the output's block, the weights and biases stay at
    block (0, 0), and point `t` writes block row `t`. -/
theorem idx_facts : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- WHAT POINT `t` WRITES BACK is block `t` of the layer function of the six arrays as the region finds them, given the body's
    arithmetic read at an entry (`hpay`). -/
theorem flushed_eq
    (hpay : ∀ (x a : Vec Ideal S2000x64 .f32) (w1 w2 : Vec Ideal S64x64 .f32) (b1 b2 : Vec Ideal S1x64 .f32) (p : Fin 2000) (q : Fin 64),
      k2_pay1 (F := Ideal) x a w1 w2 b1 b2 (ix2 p q) = Cert.Spec.rowLayer (fun k => x (ix2 p k)) (fun k => a (ix2 p k))
        (fun k q' => w1 (ix2 k q')) (fun k q' => w2 (ix2 k q')) (fun q' => b1 (ix2 0 q')) (fun q' => b2 (ix2 0 q')) q)
    (c : Dev nD) (t : Fin cfg2.N) :
    (dat2 (F := Ideal) V c).flushed 6 t = ((cfg2.win 6).blk t).view.read (Elt Ideal)
      (Cert.Arr.layerArr (V c main_v57) (V c main_v71) (V c main_v74) (V c main_v80) (V c main_v77) (V c main_v83)) := by
  show (cfg2.win 6).cut (grid2.coords t) ((dat2 V c).after 6 t) = _
  rw [after2_6]
  unfold out2_6
  rw [View.canon_unit_zero hz]
  simp only [View.ld_unit_zero (S := S2000x64) hz, View.ld_unit_zero (S := S64x64) hz, View.ld_unit_zero (S := S1x64) hz]
  obtain ⟨e00, e01, e10, e11, e20, e21, e30, e31, e40, e41, e50, e51, e60, e61⟩ := idx_facts t
  funext j
  obtain ⟨p, q, rfl⟩ : ∃ (p : Fin 2000) (q : Fin 64), j = ix2 p q := ⟨j 0, j 1, eq_ix2 j⟩
  show k2_pay1 (iblk2 V c 0 t) (iblk2 V c 1 t) (iblk2 V c 2 t) (iblk2 V c 4 t) (iblk2 V c 3 t) (iblk2 V c 5 t) (ix2 p q)
    = Cert.Arr.layerArr (V c main_v57) (V c main_v71) (V c main_v74) (V c main_v80) (V c main_v77) (V c main_v83) (((cfg2.win 6).blk t).view.emb (ix2 p q))
  refine (hpay _ _ _ _ _ _ p q).trans ?_
  unfold Cert.Arr.layerArr
  refine Cert.Arr.rowLayer_congr (fun k => ?_) (fun k => ?_) (fun k r => ?_) (fun k r => ?_) (fun r => ?_) (fun r => ?_) ?_
  · show V c main_v57 (((cfg2.win 0).blk t).view.emb (ix2 p k)) = V c main_v57 _
    refine congrArg (V c main_v57) (funext fun a => Fin.ext ?_)
    match a with
    | ⟨0, _⟩ => show win2_0.index t (0 : Fin 2) * 2000 + 1 * p.val = win2_6.index t (0 : Fin 2) * 2000 + 1 * p.val; omega
    | ⟨1, _⟩ => show win2_0.index t (1 : Fin 2) * 64 + 1 * k.val = k.val; omega
  · show V c main_v71 (((cfg2.win 1).blk t).view.emb (ix2 p k)) = V c main_v71 _
    refine congrArg (V c main_v71) (funext fun a => Fin.ext ?_)
    match a with
    | ⟨0, _⟩ => show win2_1.index t (0 : Fin 2) * 2000 + 1 * p.val = win2_6.index t (0 : Fin 2) * 2000 + 1 * p.val; omega
    | ⟨1, _⟩ => show win2_1.index t (1 : Fin 2) * 64 + 1 * k.val = k.val; omega
  · show V c main_v74 (((cfg2.win 2).blk t).view.emb (ix2 k r)) = V c main_v74 _
    refine congrArg (V c main_v74) (funext fun a => Fin.ext ?_)
    match a with
    | ⟨0, _⟩ => show win2_2.index t (0 : Fin 2) * 64 + 1 * k.val = k.val; omega
    | ⟨1, _⟩ => show win2_2.index t (1 : Fin 2) * 64 + 1 * r.val = r.val; omega
  · show V c main_v77 (((cfg2.win 4).blk t).view.emb (ix2 k r)) = V c main_v77 _
    refine congrArg (V c main_v77) (funext fun a => Fin.ext ?_)
    match a with
    | ⟨0, _⟩ => show win2_4.index t (0 : Fin 2) * 64 + 1 * k.val = k.val; omega
    | ⟨1, _⟩ => show win2_4.index t (1 : Fin 2) * 64 + 1 * r.val = r.val; omega
  · show V c main_v80 (((cfg2.win 3).blk t).view.emb (ix2 0 r)) = V c main_v80 _
    refine congrArg (V c main_v80) (funext fun a => Fin.ext ?_)
    match a with
    | ⟨0, _⟩ => show win2_3.index t (0 : Fin 2) * 1 + 1 * 0 = 0; omega
    | ⟨1, _⟩ => show win2_3.index t (1 : Fin 2) * 64 + 1 * r.val = r.val; omega
  · show V c main_v83 (((cfg2.win 5).blk t).view.emb (ix2 0 r)) = V c main_v83 _
    refine congrArg (V c main_v83) (funext fun a => Fin.ext ?_)
    match a with
    | ⟨0, _⟩ => show win2_5.index t (0 : Fin 2) * 1 + 1 * 0 = 0; omega
    | ⟨1, _⟩ => show win2_5.index t (1 : Fin 2) * 64 + 1 * r.val = r.val; omega
  · refine Fin.ext ?_
    show q.val = win2_6.index t (1 : Fin 2) * 64 + 1 * q.val
    omega

/-- An index of the output array is in point `t`'s block iff each coordinate is in the block's range on its axis. -/
theorem mem_blk (t : Fin cfg2.N) (i : S100000x64.Idx) :
    i ∈ ((cfg2.win 6).blk t).view.set ↔ ∀ a : Fin 2, win2_6.index t a * S2000x64.size a ≤ (i a).val ∧ (i a).val < win2_6.index t a * S2000x64.size a + S2000x64.size a := by
  show i ∈ ((View.whole main_v84).slice (win2_6.rect t)).set ↔ _
  rw [View.set_slice_whole, Rect.mem_set_unit]
  exact Iff.rfl

/-- Every row of the output array lies in the block of the point numbered by the row's quotient by 2000. -/
theorem cover (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  have hN : cfg2.N = 50 := N_2
  let t : Fin cfg2.N := ⟨(i 0).val / 2000, by rw [hN]; omega⟩
  obtain ⟨e00, e01, e10, e11, e20, e21, e30, e31, e40, e41, e50, e51, e60, e61⟩ := idx_facts t
  have ht : t.val = (i 0).val / 2000 := rfl
  refine ⟨t, flush2_6 t, ?_⟩
  rw [mem_blk]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 64 ≤ (i 1).val ∧ (i 1).val < win2_6.index t (1 : Fin 2) * 64 + 64; omega

/-- THE OUTPUT ARRAY after the region: the layer function of the six arrays as the region finds them. -/
theorem out_arr
    (hpay : ∀ (x a : Vec Ideal S2000x64 .f32) (w1 w2 : Vec Ideal S64x64 .f32) (b1 b2 : Vec Ideal S1x64 .f32) (p : Fin 2000) (q : Fin 64),
      k2_pay1 (F := Ideal) x a w1 w2 b1 b2 (ix2 p q) = Cert.Spec.rowLayer (fun k => x (ix2 p k)) (fun k => a (ix2 p k))
        (fun k q' => w1 (ix2 k q')) (fun k q' => w2 (ix2 k q')) (fun q' => b1 (ix2 0 q')) (fun q' => b2 (ix2 0 q')) q)
    (c : Dev nD) :
    (dat2 (F := Ideal) V c).arrAt 6 cfg2.N
      = Cert.Arr.layerArr (V c main_v57) (V c main_v71) (V c main_v74) (V c main_v80) (V c main_v77) (V c main_v83) :=
  (dat2 V c).arrAt_eq_of_cover 6 _ (fun t _ => flushed_eq V hpay c t) (cover)

end Cert.KernelIdeal.Region2

end
-- ==== Proof.KerRegion3.lean ====
import proofs.«174847_j28037546508681_1_alg».proof.Proof.Gen.KernelIdeal.Frame
import proofs.«174847_j28037546508681_1_alg».proof.Proof.KerArr
import Idealize.ShloMosaic.Lib.Pipeline.Value
import Idealize.ShloMosaic.Lib.ValueIdx

set_option maxRecDepth 16384

noncomputable section

namespace Cert.KernelIdeal.Region3

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the four row-tiled inputs move with the output's block, the projection and its bias
    stay at block (0, 0), and point `t` writes block row `t`. -/
theorem idx_facts : ∀ t : Fin cfg3.N,
    win3_0.index t (0 : Fin 2) = win3_6.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = win3_6.index t (0 : Fin 2) ∧ win3_3.index t (1 : Fin 2) = 0
    ∧ win3_4.index t (0 : Fin 2) = win3_6.index t (0 : Fin 2) ∧ win3_4.index t (1 : Fin 2) = 0
    ∧ win3_5.index t (0 : Fin 2) = win3_6.index t (0 : Fin 2) ∧ win3_5.index t (1 : Fin 2) = 0
    ∧ win3_6.index t (0 : Fin 2) = t.val ∧ win3_6.index t (1 : Fin 2) = 0 :=
  (by decide +kernel : ∀ t : Fin grid3.N, _)

/-- WHAT POINT `t` WRITES BACK is block `t` of the score column of the six arrays as the region finds them, given the body's
    arithmetic read at an entry (`hpay`). -/
theorem flushed_eq
    (hpay : ∀ (f : Vec Ideal S512x2048 .f32) (pw : Vec Ideal S2048x64 .f32) (pb : Vec Ideal S1x64 .f32) (gu gi tu : Vec Ideal S512x64 .f32)
        (p : Fin 512) (u : Fin 1),
      k3_pay1 (F := Ideal) f pw pb gu gi tu (ix2 p u) = Cert.Spec.rowBatch (fun j => f (ix2 p j)) (fun j q => pw (ix2 j q))
        (fun q => pb (ix2 0 q)) (fun k => gu (ix2 p k)) (fun k => gi (ix2 p k)) (fun k => tu (ix2 p k)))
    (c : Dev nD) (t : Fin cfg3.N) :
    (dat3 (F := Ideal) V c).flushed 6 t = ((cfg3.win 6).blk t).view.read (Elt Ideal)
      (Cert.Arr.batchArr (V c main_v117) (V c main_v118) (V c main_v119) (V c main_v96) (V c main_v103) (V c main_v110)) := by
  show (cfg3.win 6).cut (grid3.coords t) ((dat3 V c).after 6 t) = _
  rw [after3_6]
  unfold out3_6
  rw [View.canon_unit_zero hz]
  simp only [View.ld_unit_zero (S := S512x2048) hz, View.ld_unit_zero (S := S2048x64) hz, View.ld_unit_zero (S := S1x64) hz,
    View.ld_unit_zero (S := S512x64) hz]
  obtain ⟨e00, e01, e10, e11, e20, e21, e30, e31, e40, e41, e50, e51, e60, e61⟩ := idx_facts t
  funext j
  obtain ⟨p, u, rfl⟩ : ∃ (p : Fin 512) (u : Fin 1), j = ix2 p u := ⟨j 0, j 1, eq_ix2 j⟩
  show k3_pay1 (iblk3 V c 0 t) (iblk3 V c 1 t) (iblk3 V c 2 t) (iblk3 V c 3 t) (iblk3 V c 4 t) (iblk3 V c 5 t) (ix2 p u)
    = Cert.Arr.batchArr (V c main_v117) (V c main_v118) (V c main_v119) (V c main_v96) (V c main_v103) (V c main_v110) (((cfg3.win 6).blk t).view.emb (ix2 p u))
  refine (hpay _ _ _ _ _ _ p u).trans ?_
  unfold Cert.Arr.batchArr
  refine Cert.Arr.rowBatch_congr (fun k => ?_) (fun k r => ?_) (fun r => ?_) (fun k => ?_) (fun k => ?_) (fun k => ?_)
  · show V c main_v117 (((cfg3.win 0).blk t).view.emb (ix2 p k)) = V c main_v117 _
    refine congrArg (V c main_v117) (funext fun a => Fin.ext ?_)
    match a with
    | ⟨0, _⟩ => show win3_0.index t (0 : Fin 2) * 512 + 1 * p.val = win3_6.index t (0 : Fin 2) * 512 + 1 * p.val; omega
    | ⟨1, _⟩ => show win3_0.index t (1 : Fin 2) * 2048 + 1 * k.val = k.val; omega
  · show V c main_v118 (((cfg3.win 1).blk t).view.emb (ix2 k r)) = V c main_v118 _
    refine congrArg (V c main_v118) (funext fun a => Fin.ext ?_)
    match a with
    | ⟨0, _⟩ => show win3_1.index t (0 : Fin 2) * 2048 + 1 * k.val = k.val; omega
    | ⟨1, _⟩ => show win3_1.index t (1 : Fin 2) * 64 + 1 * r.val = r.val; omega
  · show V c main_v119 (((cfg3.win 2).blk t).view.emb (ix2 0 r)) = V c main_v119 _
    refine congrArg (V c main_v119) (funext fun a => Fin.ext ?_)
    match a with
    | ⟨0, _⟩ => show win3_2.index t (0 : Fin 2) * 1 + 1 * 0 = 0; omega
    | ⟨1, _⟩ => show win3_2.index t (1 : Fin 2) * 64 + 1 * r.val = r.val; omega
  · show V c main_v96 (((cfg3.win 3).blk t).view.emb (ix2 p k)) = V c main_v96 _
    refine congrArg (V c main_v96) (funext fun a => Fin.ext ?_)
    match a with
    | ⟨0, _⟩ => show win3_3.index t (0 : Fin 2) * 512 + 1 * p.val = win3_6.index t (0 : Fin 2) * 512 + 1 * p.val; omega
    | ⟨1, _⟩ => show win3_3.index t (1 : Fin 2) * 64 + 1 * k.val = k.val; omega
  · show V c main_v103 (((cfg3.win 4).blk t).view.emb (ix2 p k)) = V c main_v103 _
    refine congrArg (V c main_v103) (funext fun a => Fin.ext ?_)
    match a with
    | ⟨0, _⟩ => show win3_4.index t (0 : Fin 2) * 512 + 1 * p.val = win3_6.index t (0 : Fin 2) * 512 + 1 * p.val; omega
    | ⟨1, _⟩ => show win3_4.index t (1 : Fin 2) * 64 + 1 * k.val = k.val; omega
  · show V c main_v110 (((cfg3.win 5).blk t).view.emb (ix2 p k)) = V c main_v110 _
    refine congrArg (V c main_v110) (funext fun a => Fin.ext ?_)
    match a with
    | ⟨0, _⟩ => show win3_5.index t (0 : Fin 2) * 512 + 1 * p.val = win3_6.index t (0 : Fin 2) * 512 + 1 * p.val; omega
    | ⟨1, _⟩ => show win3_5.index t (1 : Fin 2) * 64 + 1 * k.val = k.val; omega

/-- An index of the output column is in point `t`'s block iff each coordinate is in the block's range on its axis. -/
theorem mem_blk (t : Fin cfg3.N) (i : S8192x1.Idx) :
    i ∈ ((cfg3.win 6).blk t).view.set ↔ ∀ a : Fin 2, win3_6.index t a * S512x1.size a ≤ (i a).val ∧ (i a).val < win3_6.index t a * S512x1.size a + S512x1.size a := by
  show i ∈ ((View.whole main_v120).slice (win3_6.rect t)).set ↔ _
  rw [View.set_slice_whole, Rect.mem_set_unit]
  exact Iff.rfl

/-- Every row of the output column lies in the block of the point numbered by the row's quotient by 512. -/
theorem cover (i : S8192x1.Idx) :
    ∃ t : Fin cfg3.N, (cfg3.win 6).flush t = true ∧ i ∈ ((cfg3.win 6).blk t).view.set := by
  have hi0 : (i 0).val < 8192 := (i 0).isLt
  have hi1 : (i 1).val < 1 := (i 1).isLt
  have hN : cfg3.N = 16 := N_3
  let t : Fin cfg3.N := ⟨(i 0).val / 512, by rw [hN]; omega⟩
  obtain ⟨e00, e01, e10, e11, e20, e21, e30, e31, e40, e41, e50, e51, e60, e61⟩ := idx_facts t
  have ht : t.val = (i 0).val / 512 := rfl
  refine ⟨t, flush3_6 t, ?_⟩
  rw [mem_blk]
  intro a
  match a with
  | ⟨0, _⟩ => show win3_6.index t (0 : Fin 2) * 512 ≤ (i 0).val ∧ (i 0).val < win3_6.index t (0 : Fin 2) * 512 + 512; omega
  | ⟨1, _⟩ => show win3_6.index t (1 : Fin 2) * 1 ≤ (i 1).val ∧ (i 1).val < win3_6.index t (1 : Fin 2) * 1 + 1; omega

/-- THE OUTPUT COLUMN after the region: the score column of the six arrays as the region finds them. -/
theorem out_arr
    (hpay : ∀ (f : Vec Ideal S512x2048 .f32) (pw : Vec Ideal S2048x64 .f32) (pb : Vec Ideal S1x64 .f32) (gu gi tu : Vec Ideal S512x64 .f32)
        (p : Fin 512) (u : Fin 1),
      k3_pay1 (F := Ideal) f pw pb gu gi tu (ix2 p u) = Cert.Spec.rowBatch (fun j => f (ix2 p j)) (fun j q => pw (ix2 j q))
        (fun q => pb (ix2 0 q)) (fun k => gu (ix2 p k)) (fun k => gi (ix2 p k)) (fun k => tu (ix2 p k)))
    (c : Dev nD) :
    (dat3 (F := Ideal) V c).arrAt 6 cfg3.N
      = Cert.Arr.batchArr (V c main_v117) (V c main_v118) (V c main_v119) (V c main_v96) (V c main_v103) (V c main_v110) :=
  (dat3 V c).arrAt_eq_of_cover 6 _ (fun t _ => flushed_eq V hpay c t) (cover)

end Cert.KernelIdeal.Region3

end
-- ==== Proof.KerChain.lean ====
/-
  The kernel program's result as one function of its fourteen arguments.

  The buffer contents at each of the nine segment boundaries are read at the buffers a later segment uses: a host stretch
  composes its operations, a region leaves its output array at the layer (or score) function of its six input arrays and every
  other buffer as it found it.  Followed from the launch to the return this names the result buffer's final contents.
-/
import proofs.«174847_j28037546508681_1_alg».proof.Proof.Gen.KernelIdeal.Frame
import proofs.«174847_j28037546508681_1_alg».proof.Proof.KerArr
import proofs.«174847_j28037546508681_1_alg».proof.Proof.KerStages
import proofs.«174847_j28037546508681_1_alg».proof.Proof.KerHost
import proofs.«174847_j28037546508681_1_alg».proof.Proof.KerPay
import proofs.«174847_j28037546508681_1_alg».proof.Proof.KerRegion0
import proofs.«174847_j28037546508681_1_alg».proof.Proof.KerRegion1
import proofs.«174847_j28037546508681_1_alg».proof.Proof.KerRegion2
import proofs.«174847_j28037546508681_1_alg».proof.Proof.KerRegion3

set_option maxRecDepth 16384

noncomputable section

namespace Cert.KernelIdeal.Chain

open Cert.KernelIdeal Cert.KernelIdeal.Gen Cert.KernelIdeal.Stage
open Idealize.ShloMosaic Idealize.ShloMosaic.TcCoe Idealize.SL.Sem
open Idealize.ShloMosaic.Pipeline (Dat Cfg Window)

/-- Layer 0 of the kernel program on a node array `x`: its neighbourhood sum, then the region's layer function with layer 0's slabs. -/
def layK0 (x : FVec Ideal S100000x64 .f32) (W1 : FVec Ideal S3x64x64 .f32) (b1 : FVec Ideal S3x64 .f32) (W2 : FVec Ideal S3x64x64 .f32) (b2 : FVec Ideal S3x64 .f32)
    (ew : FVec Ideal S2000000 .f32) (ei : IVec S2x2000000 32) : FVec Ideal S100000x64 .f32 :=
  Cert.Arr.layerArr x (aggK (F := Ideal) x ew (edgeSrc ei) (edgeDst ei)) (tr64 (F := Ideal) (slabW0 (F := Ideal) W1)) (asRow64 (F := Ideal) (slabB0 (F := Ideal) b1)) (tr64 (F := Ideal) (slabW0 (F := Ideal) W2)) (asRow64 (F := Ideal) (slabB0 (F := Ideal) b2))
/-- Layer 1 of the kernel program on a node array `x`: its neighbourhood sum, then the region's layer function with layer 1's slabs. -/
def layK1 (x : FVec Ideal S100000x64 .f32) (W1 : FVec Ideal S3x64x64 .f32) (b1 : FVec Ideal S3x64 .f32) (W2 : FVec Ideal S3x64x64 .f32) (b2 : FVec Ideal S3x64 .f32)
    (ew : FVec Ideal S2000000 .f32) (ei : IVec S2x2000000 32) : FVec Ideal S100000x64 .f32 :=
  Cert.Arr.layerArr x (aggK (F := Ideal) x ew (edgeSrc ei) (edgeDst ei)) (tr64 (F := Ideal) (slabW1 (F := Ideal) W1)) (asRow64 (F := Ideal) (slabB1 (F := Ideal) b1)) (tr64 (F := Ideal) (slabW1 (F := Ideal) W2)) (asRow64 (F := Ideal) (slabB1 (F := Ideal) b2))
/-- Layer 2 of the kernel program on a node array `x`: its neighbourhood sum, then the region's layer function with layer 2's slabs. -/
def layK2 (x : FVec Ideal S100000x64 .f32) (W1 : FVec Ideal S3x64x64 .f32) (b1 : FVec Ideal S3x64 .f32) (W2 : FVec Ideal S3x64x64 .f32) (b2 : FVec Ideal S3x64 .f32)
    (ew : FVec Ideal S2000000 .f32) (ei : IVec S2x2000000 32) : FVec Ideal S100000x64 .f32 :=
  Cert.Arr.layerArr x (aggK (F := Ideal) x ew (edgeSrc ei) (edgeDst ei)) (tr64 (F := Ideal) (slabW2 (F := Ideal) W1)) (asRow64 (F := Ideal) (slabB2 (F := Ideal) b1)) (tr64 (F := Ideal) (slabW2 (F := Ideal) W2)) (asRow64 (F := Ideal) (slabB2 (F := Ideal) b2))

/-- The kernel program's result as a function of its fourteen arguments, in their order. -/
def kerOut (Gu Gi Tu : FVec Ideal S50000x64 .f32) (Fe : FVec Ideal S50000x2048 .f32) (pw : FVec Ideal S64x2048 .f32)
    (pb : FVec Ideal S64 .f32) (W1 : FVec Ideal S3x64x64 .f32) (b1 : FVec Ideal S3x64 .f32) (W2 : FVec Ideal S3x64x64 .f32) (b2 : FVec Ideal S3x64 .f32)
    (ew : FVec Ideal S2000000 .f32) (ei : IVec S2x2000000 32) (users items : IVec S8192 32) : FVec Ideal S8192 .f32 :=
  let x0 := nodes (F := Ideal) Gu Gi
  let h1 := layK0 x0 W1 b1 W2 b2 ew ei
  let h2 := layK1 h1 W1 b1 W2 b2 ew ei
  let h3 := layK2 h2 W1 b1 W2 b2 ew ei
  let e := mean4K (F := Ideal) x0 h1 h2 h3
  colVec (F := Ideal) (Cert.Arr.batchArr (take2048 (F := Ideal) Fe items) (trPw (F := Ideal) pw) (asRow64 (F := Ideal) pb) (take64 (F := Ideal) (userHalf (F := Ideal) e) users) (take64 (F := Ideal) (itemHalf (F := Ideal) e) items)
    (take64 (F := Ideal) Tu users))

variable (m : (ℓ : Loc nD τ sig) → Buf (Elt Ideal) ℓ) (ρ : Dev nD → PrngReg) (c : Dev nD)

/-- Argument 0 as launched on core `c`. -/
abbrev a0 := m ((c : Thread nD τ).loc main_arg0)
/-- Argument 1 as launched on core `c`. -/
abbrev a1 := m ((c : Thread nD τ).loc main_arg1)
/-- Argument 2 as launched on core `c`. -/
abbrev a2 := m ((c : Thread nD τ).loc main_arg2)
/-- Argument 3 as launched on core `c`. -/
abbrev a3 := m ((c : Thread nD τ).loc main_arg3)
/-- Argument 4 as launched on core `c`. -/
abbrev a4 := m ((c : Thread nD τ).loc main_arg4)
/-- Argument 5 as launched on core `c`. -/
abbrev a5 := m ((c : Thread nD τ).loc main_arg5)
/-- Argument 6 as launched on core `c`. -/
abbrev a6 := m ((c : Thread nD τ).loc main_arg6)
/-- Argument 7 as launched on core `c`. -/
abbrev a7 := m ((c : Thread nD τ).loc main_arg7)
/-- Argument 8 as launched on core `c`. -/
abbrev a8 := m ((c : Thread nD τ).loc main_arg8)
/-- Argument 9 as launched on core `c`. -/
abbrev a9 := m ((c : Thread nD τ).loc main_arg9)
/-- Argument 10 as launched on core `c`. -/
abbrev a10 := m ((c : Thread nD τ).loc main_arg10)
/-- Argument 11 as launched on core `c`. -/
abbrev a11 := m ((c : Thread nD τ).loc main_arg11)
/-- Argument 12 as launched on core `c`. -/
abbrev a12 := m ((c : Thread nD τ).loc main_arg12)
/-- Argument 13 as launched on core `c`. -/
abbrev a13 := m ((c : Thread nD τ).loc main_arg13)

/-! ## Region 0's entry -/

theorem W1_v4 : W1 m ρ c (Proc.devRef .tc main_v4) = (nodes (F := Ideal) (a0 m c) (a1 m c)) := HostRead.h0_nodes (W0 m ρ c)
theorem W1_v1 : W1 m ρ c (Proc.devRef .tc main_v1) = (edgeSrc (a11 m c)) := HostRead.h0_src (W0 m ρ c)
theorem W1_v3 : W1 m ρ c (Proc.devRef .tc main_v3) = (edgeDst (a11 m c)) := HostRead.h0_dst (W0 m ρ c)
theorem W1_v17 : W1 m ρ c (Proc.devRef .tc main_v17) = aggK (F := Ideal) (nodes (F := Ideal) (a0 m c) (a1 m c)) (a10 m c) (edgeSrc (a11 m c)) (edgeDst (a11 m c)) := HostRead.h0_agg (W0 m ρ c)
theorem W1_v20 : W1 m ρ c (Proc.devRef .tc main_v20) = tr64 (F := Ideal) (slabW0 (F := Ideal) (a6 m c)) := HostRead.h0_w1 (W0 m ρ c)
theorem W1_v23 : W1 m ρ c (Proc.devRef .tc main_v23) = tr64 (F := Ideal) (slabW0 (F := Ideal) (a8 m c)) := HostRead.h0_w2 (W0 m ρ c)
theorem W1_v26 : W1 m ρ c (Proc.devRef .tc main_v26) = asRow64 (F := Ideal) (slabB0 (F := Ideal) (a7 m c)) := HostRead.h0_b1 (W0 m ρ c)
theorem W1_v29 : W1 m ρ c (Proc.devRef .tc main_v29) = asRow64 (F := Ideal) (slabB0 (F := Ideal) (a9 m c)) := HostRead.h0_b2 (W0 m ρ c)
theorem W1_a2 : W1 m ρ c (Proc.devRef .tc main_arg2) = (a2 m c) := HostRead.h0_arg2 (W0 m ρ c)
theorem W1_a3 : W1 m ρ c (Proc.devRef .tc main_arg3) = (a3 m c) := HostRead.h0_arg3 (W0 m ρ c)
theorem W1_a4 : W1 m ρ c (Proc.devRef .tc main_arg4) = (a4 m c) := HostRead.h0_arg4 (W0 m ρ c)
theorem W1_a5 : W1 m ρ c (Proc.devRef .tc main_arg5) = (a5 m c) := HostRead.h0_arg5 (W0 m ρ c)
theorem W1_a6 : W1 m ρ c (Proc.devRef .tc main_arg6) = (a6 m c) := HostRead.h0_arg6 (W0 m ρ c)
theorem W1_a7 : W1 m ρ c (Proc.devRef .tc main_arg7) = (a7 m c) := HostRead.h0_arg7 (W0 m ρ c)
theorem W1_a8 : W1 m ρ c (Proc.devRef .tc main_arg8) = (a8 m c) := HostRead.h0_arg8 (W0 m ρ c)
theorem W1_a9 : W1 m ρ c (Proc.devRef .tc main_arg9) = (a9 m c) := HostRead.h0_arg9 (W0 m ρ c)
theorem W1_a10 : W1 m ρ c (Proc.devRef .tc main_arg10) = (a10 m c) := HostRead.h0_arg10 (W0 m ρ c)
theorem W1_a12 : W1 m ρ c (Proc.devRef .tc main_arg12) = (a12 m c) := HostRead.h0_arg12 (W0 m ρ c)
theorem W1_a13 : W1 m ρ c (Proc.devRef .tc main_arg13) = (a13 m c) := HostRead.h0_arg13 (W0 m ρ c)

/-! ## Region 0's exit -/

theorem W2_v30 : W2 m ρ c (Proc.devRef .tc main_v30) = (layK0 (nodes (F := Ideal) (a0 m c) (a1 m c)) (a6 m c) (a7 m c) (a8 m c) (a9 m c) (a10 m c) (a11 m c)) := by
  refine (W2_arr m ρ c 6).trans ((Region0.out_arr (V1 m ρ) Pay.layerPay0 c).trans ?_)
  show Cert.Arr.layerArr (W1 m ρ c (Proc.devRef .tc main_v4)) (W1 m ρ c (Proc.devRef .tc main_v17)) (W1 m ρ c (Proc.devRef .tc main_v20)) (W1 m ρ c (Proc.devRef .tc main_v26)) (W1 m ρ c (Proc.devRef .tc main_v23)) (W1 m ρ c (Proc.devRef .tc main_v29)) = _
  rw [W1_v4, W1_v17, W1_v20, W1_v26, W1_v23, W1_v29]
  rfl
theorem W2_v4 : W2 m ρ c (Proc.devRef .tc main_v4) = (nodes (F := Ideal) (a0 m c) (a1 m c)) :=
  (W2_arr m ρ c 0).trans (((dat0 (V1 m ρ) c).arrAt_in 0 rfl cfg0.N).trans ((A_eq0 (V1 m ρ) c 0).trans (W1_v4 m ρ c)))
theorem W2_v1 : W2 m ρ c (Proc.devRef .tc main_v1) = (edgeSrc (a11 m c)) := (W2_of_ne m ρ c main_v1 (by decide)).trans (W1_v1 m ρ c)
theorem W2_v3 : W2 m ρ c (Proc.devRef .tc main_v3) = (edgeDst (a11 m c)) := (W2_of_ne m ρ c main_v3 (by decide)).trans (W1_v3 m ρ c)
theorem W2_a2 : W2 m ρ c (Proc.devRef .tc main_arg2) = (a2 m c) := (W2_of_ne m ρ c main_arg2 (by decide)).trans (W1_a2 m ρ c)
theorem W2_a3 : W2 m ρ c (Proc.devRef .tc main_arg3) = (a3 m c) := (W2_of_ne m ρ c main_arg3 (by decide)).trans (W1_a3 m ρ c)
theorem W2_a4 : W2 m ρ c (Proc.devRef .tc main_arg4) = (a4 m c) := (W2_of_ne m ρ c main_arg4 (by decide)).trans (W1_a4 m ρ c)
theorem W2_a5 : W2 m ρ c (Proc.devRef .tc main_arg5) = (a5 m c) := (W2_of_ne m ρ c main_arg5 (by decide)).trans (W1_a5 m ρ c)
theorem W2_a6 : W2 m ρ c (Proc.devRef .tc main_arg6) = (a6 m c) := (W2_of_ne m ρ c main_arg6 (by decide)).trans (W1_a6 m ρ c)
theorem W2_a7 : W2 m ρ c (Proc.devRef .tc main_arg7) = (a7 m c) := (W2_of_ne m ρ c main_arg7 (by decide)).trans (W1_a7 m ρ c)
theorem W2_a8 : W2 m ρ c (Proc.devRef .tc main_arg8) = (a8 m c) := (W2_of_ne m ρ c main_arg8 (by decide)).trans (W1_a8 m ρ c)
theorem W2_a9 : W2 m ρ c (Proc.devRef .tc main_arg9) = (a9 m c) := (W2_of_ne m ρ c main_arg9 (by decide)).trans (W1_a9 m ρ c)
theorem W2_a10 : W2 m ρ c (Proc.devRef .tc main_arg10) = (a10 m c) := (W2_of_ne m ρ c main_arg10 (by decide)).trans (W1_a10 m ρ c)
theorem W2_a12 : W2 m ρ c (Proc.devRef .tc main_arg12) = (a12 m c) := (W2_of_ne m ρ c main_arg12 (by decide)).trans (W1_a12 m ρ c)
theorem W2_a13 : W2 m ρ c (Proc.devRef .tc main_arg13) = (a13 m c) := (W2_of_ne m ρ c main_arg13 (by decide)).trans (W1_a13 m ρ c)

/-! ## Region 1's entry -/

theorem W3_v31 : W3 m ρ c (Proc.devRef .tc main_v31) = addf (nodes (F := Ideal) (a0 m c) (a1 m c)) (layK0 (nodes (F := Ideal) (a0 m c) (a1 m c)) (a6 m c) (a7 m c) (a8 m c) (a9 m c) (a10 m c) (a11 m c)) := by
  refine (HostRead.h1_sum (W2 m ρ c)).trans ?_
  rw [W2_v4, W2_v30]
theorem W3_v30 : W3 m ρ c (Proc.devRef .tc main_v30) = (layK0 (nodes (F := Ideal) (a0 m c) (a1 m c)) (a6 m c) (a7 m c) (a8 m c) (a9 m c) (a10 m c) (a11 m c)) := (HostRead.h1_v30 (W2 m ρ c)).trans (W2_v30 m ρ c)
theorem W3_v1 : W3 m ρ c (Proc.devRef .tc main_v1) = (edgeSrc (a11 m c)) := (HostRead.h1_v1 (W2 m ρ c)).trans (W2_v1 m ρ c)
theorem W3_v3 : W3 m ρ c (Proc.devRef .tc main_v3) = (edgeDst (a11 m c)) := (HostRead.h1_v3 (W2 m ρ c)).trans (W2_v3 m ρ c)
theorem W3_v44 : W3 m ρ c (Proc.devRef .tc main_v44) = aggK (F := Ideal) (layK0 (nodes (F := Ideal) (a0 m c) (a1 m c)) (a6 m c) (a7 m c) (a8 m c) (a9 m c) (a10 m c) (a11 m c)) (a10 m c) (edgeSrc (a11 m c)) (edgeDst (a11 m c)) := by
  refine (HostRead.h1_agg (W2 m ρ c)).trans ?_
  rw [W2_v30, W2_a10, W2_v1, W2_v3]
theorem W3_v47 : W3 m ρ c (Proc.devRef .tc main_v47) = tr64 (F := Ideal) (slabW1 (F := Ideal) (a6 m c)) := by
  refine (HostRead.h1_w1 (W2 m ρ c)).trans ?_
  rw [W2_a6]
theorem W3_v50 : W3 m ρ c (Proc.devRef .tc main_v50) = tr64 (F := Ideal) (slabW1 (F := Ideal) (a8 m c)) := by
  refine (HostRead.h1_w2 (W2 m ρ c)).trans ?_
  rw [W2_a8]
theorem W3_v53 : W3 m ρ c (Proc.devRef .tc main_v53) = asRow64 (F := Ideal) (slabB1 (F := Ideal) (a7 m c)) := by
  refine (HostRead.h1_b1 (W2 m ρ c)).trans ?_
  rw [W2_a7]
theorem W3_v56 : W3 m ρ c (Proc.devRef .tc main_v56) = asRow64 (F := Ideal) (slabB1 (F := Ideal) (a9 m c)) := by
  refine (HostRead.h1_b2 (W2 m ρ c)).trans ?_
  rw [W2_a9]
theorem W3_a2 : W3 m ρ c (Proc.devRef .tc main_arg2) = (a2 m c) := (HostRead.h1_arg2 (W2 m ρ c)).trans (W2_a2 m ρ c)
theorem W3_a3 : W3 m ρ c (Proc.devRef .tc main_arg3) = (a3 m c) := (HostRead.h1_arg3 (W2 m ρ c)).trans (W2_a3 m ρ c)
theorem W3_a4 : W3 m ρ c (Proc.devRef .tc main_arg4) = (a4 m c) := (HostRead.h1_arg4 (W2 m ρ c)).trans (W2_a4 m ρ c)
theorem W3_a5 : W3 m ρ c (Proc.devRef .tc main_arg5) = (a5 m c) := (HostRead.h1_arg5 (W2 m ρ c)).trans (W2_a5 m ρ c)
theorem W3_a6 : W3 m ρ c (Proc.devRef .tc main_arg6) = (a6 m c) := (HostRead.h1_arg6 (W2 m ρ c)).trans (W2_a6 m ρ c)
theorem W3_a7 : W3 m ρ c (Proc.devRef .tc main_arg7) = (a7 m c) := (HostRead.h1_arg7 (W2 m ρ c)).trans (W2_a7 m ρ c)
theorem W3_a8 : W3 m ρ c (Proc.devRef .tc main_arg8) = (a8 m c) := (HostRead.h1_arg8 (W2 m ρ c)).trans (W2_a8 m ρ c)
theorem W3_a9 : W3 m ρ c (Proc.devRef .tc main_arg9) = (a9 m c) := (HostRead.h1_arg9 (W2 m ρ c)).trans (W2_a9 m ρ c)
theorem W3_a10 : W3 m ρ c (Proc.devRef .tc main_arg10) = (a10 m c) := (HostRead.h1_arg10 (W2 m ρ c)).trans (W2_a10 m ρ c)
theorem W3_a12 : W3 m ρ c (Proc.devRef .tc main_arg12) = (a12 m c) := (HostRead.h1_arg12 (W2 m ρ c)).trans (W2_a12 m ρ c)
theorem W3_a13 : W3 m ρ c (Proc.devRef .tc main_arg13) = (a13 m c) := (HostRead.h1_arg13 (W2 m ρ c)).trans (W2_a13 m ρ c)

/-! ## Region 1's exit -/

theorem W4_v57 : W4 m ρ c (Proc.devRef .tc main_v57) = (layK1 (layK0 (nodes (F := Ideal) (a0 m c) (a1 m c)) (a6 m c) (a7 m c) (a8 m c) (a9 m c) (a10 m c) (a11 m c)) (a6 m c) (a7 m c) (a8 m c) (a9 m c) (a10 m c) (a11 m c)) := by
  refine (W4_arr m ρ c 6).trans ((Region1.out_arr (V3 m ρ) Pay.layerPay1 c).trans ?_)
  show Cert.Arr.layerArr (W3 m ρ c (Proc.devRef .tc main_v30)) (W3 m ρ c (Proc.devRef .tc main_v44)) (W3 m ρ c (Proc.devRef .tc main_v47)) (W3 m ρ c (Proc.devRef .tc main_v53)) (W3 m ρ c (Proc.devRef .tc main_v50)) (W3 m ρ c (Proc.devRef .tc main_v56)) = _
  rw [W3_v30, W3_v44, W3_v47, W3_v53, W3_v50, W3_v56]
  rfl
theorem W4_v31 : W4 m ρ c (Proc.devRef .tc main_v31) = addf (nodes (F := Ideal) (a0 m c) (a1 m c)) (layK0 (nodes (F := Ideal) (a0 m c) (a1 m c)) (a6 m c) (a7 m c) (a8 m c) (a9 m c) (a10 m c) (a11 m c)) := (W4_of_ne m ρ c main_v31 (by decide)).trans (W3_v31 m ρ c)
theorem W4_v1 : W4 m ρ c (Proc.devRef .tc main_v1) = (edgeSrc (a11 m c)) := (W4_of_ne m ρ c main_v1 (by decide)).trans (W3_v1 m ρ c)
theorem W4_v3 : W4 m ρ c (Proc.devRef .tc main_v3) = (edgeDst (a11 m c)) := (W4_of_ne m ρ c main_v3 (by decide)).trans (W3_v3 m ρ c)
theorem W4_a2 : W4 m ρ c (Proc.devRef .tc main_arg2) = (a2 m c) := (W4_of_ne m ρ c main_arg2 (by decide)).trans (W3_a2 m ρ c)
theorem W4_a3 : W4 m ρ c (Proc.devRef .tc main_arg3) = (a3 m c) := (W4_of_ne m ρ c main_arg3 (by decide)).trans (W3_a3 m ρ c)
theorem W4_a4 : W4 m ρ c (Proc.devRef .tc main_arg4) = (a4 m c) := (W4_of_ne m ρ c main_arg4 (by decide)).trans (W3_a4 m ρ c)
theorem W4_a5 : W4 m ρ c (Proc.devRef .tc main_arg5) = (a5 m c) := (W4_of_ne m ρ c main_arg5 (by decide)).trans (W3_a5 m ρ c)
theorem W4_a6 : W4 m ρ c (Proc.devRef .tc main_arg6) = (a6 m c) := (W4_of_ne m ρ c main_arg6 (by decide)).trans (W3_a6 m ρ c)
theorem W4_a7 : W4 m ρ c (Proc.devRef .tc main_arg7) = (a7 m c) := (W4_of_ne m ρ c main_arg7 (by decide)).trans (W3_a7 m ρ c)
theorem W4_a8 : W4 m ρ c (Proc.devRef .tc main_arg8) = (a8 m c) := (W4_of_ne m ρ c main_arg8 (by decide)).trans (W3_a8 m ρ c)
theorem W4_a9 : W4 m ρ c (Proc.devRef .tc main_arg9) = (a9 m c) := (W4_of_ne m ρ c main_arg9 (by decide)).trans (W3_a9 m ρ c)
theorem W4_a10 : W4 m ρ c (Proc.devRef .tc main_arg10) = (a10 m c) := (W4_of_ne m ρ c main_arg10 (by decide)).trans (W3_a10 m ρ c)
theorem W4_a12 : W4 m ρ c (Proc.devRef .tc main_arg12) = (a12 m c) := (W4_of_ne m ρ c main_arg12 (by decide)).trans (W3_a12 m ρ c)
theorem W4_a13 : W4 m ρ c (Proc.devRef .tc main_arg13) = (a13 m c) := (W4_of_ne m ρ c main_arg13 (by decide)).trans (W3_a13 m ρ c)

/-! ## Region 2's entry -/

theorem W5_v58 : W5 m ρ c (Proc.devRef .tc main_v58) = addf (addf (nodes (F := Ideal) (a0 m c) (a1 m c)) (layK0 (nodes (F := Ideal) (a0 m c) (a1 m c)) (a6 m c) (a7 m c) (a8 m c) (a9 m c) (a10 m c) (a11 m c))) (layK1 (layK0 (nodes (F := Ideal) (a0 m c) (a1 m c)) (a6 m c) (a7 m c) (a8 m c) (a9 m c) (a10 m c) (a11 m c)) (a6 m c) (a7 m c) (a8 m c) (a9 m c) (a10 m c) (a11 m c)) := by
  refine (HostRead.h2_sum (W4 m ρ c)).trans ?_
  rw [W4_v31, W4_v57]
theorem W5_v57 : W5 m ρ c (Proc.devRef .tc main_v57) = (layK1 (layK0 (nodes (F := Ideal) (a0 m c) (a1 m c)) (a6 m c) (a7 m c) (a8 m c) (a9 m c) (a10 m c) (a11 m c)) (a6 m c) (a7 m c) (a8 m c) (a9 m c) (a10 m c) (a11 m c)) := (HostRead.h2_v57 (W4 m ρ c)).trans (W4_v57 m ρ c)
theorem W5_v71 : W5 m ρ c (Proc.devRef .tc main_v71) = aggK (F := Ideal) (layK1 (layK0 (nodes (F := Ideal) (a0 m c) (a1 m c)) (a6 m c) (a7 m c) (a8 m c) (a9 m c) (a10 m c) (a11 m c)) (a6 m c) (a7 m c) (a8 m c) (a9 m c) (a10 m c) (a11 m c)) (a10 m c) (edgeSrc (a11 m c)) (edgeDst (a11 m c)) := by
  refine (HostRead.h2_agg (W4 m ρ c)).trans ?_
  rw [W4_v57, W4_a10, W4_v1, W4_v3]
theorem W5_v74 : W5 m ρ c (Proc.devRef .tc main_v74) = tr64 (F := Ideal) (slabW2 (F := Ideal) (a6 m c)) := by
  refine (HostRead.h2_w1 (W4 m ρ c)).trans ?_
  rw [W4_a6]
theorem W5_v77 : W5 m ρ c (Proc.devRef .tc main_v77) = tr64 (F := Ideal) (slabW2 (F := Ideal) (a8 m c)) := by
  refine (HostRead.h2_w2 (W4 m ρ c)).trans ?_
  rw [W4_a8]
theorem W5_v80 : W5 m ρ c (Proc.devRef .tc main_v80) = asRow64 (F := Ideal) (slabB2 (F := Ideal) (a7 m c)) := by
  refine (HostRead.h2_b1 (W4 m ρ c)).trans ?_
  rw [W4_a7]
theorem W5_v83 : W5 m ρ c (Proc.devRef .tc main_v83) = asRow64 (F := Ideal) (slabB2 (F := Ideal) (a9 m c)) := by
  refine (HostRead.h2_b2 (W4 m ρ c)).trans ?_
  rw [W4_a9]
theorem W5_a2 : W5 m ρ c (Proc.devRef .tc main_arg2) = (a2 m c) := (HostRead.h2_arg2 (W4 m ρ c)).trans (W4_a2 m ρ c)
theorem W5_a3 : W5 m ρ c (Proc.devRef .tc main_arg3) = (a3 m c) := (HostRead.h2_arg3 (W4 m ρ c)).trans (W4_a3 m ρ c)
theorem W5_a4 : W5 m ρ c (Proc.devRef .tc main_arg4) = (a4 m c) := (HostRead.h2_arg4 (W4 m ρ c)).trans (W4_a4 m ρ c)
theorem W5_a5 : W5 m ρ c (Proc.devRef .tc main_arg5) = (a5 m c) := (HostRead.h2_arg5 (W4 m ρ c)).trans (W4_a5 m ρ c)
theorem W5_a12 : W5 m ρ c (Proc.devRef .tc main_arg12) = (a12 m c) := (HostRead.h2_arg12 (W4 m ρ c)).trans (W4_a12 m ρ c)
theorem W5_a13 : W5 m ρ c (Proc.devRef .tc main_arg13) = (a13 m c) := (HostRead.h2_arg13 (W4 m ρ c)).trans (W4_a13 m ρ c)

/-! ## Region 2's exit -/

theorem W6_v84 : W6 m ρ c (Proc.devRef .tc main_v84) = (layK2 (layK1 (layK0 (nodes (F := Ideal) (a0 m c) (a1 m c)) (a6 m c) (a7 m c) (a8 m c) (a9 m c) (a10 m c) (a11 m c)) (a6 m c) (a7 m c) (a8 m c) (a9 m c) (a10 m c) (a11 m c)) (a6 m c) (a7 m c) (a8 m c) (a9 m c) (a10 m c) (a11 m c)) := by
  refine (W6_arr m ρ c 6).trans ((Region2.out_arr (V5 m ρ) Pay.layerPay2 c).trans ?_)
  show Cert.Arr.layerArr (W5 m ρ c (Proc.devRef .tc main_v57)) (W5 m ρ c (Proc.devRef .tc main_v71)) (W5 m ρ c (Proc.devRef .tc main_v74)) (W5 m ρ c (Proc.devRef .tc main_v80)) (W5 m ρ c (Proc.devRef .tc main_v77)) (W5 m ρ c (Proc.devRef .tc main_v83)) = _
  rw [W5_v57, W5_v71, W5_v74, W5_v80, W5_v77, W5_v83]
  rfl
theorem W6_v58 : W6 m ρ c (Proc.devRef .tc main_v58) = addf (addf (nodes (F := Ideal) (a0 m c) (a1 m c)) (layK0 (nodes (F := Ideal) (a0 m c) (a1 m c)) (a6 m c) (a7 m c) (a8 m c) (a9 m c) (a10 m c) (a11 m c))) (layK1 (layK0 (nodes (F := Ideal) (a0 m c) (a1 m c)) (a6 m c) (a7 m c) (a8 m c) (a9 m c) (a10 m c) (a11 m c)) (a6 m c) (a7 m c) (a8 m c) (a9 m c) (a10 m c) (a11 m c)) := (W6_of_ne m ρ c main_v58 (by decide)).trans (W5_v58 m ρ c)
theorem W6_a2 : W6 m ρ c (Proc.devRef .tc main_arg2) = (a2 m c) := (W6_of_ne m ρ c main_arg2 (by decide)).trans (W5_a2 m ρ c)
theorem W6_a3 : W6 m ρ c (Proc.devRef .tc main_arg3) = (a3 m c) := (W6_of_ne m ρ c main_arg3 (by decide)).trans (W5_a3 m ρ c)
theorem W6_a4 : W6 m ρ c (Proc.devRef .tc main_arg4) = (a4 m c) := (W6_of_ne m ρ c main_arg4 (by decide)).trans (W5_a4 m ρ c)
theorem W6_a5 : W6 m ρ c (Proc.devRef .tc main_arg5) = (a5 m c) := (W6_of_ne m ρ c main_arg5 (by decide)).trans (W5_a5 m ρ c)
theorem W6_a12 : W6 m ρ c (Proc.devRef .tc main_arg12) = (a12 m c) := (W6_of_ne m ρ c main_arg12 (by decide)).trans (W5_a12 m ρ c)
theorem W6_a13 : W6 m ρ c (Proc.devRef .tc main_arg13) = (a13 m c) := (W6_of_ne m ρ c main_arg13 (by decide)).trans (W5_a13 m ρ c)

/-! ## Region 3's entry, its exit, and the return -/

theorem W7_mean : quarter (F := Ideal) (addf (W6 m ρ c (Proc.devRef .tc main_v58)) (W6 m ρ c (Proc.devRef .tc main_v84))) = mean4K (F := Ideal) (nodes (F := Ideal) (a0 m c) (a1 m c)) (layK0 (nodes (F := Ideal) (a0 m c) (a1 m c)) (a6 m c) (a7 m c) (a8 m c) (a9 m c) (a10 m c) (a11 m c)) (layK1 (layK0 (nodes (F := Ideal) (a0 m c) (a1 m c)) (a6 m c) (a7 m c) (a8 m c) (a9 m c) (a10 m c) (a11 m c)) (a6 m c) (a7 m c) (a8 m c) (a9 m c) (a10 m c) (a11 m c)) (layK2 (layK1 (layK0 (nodes (F := Ideal) (a0 m c) (a1 m c)) (a6 m c) (a7 m c) (a8 m c) (a9 m c) (a10 m c) (a11 m c)) (a6 m c) (a7 m c) (a8 m c) (a9 m c) (a10 m c) (a11 m c)) (a6 m c) (a7 m c) (a8 m c) (a9 m c) (a10 m c) (a11 m c)) := by
  rw [W6_v58, W6_v84]
  rfl
theorem W7_v96 : W7 m ρ c (Proc.devRef .tc main_v96) = take64 (F := Ideal) (userHalf (F := Ideal) (mean4K (F := Ideal) (nodes (F := Ideal) (a0 m c) (a1 m c)) (layK0 (nodes (F := Ideal) (a0 m c) (a1 m c)) (a6 m c) (a7 m c) (a8 m c) (a9 m c) (a10 m c) (a11 m c)) (layK1 (layK0 (nodes (F := Ideal) (a0 m c) (a1 m c)) (a6 m c) (a7 m c) (a8 m c) (a9 m c) (a10 m c) (a11 m c)) (a6 m c) (a7 m c) (a8 m c) (a9 m c) (a10 m c) (a11 m c)) (layK2 (layK1 (layK0 (nodes (F := Ideal) (a0 m c) (a1 m c)) (a6 m c) (a7 m c) (a8 m c) (a9 m c) (a10 m c) (a11 m c)) (a6 m c) (a7 m c) (a8 m c) (a9 m c) (a10 m c) (a11 m c)) (a6 m c) (a7 m c) (a8 m c) (a9 m c) (a10 m c) (a11 m c)))) (a12 m c) := by
  refine (HostRead.h3_gu (W6 m ρ c)).trans ?_
  rw [W7_mean, W6_a12]
theorem W7_v103 : W7 m ρ c (Proc.devRef .tc main_v103) = take64 (F := Ideal) (itemHalf (F := Ideal) (mean4K (F := Ideal) (nodes (F := Ideal) (a0 m c) (a1 m c)) (layK0 (nodes (F := Ideal) (a0 m c) (a1 m c)) (a6 m c) (a7 m c) (a8 m c) (a9 m c) (a10 m c) (a11 m c)) (layK1 (layK0 (nodes (F := Ideal) (a0 m c) (a1 m c)) (a6 m c) (a7 m c) (a8 m c) (a9 m c) (a10 m c) (a11 m c)) (a6 m c) (a7 m c) (a8 m c) (a9 m c) (a10 m c) (a11 m c)) (layK2 (layK1 (layK0 (nodes (F := Ideal) (a0 m c) (a1 m c)) (a6 m c) (a7 m c) (a8 m c) (a9 m c) (a10 m c) (a11 m c)) (a6 m c) (a7 m c) (a8 m c) (a9 m c) (a10 m c) (a11 m c)) (a6 m c) (a7 m c) (a8 m c) (a9 m c) (a10 m c) (a11 m c)))) (a13 m c) := by
  refine (HostRead.h3_gi (W6 m ρ c)).trans ?_
  rw [W7_mean, W6_a13]
theorem W7_v110 : W7 m ρ c (Proc.devRef .tc main_v110) = take64 (F := Ideal) (a2 m c) (a12 m c) := by
  refine (HostRead.h3_tu (W6 m ρ c)).trans ?_
  rw [W6_a2, W6_a12]
theorem W7_v117 : W7 m ρ c (Proc.devRef .tc main_v117) = take2048 (F := Ideal) (a3 m c) (a13 m c) := by
  refine (HostRead.h3_f (W6 m ρ c)).trans ?_
  rw [W6_a3, W6_a13]
theorem W7_v118 : W7 m ρ c (Proc.devRef .tc main_v118) = trPw (F := Ideal) (a4 m c) := by
  refine (HostRead.h3_pw (W6 m ρ c)).trans ?_
  rw [W6_a4]
theorem W7_v119 : W7 m ρ c (Proc.devRef .tc main_v119) = asRow64 (F := Ideal) (a5 m c) := by
  refine (HostRead.h3_pb (W6 m ρ c)).trans ?_
  rw [W6_a5]

theorem W8_v120 : W8 m ρ c (Proc.devRef .tc main_v120) = Cert.Arr.batchArr (take2048 (F := Ideal) (a3 m c) (a13 m c)) (trPw (F := Ideal) (a4 m c)) (asRow64 (F := Ideal) (a5 m c))
    (take64 (F := Ideal) (userHalf (F := Ideal) (mean4K (F := Ideal) (nodes (F := Ideal) (a0 m c) (a1 m c)) (layK0 (nodes (F := Ideal) (a0 m c) (a1 m c)) (a6 m c) (a7 m c) (a8 m c) (a9 m c) (a10 m c) (a11 m c)) (layK1 (layK0 (nodes (F := Ideal) (a0 m c) (a1 m c)) (a6 m c) (a7 m c) (a8 m c) (a9 m c) (a10 m c) (a11 m c)) (a6 m c) (a7 m c) (a8 m c) (a9 m c) (a10 m c) (a11 m c)) (layK2 (layK1 (layK0 (nodes (F := Ideal) (a0 m c) (a1 m c)) (a6 m c) (a7 m c) (a8 m c) (a9 m c) (a10 m c) (a11 m c)) (a6 m c) (a7 m c) (a8 m c) (a9 m c) (a10 m c) (a11 m c)) (a6 m c) (a7 m c) (a8 m c) (a9 m c) (a10 m c) (a11 m c)))) (a12 m c)) (take64 (F := Ideal) (itemHalf (F := Ideal) (mean4K (F := Ideal) (nodes (F := Ideal) (a0 m c) (a1 m c)) (layK0 (nodes (F := Ideal) (a0 m c) (a1 m c)) (a6 m c) (a7 m c) (a8 m c) (a9 m c) (a10 m c) (a11 m c)) (layK1 (layK0 (nodes (F := Ideal) (a0 m c) (a1 m c)) (a6 m c) (a7 m c) (a8 m c) (a9 m c) (a10 m c) (a11 m c)) (a6 m c) (a7 m c) (a8 m c) (a9 m c) (a10 m c) (a11 m c)) (layK2 (layK1 (layK0 (nodes (F := Ideal) (a0 m c) (a1 m c)) (a6 m c) (a7 m c) (a8 m c) (a9 m c) (a10 m c) (a11 m c)) (a6 m c) (a7 m c) (a8 m c) (a9 m c) (a10 m c) (a11 m c)) (a6 m c) (a7 m c) (a8 m c) (a9 m c) (a10 m c) (a11 m c)))) (a13 m c)) (take64 (F := Ideal) (a2 m c) (a12 m c)) := by
  refine (W8_arr m ρ c 6).trans ((Region3.out_arr (V7 m ρ) Pay.batchPay c).trans ?_)
  show Cert.Arr.batchArr (W7 m ρ c (Proc.devRef .tc main_v117)) (W7 m ρ c (Proc.devRef .tc main_v118)) (W7 m ρ c (Proc.devRef .tc main_v119)) (W7 m ρ c (Proc.devRef .tc main_v96)) (W7 m ρ c (Proc.devRef .tc main_v103)) (W7 m ρ c (Proc.devRef .tc main_v110)) = _
  rw [W7_v117, W7_v118, W7_v119, W7_v96, W7_v103, W7_v110]

/-- THE RESULT BUFFER at the return: `kerOut` of the arguments as launched. -/
theorem W9_result : W9 m ρ c (Proc.devRef .tc main_v121) = kerOut (a0 m c) (a1 m c) (a2 m c) (a3 m c) (a4 m c) (a5 m c) (a6 m c) (a7 m c) (a8 m c) (a9 m c) (a10 m c) (a11 m c) (a12 m c) (a13 m c) := by
  refine (HostRead.h4_out (W8 m ρ c)).trans ?_
  rw [W8_v120]
  rfl

end Cert.KernelIdeal.Chain

end
-- ==== Proof.RefOps.lean ====
/-
  The reference program's run as a fold.  @main is a straight line of host operations: its four windows in order, each
  statement one operation, each call of a module-local function that function's operations over the call's own buffers
  (the rectifier's call of its selection helper included).  Listed as `ops`, the program is `seq ops`, and every weakly
  fair execution terminates with every buffer at the fold of the operations' results over the launch contents.
-/
import proofs.«174847_j28037546508681_1_alg».proof.Proof.Gen.ReferenceIdeal
import Idealize.ShloMosaic.Lib.StableHlo.Run

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- The host operations 1 … 70 of @main's 240, in order: the statements of its window 0, a called
    function's operations standing in its call's place over that call's buffers. -/
abbrev ops0 : List (HloOp τ sig (Elt F)) :=
  [ StableHlo.unary main_arg11 main_v0 ((extractStridedSlice S1x2000000 ![0, 0] · slices_S2x2000000_S1x2000000_0_0) : (⟨S2x2000000, .i32⟩ : BufTy).Contents (Elt F) → (⟨S1x2000000, .i32⟩ : BufTy).Contents (Elt F)),
    StableHlo.reshape main_v0 main_v1 rfl shapeCasts_S1x2000000_S2000000,
    StableHlo.unary main_arg11 main_v2 ((extractStridedSlice S1x2000000 ![1, 0] · slices_S2x2000000_S1x2000000_1_0) : (⟨S2x2000000, .i32⟩ : BufTy).Contents (Elt F) → (⟨S1x2000000, .i32⟩ : BufTy).Contents (Elt F)),
    StableHlo.reshape main_v2 main_v3 rfl shapeCasts_S1x2000000_S2000000,
    StableHlo.binary main_arg0 main_arg1 main_v4 ((fun a b => concatenate S100000x64 0 [⟨S50000x64, a⟩, ⟨S50000x64, b⟩] concatenates_S50000x64_S50000x64_S100000x64_d0) : (⟨S50000x64, .f32⟩ : BufTy).Contents (Elt F) → (⟨S50000x64, .f32⟩ : BufTy).Contents (Elt F) → (⟨S100000x64, .f32⟩ : BufTy).Contents (Elt F)),
    StableHlo.nullary main_c (constantI S_ 32 0#32),
    StableHlo.unary main_c main_v5 (broadcastInDim S2000000 ![] bcast_S_S2000000 : (⟨S_, .i32⟩ : BufTy).Contents (Elt F) → (⟨S2000000, .i32⟩ : BufTy).Contents (Elt F)),
    StableHlo.binary main_v1 main_v5 main_v6 (cmpi .slt : (⟨S2000000, .i32⟩ : BufTy).Contents (Elt F) → (⟨S2000000, .i32⟩ : BufTy).Contents (Elt F) → (⟨S2000000, .i1⟩ : BufTy).Contents (Elt F)),
    StableHlo.nullary main_c_0 (constantI S_ 32 100000#32),
    StableHlo.unary main_c_0 main_v7 (broadcastInDim S2000000 ![] bcast_S_S2000000 : (⟨S_, .i32⟩ : BufTy).Contents (Elt F) → (⟨S2000000, .i32⟩ : BufTy).Contents (Elt F)),
    StableHlo.binary main_v1 main_v7 main_v8 (addi : (⟨S2000000, .i32⟩ : BufTy).Contents (Elt F) → (⟨S2000000, .i32⟩ : BufTy).Contents (Elt F) → (⟨S2000000, .i32⟩ : BufTy).Contents (Elt F)),
    StableHlo.ternary main_v6 main_v8 main_v1 main_v9 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v9 main_v10 (broadcastInDim S2000000x1 ![0] bcast_S2000000_S2000000x1_0 : (⟨S2000000, .i32⟩ : BufTy).Contents (Elt F) → (⟨S2000000x1, .i32⟩ : BufTy).Contents (Elt F)),
    StableHlo.binary main_v4 main_v10 main_v11 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    StableHlo.unary main_arg10 main_v12 (broadcastInDim S2000000x1 ![0] bcast_S2000000_S2000000x1_0 : (⟨S2000000, .f32⟩ : BufTy).Contents (Elt F) → (⟨S2000000x1, .f32⟩ : BufTy).Contents (Elt F)),
    StableHlo.unary main_v12 main_v13 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v11 main_v13 main_v14 (mulf : (⟨S2000000x64, .f32⟩ : BufTy).Contents (Elt F) → (⟨S2000000x64, .f32⟩ : BufTy).Contents (Elt F) → (⟨S2000000x64, .f32⟩ : BufTy).Contents (Elt F)),
    StableHlo.nullary main_cst (constant S_ .f32 0x00000000#32),
    StableHlo.unary main_cst main_v15 (broadcastInDim S100000x64 ![] bcast_S_S100000x64 : (⟨S_, .f32⟩ : BufTy).Contents (Elt F) → (⟨S100000x64, .f32⟩ : BufTy).Contents (Elt F)),
    StableHlo.unary main_v3 main_v16 (broadcastInDim S2000000x1 ![0] bcast_S2000000_S2000000x1_0 : (⟨S2000000, .i32⟩ : BufTy).Contents (Elt F) → (⟨S2000000x1, .i32⟩ : BufTy).Contents (Elt F)),
    StableHlo.ternary main_v15 main_v16 main_v14 main_v17 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    StableHlo.binary main_v4 main_v17 main_v18 (addf : (⟨S100000x64, .f32⟩ : BufTy).Contents (Elt F) → (⟨S100000x64, .f32⟩ : BufTy).Contents (Elt F) → (⟨S100000x64, .f32⟩ : BufTy).Contents (Elt F)),
    StableHlo.unary main_arg6 main_v19 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v19 main_v20 rfl shapeCasts_S1x64x64_S64x64,
    StableHlo.unary main_v20 main_v21 ((transpose S64x64 [1, 0] · transposes_S64x64_S64x64_1_0) : (⟨S64x64, .f32⟩ : BufTy).Contents (Elt F) → (⟨S64x64, .f32⟩ : BufTy).Contents (Elt F)),
    StableHlo.binary main_v18 main_v21 main_v22 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg7 main_v23 ((extractStridedSlice S1x64 ![0, 0] · slices_S3x64_S1x64_0_0) : (⟨S3x64, .f32⟩ : BufTy).Contents (Elt F) → (⟨S1x64, .f32⟩ : BufTy).Contents (Elt F)),
    StableHlo.reshape main_v23 main_v24 rfl shapeCasts_S1x64_S64,
    StableHlo.unary main_v24 main_v25 (broadcastInDim S1x64 ![1] bcast_S64_S1x64_1 : (⟨S64, .f32⟩ : BufTy).Contents (Elt F) → (⟨S1x64, .f32⟩ : BufTy).Contents (Elt F)),
    StableHlo.unary main_v25 main_v26 (broadcastInDim S100000x64 ![0, 1] bcast_S1x64_S100000x64_0_1 : (⟨S1x64, .f32⟩ : BufTy).Contents (Elt F) → (⟨S100000x64, .f32⟩ : BufTy).Contents (Elt F)),
    StableHlo.binary main_v22 main_v26 main_v27 (addf : (⟨S100000x64, .f32⟩ : BufTy).Contents (Elt F) → (⟨S100000x64, .f32⟩ : BufTy).Contents (Elt F) → (⟨S100000x64, .f32⟩ : BufTy).Contents (Elt F)),
    StableHlo.binary main_v4 main_v17 main_v28 (mulf : (⟨S100000x64, .f32⟩ : BufTy).Contents (Elt F) → (⟨S100000x64, .f32⟩ : BufTy).Contents (Elt F) → (⟨S100000x64, .f32⟩ : BufTy).Contents (Elt F)),
    StableHlo.unary main_arg8 main_v29 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v29 main_v30 rfl shapeCasts_S1x64x64_S64x64,
    StableHlo.unary main_v30 main_v31 ((transpose S64x64 [1, 0] · transposes_S64x64_S64x64_1_0) : (⟨S64x64, .f32⟩ : BufTy).Contents (Elt F) → (⟨S64x64, .f32⟩ : BufTy).Contents (Elt F)),
    StableHlo.binary main_v28 main_v31 main_v32 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v27 main_v32 main_v33 (addf : (⟨S100000x64, .f32⟩ : BufTy).Contents (Elt F) → (⟨S100000x64, .f32⟩ : BufTy).Contents (Elt F) → (⟨S100000x64, .f32⟩ : BufTy).Contents (Elt F)),
    StableHlo.unary main_arg9 main_v34 ((extractStridedSlice S1x64 ![0, 0] · slices_S3x64_S1x64_0_0) : (⟨S3x64, .f32⟩ : BufTy).Contents (Elt F) → (⟨S1x64, .f32⟩ : BufTy).Contents (Elt F)),
    StableHlo.reshape main_v34 main_v35 rfl shapeCasts_S1x64_S64,
    StableHlo.unary main_v35 main_v36 (broadcastInDim S1x64 ![1] bcast_S64_S1x64_1 : (⟨S64, .f32⟩ : BufTy).Contents (Elt F) → (⟨S1x64, .f32⟩ : BufTy).Contents (Elt F)),
    StableHlo.unary main_v36 main_v37 (broadcastInDim S100000x64 ![0, 1] bcast_S1x64_S100000x64_0_1 : (⟨S1x64, .f32⟩ : BufTy).Contents (Elt F) → (⟨S100000x64, .f32⟩ : BufTy).Contents (Elt F)),
    StableHlo.binary main_v33 main_v37 main_v38 (addf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x3E4CCCCD#32),
    StableHlo.TRef.nullary main_call0.cst (constant S_ .f32 0x00000000#32),
    StableHlo.TRef.unary main_call0.cst main_call0.v0 (broadcastInDim S100000x64 ![] bcast_S_S100000x64),
    StableHlo.TRef.binary (.of main_v38) main_call0.v0 main_call0.v1 (cmpf .oge),
    StableHlo.TRef.unary (.of main_cst_1) main_call0.v2 id,
    StableHlo.TRef.unary main_call0.v2 main_call0.v3 (broadcastInDim S100000x64 ![] bcast_S_S100000x64),
    StableHlo.TRef.binary main_call0.v3 (.of main_v38) main_call0.v4 mulf,
    StableHlo.TRef.ternary main_call0.v1 (.of main_v38) main_call0.v4 main_call0.call0.v0 select,
    StableHlo.TRef.binary (.of main_v39) (.of main_v39) main_call1.v0 mulf,
    StableHlo.TRef.nullary main_call1.cst (constant S_ .f32 0x00000000#32),
    StableHlo.TRef.binary main_call1.v0 main_call1.cst main_call1.v1 (fun x v => Host.reduceAdd x v reducesTo_S100000x64_S100000_d1 h_S_),
    StableHlo.TRef.unary main_call1.v1 main_call1.v2 (broadcastInDim S100000x1 ![0] bcast_S100000_S100000x1_0),
    StableHlo.TRef.unary main_call1.v2 main_call1.v3 Host.sqrt,
    StableHlo.nullary main_cst_2 (constant S_ .f32 0x2B8CBCCC#32),
    StableHlo.unary main_cst_2 main_v41 (broadcastInDim S100000x1 ![] bcast_S_S100000x1 : (⟨S_, .f32⟩ : BufTy).Contents (Elt F) → (⟨S100000x1, .f32⟩ : BufTy).Contents (Elt F)),
    StableHlo.binary main_v40 main_v41 main_v42 (maximumf : (⟨S100000x1, .f32⟩ : BufTy).Contents (Elt F) → (⟨S100000x1, .f32⟩ : BufTy).Contents (Elt F) → (⟨S100000x1, .f32⟩ : BufTy).Contents (Elt F)),
    StableHlo.unary main_v42 main_v43 (broadcastInDim S100000x64 ![0, 1] bcast_S100000x1_S100000x64_0_1 : (⟨S100000x1, .f32⟩ : BufTy).Contents (Elt F) → (⟨S100000x64, .f32⟩ : BufTy).Contents (Elt F)),
    StableHlo.binary main_v39 main_v43 main_v44 (Host.divf : (⟨S100000x64, .f32⟩ : BufTy).Contents (Elt F) → (⟨S100000x64, .f32⟩ : BufTy).Contents (Elt F) → (⟨S100000x64, .f32⟩ : BufTy).Contents (Elt F)),
    StableHlo.nullary main_c_3 (constantI S_ 32 0#32),
    StableHlo.unary main_c_3 main_v45 (broadcastInDim S2000000 ![] bcast_S_S2000000 : (⟨S_, .i32⟩ : BufTy).Contents (Elt F) → (⟨S2000000, .i32⟩ : BufTy).Contents (Elt F)),
    StableHlo.binary main_v1 main_v45 main_v46 (cmpi .slt : (⟨S2000000, .i32⟩ : BufTy).Contents (Elt F) → (⟨S2000000, .i32⟩ : BufTy).Contents (Elt F) → (⟨S2000000, .i1⟩ : BufTy).Contents (Elt F)),
    StableHlo.nullary main_c_4 (constantI S_ 32 100000#32),
    StableHlo.unary main_c_4 main_v47 (broadcastInDim S2000000 ![] bcast_S_S2000000 : (⟨S_, .i32⟩ : BufTy).Contents (Elt F) → (⟨S2000000, .i32⟩ : BufTy).Contents (Elt F)),
    StableHlo.binary main_v1 main_v47 main_v48 (addi : (⟨S2000000, .i32⟩ : BufTy).Contents (Elt F) → (⟨S2000000, .i32⟩ : BufTy).Contents (Elt F) → (⟨S2000000, .i32⟩ : BufTy).Contents (Elt F)),
    StableHlo.ternary main_v46 main_v48 main_v1 main_v49 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v49 main_v50 (broadcastInDim S2000000x1 ![0] bcast_S2000000_S2000000x1_0 : (⟨S2000000, .i32⟩ : BufTy).Contents (Elt F) → (⟨S2000000x1, .i32⟩ : BufTy).Contents (Elt F)),
    StableHlo.binary main_v44 main_v50 main_v51 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    StableHlo.unary main_arg10 main_v52 (broadcastInDim S2000000x1 ![0] bcast_S2000000_S2000000x1_0 : (⟨S2000000, .f32⟩ : BufTy).Contents (Elt F) → (⟨S2000000x1, .f32⟩ : BufTy).Contents (Elt F)) ]

set_option maxRecDepth 8192 in
set_option maxHeartbeats 4000000 in
/-- Window 0 of @main is that straight line: the called functions' bodies unfolded at their calls and sequencing
    reassociated, both sides are one chain of host steps. -/
theorem main_part0_eq (c : Dev nD) : main_part0 (F := F) c = seq ops0 := by
  simp only [main_part0, fn_leaky_relu.body, fn_where.body, fn_norm.body, seq, bind_assoc, pure_bind] <;> rfl

set_option maxRecDepth 8192 in
/-- Every operation of window 0 touches TensorCore references only. -/
theorem ops0_sub : (ops0 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., reshape_bufs_sub .., unary_bufs_sub .., binary_bufs_sub .., unary_bufs_sub .., reshape_bufs_sub .., unary_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub ..⟩

set_option maxRecDepth 8192 in
/-- Every operation of window 0 determines its results. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The host operations 71 … 140 of @main's 240, in order: the statements of its window 1, a called
    function's operations standing in its call's place over that call's buffers. -/
abbrev ops1 : List (HloOp τ sig (Elt F)) :=
  [ StableHlo.unary main_v52 main_v53 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v51 main_v53 main_v54 (mulf : (⟨S2000000x64, .f32⟩ : BufTy).Contents (Elt F) → (⟨S2000000x64, .f32⟩ : BufTy).Contents (Elt F) → (⟨S2000000x64, .f32⟩ : BufTy).Contents (Elt F)),
    StableHlo.nullary main_cst_5 (constant S_ .f32 0x00000000#32),
    StableHlo.unary main_cst_5 main_v55 (broadcastInDim S100000x64 ![] bcast_S_S100000x64 : (⟨S_, .f32⟩ : BufTy).Contents (Elt F) → (⟨S100000x64, .f32⟩ : BufTy).Contents (Elt F)),
    StableHlo.unary main_v3 main_v56 (broadcastInDim S2000000x1 ![0] bcast_S2000000_S2000000x1_0 : (⟨S2000000, .i32⟩ : BufTy).Contents (Elt F) → (⟨S2000000x1, .i32⟩ : BufTy).Contents (Elt F)),
    StableHlo.ternary main_v55 main_v56 main_v54 main_v57 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    StableHlo.binary main_v44 main_v57 main_v58 (addf : (⟨S100000x64, .f32⟩ : BufTy).Contents (Elt F) → (⟨S100000x64, .f32⟩ : BufTy).Contents (Elt F) → (⟨S100000x64, .f32⟩ : BufTy).Contents (Elt F)),
    StableHlo.unary main_arg6 main_v59 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v59 main_v60 rfl shapeCasts_S1x64x64_S64x64,
    StableHlo.unary main_v60 main_v61 ((transpose S64x64 [1, 0] · transposes_S64x64_S64x64_1_0) : (⟨S64x64, .f32⟩ : BufTy).Contents (Elt F) → (⟨S64x64, .f32⟩ : BufTy).Contents (Elt F)),
    StableHlo.binary main_v58 main_v61 main_v62 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg7 main_v63 ((extractStridedSlice S1x64 ![1, 0] · slices_S3x64_S1x64_1_0) : (⟨S3x64, .f32⟩ : BufTy).Contents (Elt F) → (⟨S1x64, .f32⟩ : BufTy).Contents (Elt F)),
    StableHlo.reshape main_v63 main_v64 rfl shapeCasts_S1x64_S64,
    StableHlo.unary main_v64 main_v65 (broadcastInDim S1x64 ![1] bcast_S64_S1x64_1 : (⟨S64, .f32⟩ : BufTy).Contents (Elt F) → (⟨S1x64, .f32⟩ : BufTy).Contents (Elt F)),
    StableHlo.unary main_v65 main_v66 (broadcastInDim S100000x64 ![0, 1] bcast_S1x64_S100000x64_0_1 : (⟨S1x64, .f32⟩ : BufTy).Contents (Elt F) → (⟨S100000x64, .f32⟩ : BufTy).Contents (Elt F)),
    StableHlo.binary main_v62 main_v66 main_v67 (addf : (⟨S100000x64, .f32⟩ : BufTy).Contents (Elt F) → (⟨S100000x64, .f32⟩ : BufTy).Contents (Elt F) → (⟨S100000x64, .f32⟩ : BufTy).Contents (Elt F)),
    StableHlo.binary main_v44 main_v57 main_v68 (mulf : (⟨S100000x64, .f32⟩ : BufTy).Contents (Elt F) → (⟨S100000x64, .f32⟩ : BufTy).Contents (Elt F) → (⟨S100000x64, .f32⟩ : BufTy).Contents (Elt F)),
    StableHlo.unary main_arg8 main_v69 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v69 main_v70 rfl shapeCasts_S1x64x64_S64x64,
    StableHlo.unary main_v70 main_v71 ((transpose S64x64 [1, 0] · transposes_S64x64_S64x64_1_0) : (⟨S64x64, .f32⟩ : BufTy).Contents (Elt F) → (⟨S64x64, .f32⟩ : BufTy).Contents (Elt F)),
    StableHlo.binary main_v68 main_v71 main_v72 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v67 main_v72 main_v73 (addf : (⟨S100000x64, .f32⟩ : BufTy).Contents (Elt F) → (⟨S100000x64, .f32⟩ : BufTy).Contents (Elt F) → (⟨S100000x64, .f32⟩ : BufTy).Contents (Elt F)),
    StableHlo.unary main_arg9 main_v74 ((extractStridedSlice S1x64 ![1, 0] · slices_S3x64_S1x64_1_0) : (⟨S3x64, .f32⟩ : BufTy).Contents (Elt F) → (⟨S1x64, .f32⟩ : BufTy).Contents (Elt F)),
    StableHlo.reshape main_v74 main_v75 rfl shapeCasts_S1x64_S64,
    StableHlo.unary main_v75 main_v76 (broadcastInDim S1x64 ![1] bcast_S64_S1x64_1 : (⟨S64, .f32⟩ : BufTy).Contents (Elt F) → (⟨S1x64, .f32⟩ : BufTy).Contents (Elt F)),
    StableHlo.unary main_v76 main_v77 (broadcastInDim S100000x64 ![0, 1] bcast_S1x64_S100000x64_0_1 : (⟨S1x64, .f32⟩ : BufTy).Contents (Elt F) → (⟨S100000x64, .f32⟩ : BufTy).Contents (Elt F)),
    StableHlo.binary main_v73 main_v77 main_v78 (addf : (⟨S100000x64, .f32⟩ : BufTy).Contents (Elt F) → (⟨S100000x64, .f32⟩ : BufTy).Contents (Elt F) → (⟨S100000x64, .f32⟩ : BufTy).Contents (Elt F)),
    StableHlo.nullary main_cst_6 (constant S_ .f32 0x3E4CCCCD#32),
    StableHlo.TRef.nullary main_call2.cst (constant S_ .f32 0x00000000#32),
    StableHlo.TRef.unary main_call2.cst main_call2.v0 (broadcastInDim S100000x64 ![] bcast_S_S100000x64),
    StableHlo.TRef.binary (.of main_v78) main_call2.v0 main_call2.v1 (cmpf .oge),
    StableHlo.TRef.unary (.of main_cst_6) main_call2.v2 id,
    StableHlo.TRef.unary main_call2.v2 main_call2.v3 (broadcastInDim S100000x64 ![] bcast_S_S100000x64),
    StableHlo.TRef.binary main_call2.v3 (.of main_v78) main_call2.v4 mulf,
    StableHlo.TRef.ternary main_call2.v1 (.of main_v78) main_call2.v4 main_call2.call0.v0 select,
    StableHlo.TRef.binary (.of main_v79) (.of main_v79) main_call3.v0 mulf,
    StableHlo.TRef.nullary main_call3.cst (constant S_ .f32 0x00000000#32),
    StableHlo.TRef.binary main_call3.v0 main_call3.cst main_call3.v1 (fun x v => Host.reduceAdd x v reducesTo_S100000x64_S100000_d1 h_S_),
    StableHlo.TRef.unary main_call3.v1 main_call3.v2 (broadcastInDim S100000x1 ![0] bcast_S100000_S100000x1_0),
    StableHlo.TRef.unary main_call3.v2 main_call3.v3 Host.sqrt,
    StableHlo.nullary main_cst_7 (constant S_ .f32 0x2B8CBCCC#32),
    StableHlo.unary main_cst_7 main_v81 (broadcastInDim S100000x1 ![] bcast_S_S100000x1 : (⟨S_, .f32⟩ : BufTy).Contents (Elt F) → (⟨S100000x1, .f32⟩ : BufTy).Contents (Elt F)),
    StableHlo.binary main_v80 main_v81 main_v82 (maximumf : (⟨S100000x1, .f32⟩ : BufTy).Contents (Elt F) → (⟨S100000x1, .f32⟩ : BufTy).Contents (Elt F) → (⟨S100000x1, .f32⟩ : BufTy).Contents (Elt F)),
    StableHlo.unary main_v82 main_v83 (broadcastInDim S100000x64 ![0, 1] bcast_S100000x1_S100000x64_0_1 : (⟨S100000x1, .f32⟩ : BufTy).Contents (Elt F) → (⟨S100000x64, .f32⟩ : BufTy).Contents (Elt F)),
    StableHlo.binary main_v79 main_v83 main_v84 (Host.divf : (⟨S100000x64, .f32⟩ : BufTy).Contents (Elt F) → (⟨S100000x64, .f32⟩ : BufTy).Contents (Elt F) → (⟨S100000x64, .f32⟩ : BufTy).Contents (Elt F)),
    StableHlo.nullary main_c_8 (constantI S_ 32 0#32),
    StableHlo.unary main_c_8 main_v85 (broadcastInDim S2000000 ![] bcast_S_S2000000 : (⟨S_, .i32⟩ : BufTy).Contents (Elt F) → (⟨S2000000, .i32⟩ : BufTy).Contents (Elt F)),
    StableHlo.binary main_v1 main_v85 main_v86 (cmpi .slt : (⟨S2000000, .i32⟩ : BufTy).Contents (Elt F) → (⟨S2000000, .i32⟩ : BufTy).Contents (Elt F) → (⟨S2000000, .i1⟩ : BufTy).Contents (Elt F)),
    StableHlo.nullary main_c_9 (constantI S_ 32 100000#32),
    StableHlo.unary main_c_9 main_v87 (broadcastInDim S2000000 ![] bcast_S_S2000000 : (⟨S_, .i32⟩ : BufTy).Contents (Elt F) → (⟨S2000000, .i32⟩ : BufTy).Contents (Elt F)),
    StableHlo.binary main_v1 main_v87 main_v88 (addi : (⟨S2000000, .i32⟩ : BufTy).Contents (Elt F) → (⟨S2000000, .i32⟩ : BufTy).Contents (Elt F) → (⟨S2000000, .i32⟩ : BufTy).Contents (Elt F)),
    StableHlo.ternary main_v86 main_v88 main_v1 main_v89 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v89 main_v90 (broadcastInDim S2000000x1 ![0] bcast_S2000000_S2000000x1_0 : (⟨S2000000, .i32⟩ : BufTy).Contents (Elt F) → (⟨S2000000x1, .i32⟩ : BufTy).Contents (Elt F)),
    StableHlo.binary main_v84 main_v90 main_v91 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    StableHlo.unary main_arg10 main_v92 (broadcastInDim S2000000x1 ![0] bcast_S2000000_S2000000x1_0 : (⟨S2000000, .f32⟩ : BufTy).Contents (Elt F) → (⟨S2000000x1, .f32⟩ : BufTy).Contents (Elt F)),
    StableHlo.unary main_v92 main_v93 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v91 main_v93 main_v94 (mulf : (⟨S2000000x64, .f32⟩ : BufTy).Contents (Elt F) → (⟨S2000000x64, .f32⟩ : BufTy).Contents (Elt F) → (⟨S2000000x64, .f32⟩ : BufTy).Contents (Elt F)),
    StableHlo.nullary main_cst_10 (constant S_ .f32 0x00000000#32),
    StableHlo.unary main_cst_10 main_v95 (broadcastInDim S100000x64 ![] bcast_S_S100000x64 : (⟨S_, .f32⟩ : BufTy).Contents (Elt F) → (⟨S100000x64, .f32⟩ : BufTy).Contents (Elt F)),
    StableHlo.unary main_v3 main_v96 (broadcastInDim S2000000x1 ![0] bcast_S2000000_S2000000x1_0 : (⟨S2000000, .i32⟩ : BufTy).Contents (Elt F) → (⟨S2000000x1, .i32⟩ : BufTy).Contents (Elt F)),
    StableHlo.ternary main_v95 main_v96 main_v94 main_v97 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    StableHlo.binary main_v84 main_v97 main_v98 (addf : (⟨S100000x64, .f32⟩ : BufTy).Contents (Elt F) → (⟨S100000x64, .f32⟩ : BufTy).Contents (Elt F) → (⟨S100000x64, .f32⟩ : BufTy).Contents (Elt F)),
    StableHlo.unary main_arg6 main_v99 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v99 main_v100 rfl shapeCasts_S1x64x64_S64x64,
    StableHlo.unary main_v100 main_v101 ((transpose S64x64 [1, 0] · transposes_S64x64_S64x64_1_0) : (⟨S64x64, .f32⟩ : BufTy).Contents (Elt F) → (⟨S64x64, .f32⟩ : BufTy).Contents (Elt F)),
    StableHlo.binary main_v98 main_v101 main_v102 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg7 main_v103 ((extractStridedSlice S1x64 ![2, 0] · slices_S3x64_S1x64_2_0) : (⟨S3x64, .f32⟩ : BufTy).Contents (Elt F) → (⟨S1x64, .f32⟩ : BufTy).Contents (Elt F)),
    StableHlo.reshape main_v103 main_v104 rfl shapeCasts_S1x64_S64,
    StableHlo.unary main_v104 main_v105 (broadcastInDim S1x64 ![1] bcast_S64_S1x64_1 : (⟨S64, .f32⟩ : BufTy).Contents (Elt F) → (⟨S1x64, .f32⟩ : BufTy).Contents (Elt F)),
    StableHlo.unary main_v105 main_v106 (broadcastInDim S100000x64 ![0, 1] bcast_S1x64_S100000x64_0_1 : (⟨S1x64, .f32⟩ : BufTy).Contents (Elt F) → (⟨S100000x64, .f32⟩ : BufTy).Contents (Elt F)) ]

set_option maxRecDepth 8192 in
set_option maxHeartbeats 4000000 in
/-- Window 1 of @main is that straight line: the called functions' bodies unfolded at their calls and sequencing
    reassociated, both sides are one chain of host steps. -/
theorem main_part1_eq (c : Dev nD) : main_part1 (F := F) c = seq ops1 := by
  simp only [main_part1, fn_leaky_relu.body, fn_where.body, fn_norm.body, seq, bind_assoc, pure_bind] <;> rfl

set_option maxRecDepth 8192 in
/-- Every operation of window 1 touches TensorCore references only. -/
theorem ops1_sub : (ops1 : List (HloOp τ sig (Elt F))).Forall fun op => op.bufs ⊆ tcRefs τ sig :=
  ⟨unary_bufs_sub .., binary_bufs_sub .., nullary_bufs_sub .., unary_bufs_sub .., unary_bufs_sub .., ternary_bufs_sub .., binary_bufs_sub .., unary_bufs_sub .., reshape_bufs_sub .., unary_bufs_sub .., binary_bufs_sub .., unary_bufs_sub .., reshape_bufs_sub .., unary_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., reshape_bufs_sub .., unary_bufs_sub .., binary_bufs_sub .., unary_bufs_sub .., reshape_bufs_sub .., unary_bufs_sub .., unary_bufs_sub ..⟩

set_option maxRecDepth 8192 in
/-- Every operation of window 1 determines its results. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The host operations 141 … 210 of @main's 240, in order: the statements of its window 2, a called
    function's operations standing in its call's place over that call's buffers. -/
abbrev ops2 : List (HloOp τ sig (Elt F)) :=
  [ StableHlo.binary main_v102 main_v106 main_v107 (addf : (⟨S100000x64, .f32⟩ : BufTy).Contents (Elt F) → (⟨S100000x64, .f32⟩ : BufTy).Contents (Elt F) → (⟨S100000x64, .f32⟩ : BufTy).Contents (Elt F)),
    StableHlo.binary main_v84 main_v97 main_v108 (mulf : (⟨S100000x64, .f32⟩ : BufTy).Contents (Elt F) → (⟨S100000x64, .f32⟩ : BufTy).Contents (Elt F) → (⟨S100000x64, .f32⟩ : BufTy).Contents (Elt F)),
    StableHlo.unary main_arg8 main_v109 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v109 main_v110 rfl shapeCasts_S1x64x64_S64x64,
    StableHlo.unary main_v110 main_v111 ((transpose S64x64 [1, 0] · transposes_S64x64_S64x64_1_0) : (⟨S64x64, .f32⟩ : BufTy).Contents (Elt F) → (⟨S64x64, .f32⟩ : BufTy).Contents (Elt F)),
    StableHlo.binary main_v108 main_v111 main_v112 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v107 main_v112 main_v113 (addf : (⟨S100000x64, .f32⟩ : BufTy).Contents (Elt F) → (⟨S100000x64, .f32⟩ : BufTy).Contents (Elt F) → (⟨S100000x64, .f32⟩ : BufTy).Contents (Elt F)),
    StableHlo.unary main_arg9 main_v114 ((extractStridedSlice S1x64 ![2, 0] · slices_S3x64_S1x64_2_0) : (⟨S3x64, .f32⟩ : BufTy).Contents (Elt F) → (⟨S1x64, .f32⟩ : BufTy).Contents (Elt F)),
    StableHlo.reshape main_v114 main_v115 rfl shapeCasts_S1x64_S64,
    StableHlo.unary main_v115 main_v116 (broadcastInDim S1x64 ![1] bcast_S64_S1x64_1 : (⟨S64, .f32⟩ : BufTy).Contents (Elt F) → (⟨S1x64, .f32⟩ : BufTy).Contents (Elt F)),
    StableHlo.unary main_v116 main_v117 (broadcastInDim S100000x64 ![0, 1] bcast_S1x64_S100000x64_0_1 : (⟨S1x64, .f32⟩ : BufTy).Contents (Elt F) → (⟨S100000x64, .f32⟩ : BufTy).Contents (Elt F)),
    StableHlo.binary main_v113 main_v117 main_v118 (addf : (⟨S100000x64, .f32⟩ : BufTy).Contents (Elt F) → (⟨S100000x64, .f32⟩ : BufTy).Contents (Elt F) → (⟨S100000x64, .f32⟩ : BufTy).Contents (Elt F)),
    StableHlo.nullary main_cst_11 (constant S_ .f32 0x3E4CCCCD#32),
    StableHlo.TRef.nullary main_call4.cst (constant S_ .f32 0x00000000#32),
    StableHlo.TRef.unary main_call4.cst main_call4.v0 (broadcastInDim S100000x64 ![] bcast_S_S100000x64),
    StableHlo.TRef.binary (.of main_v118) main_call4.v0 main_call4.v1 (cmpf .oge),
    StableHlo.TRef.unary (.of main_cst_11) main_call4.v2 id,
    StableHlo.TRef.unary main_call4.v2 main_call4.v3 (broadcastInDim S100000x64 ![] bcast_S_S100000x64),
    StableHlo.TRef.binary main_call4.v3 (.of main_v118) main_call4.v4 mulf,
    StableHlo.TRef.ternary main_call4.v1 (.of main_v118) main_call4.v4 main_call4.call0.v0 select,
    StableHlo.TRef.binary (.of main_v119) (.of main_v119) main_call5.v0 mulf,
    StableHlo.TRef.nullary main_call5.cst (constant S_ .f32 0x00000000#32),
    StableHlo.TRef.binary main_call5.v0 main_call5.cst main_call5.v1 (fun x v => Host.reduceAdd x v reducesTo_S100000x64_S100000_d1 h_S_),
    StableHlo.TRef.unary main_call5.v1 main_call5.v2 (broadcastInDim S100000x1 ![0] bcast_S100000_S100000x1_0),
    StableHlo.TRef.unary main_call5.v2 main_call5.v3 Host.sqrt,
    StableHlo.nullary main_cst_12 (constant S_ .f32 0x2B8CBCCC#32),
    StableHlo.unary main_cst_12 main_v121 (broadcastInDim S100000x1 ![] bcast_S_S100000x1 : (⟨S_, .f32⟩ : BufTy).Contents (Elt F) → (⟨S100000x1, .f32⟩ : BufTy).Contents (Elt F)),
    StableHlo.binary main_v120 main_v121 main_v122 (maximumf : (⟨S100000x1, .f32⟩ : BufTy).Contents (Elt F) → (⟨S100000x1, .f32⟩ : BufTy).Contents (Elt F) → (⟨S100000x1, .f32⟩ : BufTy).Contents (Elt F)),
    StableHlo.unary main_v122 main_v123 (broadcastInDim S100000x64 ![0, 1] bcast_S100000x1_S100000x64_0_1 : (⟨S100000x1, .f32⟩ : BufTy).Contents (Elt F) → (⟨S100000x64, .f32⟩ : BufTy).Contents (Elt F)),
    StableHlo.binary main_v119 main_v123 main_v124 (Host.divf : (⟨S100000x64, .f32⟩ : BufTy).Contents (Elt F) → (⟨S100000x64, .f32⟩ : BufTy).Contents (Elt F) → (⟨S100000x64, .f32⟩ : BufTy).Contents (Elt F)),
    StableHlo.unary main_v4 main_v125 (broadcastInDim S100000x1x64 ![0, 2] bcast_S100000x64_S100000x1x64_0_2 : (⟨S100000x64, .f32⟩ : BufTy).Contents (Elt F) → (⟨S100000x1x64, .f32⟩ : BufTy).Contents (Elt F)),
    StableHlo.unary main_v44 main_v126 (broadcastInDim S100000x1x64 ![0, 2] bcast_S100000x64_S100000x1x64_0_2 : (⟨S100000x64, .f32⟩ : BufTy).Contents (Elt F) → (⟨S100000x1x64, .f32⟩ : BufTy).Contents (Elt F)),
    StableHlo.unary main_v84 main_v127 (broadcastInDim S100000x1x64 ![0, 2] bcast_S100000x64_S100000x1x64_0_2 : (⟨S100000x64, .f32⟩ : BufTy).Contents (Elt F) → (⟨S100000x1x64, .f32⟩ : BufTy).Contents (Elt F)),
    StableHlo.unary main_v124 main_v128 (broadcastInDim S100000x1x64 ![0, 2] bcast_S100000x64_S100000x1x64_0_2 : (⟨S100000x64, .f32⟩ : BufTy).Contents (Elt F) → (⟨S100000x1x64, .f32⟩ : BufTy).Contents (Elt F)),
    StableHlo.nary ![main_v125, main_v126, main_v127, main_v128] main_v129 (fun u => concatenate S100000x4x64 1 [⟨S100000x1x64, u 0⟩, ⟨S100000x1x64, u 1⟩, ⟨S100000x1x64, u 2⟩, ⟨S100000x1x64, u 3⟩] concatenates_S100000x1x64_S100000x1x64_S100000x1x64_S100000x1x64_S100000x4x64_d1),
    StableHlo.nullary main_cst_13 (constant S_ .f32 0x00000000#32),
    StableHlo.binary main_v129 main_cst_13 main_v130 ((fun x v => Host.reduceAdd x v reducesTo_S100000x4x64_S100000x64_d1 h_S_) : (⟨S100000x4x64, .f32⟩ : BufTy).Contents (Elt F) → (⟨S_, .f32⟩ : BufTy).Contents (Elt F) → (⟨S100000x64, .f32⟩ : BufTy).Contents (Elt F)),
    StableHlo.nullary main_cst_14 (constant S_ .f32 0x40800000#32),
    StableHlo.unary main_cst_14 main_v131 (broadcastInDim S100000x64 ![] bcast_S_S100000x64 : (⟨S_, .f32⟩ : BufTy).Contents (Elt F) → (⟨S100000x64, .f32⟩ : BufTy).Contents (Elt F)),
    StableHlo.binary main_v130 main_v131 main_v132 (Host.divf : (⟨S100000x64, .f32⟩ : BufTy).Contents (Elt F) → (⟨S100000x64, .f32⟩ : BufTy).Contents (Elt F) → (⟨S100000x64, .f32⟩ : BufTy).Contents (Elt F)),
    StableHlo.unary main_v132 main_v133 ((extractStridedSlice S50000x64 ![0, 0] · slices_S100000x64_S50000x64_0_0) : (⟨S100000x64, .f32⟩ : BufTy).Contents (Elt F) → (⟨S50000x64, .f32⟩ : BufTy).Contents (Elt F)),
    StableHlo.unary main_v132 main_v134 ((extractStridedSlice S50000x64 ![50000, 0] · slices_S100000x64_S50000x64_50000_0) : (⟨S100000x64, .f32⟩ : BufTy).Contents (Elt F) → (⟨S50000x64, .f32⟩ : BufTy).Contents (Elt F)),
    StableHlo.nullary main_c_15 (constantI S_ 32 0#32),
    StableHlo.unary main_c_15 main_v135 (broadcastInDim S8192 ![] bcast_S_S8192 : (⟨S_, .i32⟩ : BufTy).Contents (Elt F) → (⟨S8192, .i32⟩ : BufTy).Contents (Elt F)),
    StableHlo.binary main_arg12 main_v135 main_v136 (cmpi .slt : (⟨S8192, .i32⟩ : BufTy).Contents (Elt F) → (⟨S8192, .i32⟩ : BufTy).Contents (Elt F) → (⟨S8192, .i1⟩ : BufTy).Contents (Elt F)),
    StableHlo.nullary main_c_16 (constantI S_ 32 50000#32),
    StableHlo.unary main_c_16 main_v137 (broadcastInDim S8192 ![] bcast_S_S8192 : (⟨S_, .i32⟩ : BufTy).Contents (Elt F) → (⟨S8192, .i32⟩ : BufTy).Contents (Elt F)),
    StableHlo.binary main_arg12 main_v137 main_v138 (addi : (⟨S8192, .i32⟩ : BufTy).Contents (Elt F) → (⟨S8192, .i32⟩ : BufTy).Contents (Elt F) → (⟨S8192, .i32⟩ : BufTy).Contents (Elt F)),
    StableHlo.ternary main_v136 main_v138 main_arg12 main_v139 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v139 main_v140 (broadcastInDim S8192x1 ![0] bcast_S8192_S8192x1_0 : (⟨S8192, .i32⟩ : BufTy).Contents (Elt F) → (⟨S8192x1, .i32⟩ : BufTy).Contents (Elt F)),
    StableHlo.binary main_v133 main_v140 main_v141 ((fun x i => Host.gather gather_S50000x64_S8192x1_S8192x64_1_0_n_n_0_1_164 x i) : (⟨S50000x64, .f32⟩ : BufTy).Contents (Elt F) → (⟨S8192x1, .i32⟩ : BufTy).Contents (Elt F) → (⟨S8192x64, .f32⟩ : BufTy).Contents (Elt F)),
    StableHlo.nullary main_c_17 (constantI S_ 32 0#32),
    StableHlo.unary main_c_17 main_v142 (broadcastInDim S8192 ![] bcast_S_S8192 : (⟨S_, .i32⟩ : BufTy).Contents (Elt F) → (⟨S8192, .i32⟩ : BufTy).Contents (Elt F)),
    StableHlo.binary main_arg13 main_v142 main_v143 (cmpi .slt : (⟨S8192, .i32⟩ : BufTy).Contents (Elt F) → (⟨S8192, .i32⟩ : BufTy).Contents (Elt F) → (⟨S8192, .i1⟩ : BufTy).Contents (Elt F)),
    StableHlo.nullary main_c_18 (constantI S_ 32 50000#32),
    StableHlo.unary main_c_18 main_v144 (broadcastInDim S8192 ![] bcast_S_S8192 : (⟨S_, .i32⟩ : BufTy).Contents (Elt F) → (⟨S8192, .i32⟩ : BufTy).Contents (Elt F)),
    StableHlo.binary main_arg13 main_v144 main_v145 (addi : (⟨S8192, .i32⟩ : BufTy).Contents (Elt F) → (⟨S8192, .i32⟩ : BufTy).Contents (Elt F) → (⟨S8192, .i32⟩ : BufTy).Contents (Elt F)),
    StableHlo.ternary main_v143 main_v145 main_arg13 main_v146 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v146 main_v147 (broadcastInDim S8192x1 ![0] bcast_S8192_S8192x1_0 : (⟨S8192, .i32⟩ : BufTy).Contents (Elt F) → (⟨S8192x1, .i32⟩ : BufTy).Contents (Elt F)),
    StableHlo.binary main_v134 main_v147 main_v148 ((fun x i => Host.gather gather_S50000x64_S8192x1_S8192x64_1_0_n_n_0_1_164 x i) : (⟨S50000x64, .f32⟩ : BufTy).Contents (Elt F) → (⟨S8192x1, .i32⟩ : BufTy).Contents (Elt F) → (⟨S8192x64, .f32⟩ : BufTy).Contents (Elt F)),
    StableHlo.nullary main_c_19 (constantI S_ 32 0#32),
    StableHlo.unary main_c_19 main_v149 (broadcastInDim S8192 ![] bcast_S_S8192 : (⟨S_, .i32⟩ : BufTy).Contents (Elt F) → (⟨S8192, .i32⟩ : BufTy).Contents (Elt F)),
    StableHlo.binary main_arg12 main_v149 main_v150 (cmpi .slt : (⟨S8192, .i32⟩ : BufTy).Contents (Elt F) → (⟨S8192, .i32⟩ : BufTy).Contents (Elt F) → (⟨S8192, .i1⟩ : BufTy).Contents (Elt F)),
    StableHlo.nullary main_c_20 (constantI S_ 32 50000#32),
    StableHlo.unary main_c_20 main_v151 (broadcastInDim S8192 ![] bcast_S_S8192 : (⟨S_, .i32⟩ : BufTy).Contents (Elt F) → (⟨S8192, .i32⟩ : BufTy).Contents (Elt F)),
    StableHlo.binary main_arg12 main_v151 main_v152 (addi : (⟨S8192, .i32⟩ : BufTy).Contents (Elt F) → (⟨S8192, .i32⟩ : BufTy).Contents (Elt F) → (⟨S8192, .i32⟩ : BufTy).Contents (Elt F)),
    StableHlo.ternary main_v150 main_v152 main_arg12 main_v153 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v153 main_v154 (broadcastInDim S8192x1 ![0] bcast_S8192_S8192x1_0 : (⟨S8192, .i32⟩ : BufTy).Contents (Elt F) → (⟨S8192x1, .i32⟩ : BufTy).Contents (Elt F)),
    StableHlo.binary main_arg2 main_v154 main_v155 ((fun x i => Host.gather gather_S50000x64_S8192x1_S8192x64_1_0_n_n_0_1_164 x i) : (⟨S50000x64, .f32⟩ : BufTy).Contents (Elt F) → (⟨S8192x1, .i32⟩ : BufTy).Contents (Elt F) → (⟨S8192x64, .f32⟩ : BufTy).Contents (Elt F)),
    StableHlo.nullary main_c_21 (constantI S_ 32 0#32) ]

set_option maxRecDepth 8192 in
set_option maxHeartbeats 4000000 in
/-- Window 2 of @main is that straight line: the called functions' bodies unfolded at their calls and sequencing
    reassociated, both sides are one chain of host steps. -/
theorem main_part2_eq (c : Dev nD) : main_part2 (F := F) c = seq ops2 := by
  simp only [main_part2, fn_leaky_relu.body, fn_where.body, fn_norm.body, seq, bind_assoc, pure_bind] <;> rfl

set_option maxRecDepth 8192 in
/-- Every operation of window 2 touches TensorCore references only. -/
theorem ops2_sub : (ops2 : List (HloOp τ sig (Elt F))).Forall fun op => op.bufs ⊆ tcRefs τ sig :=
  ⟨binary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., unary_bufs_sub .., unary_bufs_sub .., unary_bufs_sub .., nary_bufs_sub .., nullary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub ..⟩

set_option maxRecDepth 8192 in
/-- Every operation of window 2 determines its results. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The host operations 211 … 240 of @main's 240, in order: the statements of its window 3, a called
    function's operations standing in its call's place over that call's buffers. -/
abbrev ops3 : List (HloOp τ sig (Elt F)) :=
  [ StableHlo.unary main_c_21 main_v156 (broadcastInDim S8192 ![] bcast_S_S8192 : (⟨S_, .i32⟩ : BufTy).Contents (Elt F) → (⟨S8192, .i32⟩ : BufTy).Contents (Elt F)),
    StableHlo.binary main_arg13 main_v156 main_v157 (cmpi .slt : (⟨S8192, .i32⟩ : BufTy).Contents (Elt F) → (⟨S8192, .i32⟩ : BufTy).Contents (Elt F) → (⟨S8192, .i1⟩ : BufTy).Contents (Elt F)),
    StableHlo.nullary main_c_22 (constantI S_ 32 50000#32),
    StableHlo.unary main_c_22 main_v158 (broadcastInDim S8192 ![] bcast_S_S8192 : (⟨S_, .i32⟩ : BufTy).Contents (Elt F) → (⟨S8192, .i32⟩ : BufTy).Contents (Elt F)),
    StableHlo.binary main_arg13 main_v158 main_v159 (addi : (⟨S8192, .i32⟩ : BufTy).Contents (Elt F) → (⟨S8192, .i32⟩ : BufTy).Contents (Elt F) → (⟨S8192, .i32⟩ : BufTy).Contents (Elt F)),
    StableHlo.ternary main_v157 main_v159 main_arg13 main_v160 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v160 main_v161 (broadcastInDim S8192x1 ![0] bcast_S8192_S8192x1_0 : (⟨S8192, .i32⟩ : BufTy).Contents (Elt F) → (⟨S8192x1, .i32⟩ : BufTy).Contents (Elt F)),
    StableHlo.binary main_arg3 main_v161 main_v162 ((fun x i => Host.gather gather_S50000x2048_S8192x1_S8192x2048_1_0_n_n_0_1_12048 x i) : (⟨S50000x2048, .f32⟩ : BufTy).Contents (Elt F) → (⟨S8192x1, .i32⟩ : BufTy).Contents (Elt F) → (⟨S8192x2048, .f32⟩ : BufTy).Contents (Elt F)),
    StableHlo.unary main_arg4 main_v163 ((transpose S2048x64 [1, 0] · transposes_S64x2048_S2048x64_1_0) : (⟨S64x2048, .f32⟩ : BufTy).Contents (Elt F) → (⟨S2048x64, .f32⟩ : BufTy).Contents (Elt F)),
    StableHlo.binary main_v162 main_v163 main_v164 ((fun l r => Host.dotGeneral dot_S8192x2048_S2048x64_S8192x64_1_0_0_1_n_n none l r) : (⟨S8192x2048, .f32⟩ : BufTy).Contents (Elt F) → (⟨S2048x64, .f32⟩ : BufTy).Contents (Elt F) → (⟨S8192x64, .f32⟩ : BufTy).Contents (Elt F)),
    StableHlo.unary main_arg5 main_v165 (broadcastInDim S1x64 ![1] bcast_S64_S1x64_1 : (⟨S64, .f32⟩ : BufTy).Contents (Elt F) → (⟨S1x64, .f32⟩ : BufTy).Contents (Elt F)),
    StableHlo.unary main_v165 main_v166 (broadcastInDim S8192x64 ![0, 1] bcast_S1x64_S8192x64_0_1 : (⟨S1x64, .f32⟩ : BufTy).Contents (Elt F) → (⟨S8192x64, .f32⟩ : BufTy).Contents (Elt F)),
    StableHlo.binary main_v164 main_v166 main_v167 (addf : (⟨S8192x64, .f32⟩ : BufTy).Contents (Elt F) → (⟨S8192x64, .f32⟩ : BufTy).Contents (Elt F) → (⟨S8192x64, .f32⟩ : BufTy).Contents (Elt F)),
    StableHlo.TRef.binary (.of main_v167) (.of main_v167) main_call6.v0 mulf,
    StableHlo.TRef.nullary main_call6.cst (constant S_ .f32 0x00000000#32),
    StableHlo.TRef.binary main_call6.v0 main_call6.cst main_call6.v1 (fun x v => Host.reduceAdd x v reducesTo_S8192x64_S8192_d1 h_S_),
    StableHlo.TRef.unary main_call6.v1 main_call6.v2 (broadcastInDim S8192x1 ![0] bcast_S8192_S8192x1_0),
    StableHlo.TRef.unary main_call6.v2 main_call6.v3 Host.sqrt,
    StableHlo.nullary main_cst_23 (constant S_ .f32 0x2B8CBCCC#32),
    StableHlo.unary main_cst_23 main_v169 (broadcastInDim S8192x1 ![] bcast_S_S8192x1 : (⟨S_, .f32⟩ : BufTy).Contents (Elt F) → (⟨S8192x1, .f32⟩ : BufTy).Contents (Elt F)),
    StableHlo.binary main_v168 main_v169 main_v170 (maximumf : (⟨S8192x1, .f32⟩ : BufTy).Contents (Elt F) → (⟨S8192x1, .f32⟩ : BufTy).Contents (Elt F) → (⟨S8192x1, .f32⟩ : BufTy).Contents (Elt F)),
    StableHlo.unary main_v170 main_v171 (broadcastInDim S8192x64 ![0, 1] bcast_S8192x1_S8192x64_0_1 : (⟨S8192x1, .f32⟩ : BufTy).Contents (Elt F) → (⟨S8192x64, .f32⟩ : BufTy).Contents (Elt F)),
    StableHlo.binary main_v167 main_v171 main_v172 (Host.divf : (⟨S8192x64, .f32⟩ : BufTy).Contents (Elt F) → (⟨S8192x64, .f32⟩ : BufTy).Contents (Elt F) → (⟨S8192x64, .f32⟩ : BufTy).Contents (Elt F)),
    StableHlo.binary main_v141 main_v148 main_v173 (mulf : (⟨S8192x64, .f32⟩ : BufTy).Contents (Elt F) → (⟨S8192x64, .f32⟩ : BufTy).Contents (Elt F) → (⟨S8192x64, .f32⟩ : BufTy).Contents (Elt F)),
    StableHlo.nullary main_cst_24 (constant S_ .f32 0x00000000#32),
    StableHlo.binary main_v173 main_cst_24 main_v174 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    StableHlo.binary main_v155 main_v172 main_v175 (mulf : (⟨S8192x64, .f32⟩ : BufTy).Contents (Elt F) → (⟨S8192x64, .f32⟩ : BufTy).Contents (Elt F) → (⟨S8192x64, .f32⟩ : BufTy).Contents (Elt F)),
    StableHlo.nullary main_cst_25 (constant S_ .f32 0x00000000#32),
    StableHlo.binary main_v175 main_cst_25 main_v176 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    StableHlo.binary main_v174 main_v176 main_v177 (addf : (⟨S8192, .f32⟩ : BufTy).Contents (Elt F) → (⟨S8192, .f32⟩ : BufTy).Contents (Elt F) → (⟨S8192, .f32⟩ : BufTy).Contents (Elt F)) ]

set_option maxRecDepth 8192 in
set_option maxHeartbeats 4000000 in
/-- Window 3 of @main is that straight line: the called functions' bodies unfolded at their calls and sequencing
    reassociated, both sides are one chain of host steps. -/
theorem main_part3_eq (c : Dev nD) : main_part3 (F := F) c = seq ops3 := by
  simp only [main_part3, fn_norm_0.body, seq, bind_assoc, pure_bind] <;> rfl

set_option maxRecDepth 8192 in
/-- Every operation of window 3 touches TensorCore references only. -/
theorem ops3_sub : (ops3 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., unary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., binary_bufs_sub .., nullary_bufs_sub .., binary_bufs_sub .., binary_bufs_sub ..⟩

set_option maxRecDepth 8192 in
/-- Every operation of window 3 determines its results. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main's 240 host operations, in order: its four windows one after the other. -/
abbrev ops : List (HloOp τ sig (Elt F)) := ops0 ++ (ops1 ++ (ops2 ++ ops3))

/-- @main is the straight line of its operations: each window is its own line, and lines in sequence are their
    concatenation run as one. -/
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h,
      List.forall_iff_forall_mem.mp ops2_sub op h, List.forall_iff_forall_mem.mp ops3_sub op h]

/-- Every operation determines its results. -/
theorem ops_fresh : ∀ op ∈ (ops : List (HloOp τ sig (Elt F))), op.fresh = ∅ := fun op h => by
  simp only [ops, List.mem_append] at h
  rcases h with h | h | h | h
  exacts [List.forall_iff_forall_mem.mp ops0_fresh op h, List.forall_iff_forall_mem.mp ops1_fresh op h,
    List.forall_iff_forall_mem.mp ops2_fresh op h, List.forall_iff_forall_mem.mp ops3_fresh op h]

/-- On every device, for any float values, from any memory with zero counters: every weakly fair execution of @main
    terminates, and every final state has each TensorCore buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefStages.lean ====
/-
  The reference's value as a composition of named stages, for any float instance.

  The reference concatenates the user and item embeddings into one node array, runs three layers — each a weighted neighbourhood
  sum (rows looked up at the edges' sources, scaled by the edge weights, accumulated at the edges' targets) followed by the dense
  NGCF transform, a leaky rectifier and a row normalisation —, averages the four embeddings, looks up the batch's rows and scores
  each (user, item) pair.  Each stage below is the printed operations of that step, in their order, as one function.
-/
import proofs.«174847_j28037546508681_1_alg».proof.Proof.Gen.ReferenceIdeal

noncomputable section

namespace Cert.ReferenceIdeal.Stage

open Idealize.ShloMosaic Cert.ReferenceIdeal Cert.ReferenceIdeal.Facts₀ Cert.ReferenceIdeal.Facts

variable {F : FTy → Type} [FloatOps F]

/-- Row `r` of the edge list `[2, E]` as a vector (`r = 0`: sources). -/
def edgeSrc (ei : IVec S2x2000000 32) : IVec S2000000 32 :=
  shapeCast S2000000 (extractStridedSlice S1x2000000 ![0, 0] ei slices_S2x2000000_S1x2000000_0_0) shapeCasts_S1x2000000_S2000000
/-- Row 1 of the edge list: targets. -/
def edgeDst (ei : IVec S2x2000000 32) : IVec S2000000 32 :=
  shapeCast S2000000 (extractStridedSlice S1x2000000 ![1, 0] ei slices_S2x2000000_S1x2000000_1_0) shapeCasts_S1x2000000_S2000000

/-- Users above items: the node array. -/
def nodes (gu gi : FVec F S50000x64 .f32) : FVec F S100000x64 .f32 :=
  concatenate S100000x64 0 [⟨S50000x64, gu⟩, ⟨S50000x64, gi⟩] concatenates_S50000x64_S50000x64_S100000x64_d0

/-- A negative node number counts from the end (the node count added), as array indexing normalises it. -/
def wrapNode (idx : IVec S2000000 32) : IVec S2000000 32 :=
  select (cmpi .slt idx (broadcastInDim S2000000 ![] bcast_S_S2000000 (constantI S_ 32 0#32)))
    (addi idx (broadcastInDim S2000000 ![] bcast_S_S2000000 (constantI S_ 32 100000#32))) idx

/-- The weighted neighbourhood sum: rows of `x` at the edges' sources, each scaled by its edge weight, accumulated at the
    edges' targets into zeros. -/
def aggR (x : FVec F S100000x64 .f32) (ew : FVec F S2000000 .f32) (src dst : IVec S2000000 32) : FVec F S100000x64 .f32 :=
  Host.scatterAdd scatter_S100000x64_S2000000x1_S2000000x64_1_0_0_1
    (broadcastInDim S100000x64 ![] bcast_S_S100000x64 (constant S_ .f32 0x00000000#32))
    (broadcastInDim S2000000x1 ![0] bcast_S2000000_S2000000x1_0 dst)
    (mulf (Host.gather gather_S100000x64_S2000000x1_S2000000x64_1_0_n_n_0_1_164 x
            (broadcastInDim S2000000x1 ![0] bcast_S2000000_S2000000x1_0 (wrapNode src)))
          (broadcastInDim S2000000x64 ![0, 1] bcast_S2000000x1_S2000000x64_0_1
            (broadcastInDim S2000000x1 ![0] bcast_S2000000_S2000000x1_0 ew)))

/-- Layer 0's slab of a stacked `[3, 64, 64]` weight array. -/
def slabW0 (w : FVec F S3x64x64 .f32) : FVec F S64x64 .f32 :=
  shapeCast S64x64 (extractStridedSlice S1x64x64 ![0, 0, 0] w slices_S3x64x64_S1x64x64_0_0_0) shapeCasts_S1x64x64_S64x64
/-- Layer 1's slab. -/
def slabW1 (w : FVec F S3x64x64 .f32) : FVec F S64x64 .f32 :=
  shapeCast S64x64 (extractStridedSlice S1x64x64 ![1, 0, 0] w slices_S3x64x64_S1x64x64_1_0_0) shapeCasts_S1x64x64_S64x64
/-- Layer 2's slab. -/
def slabW2 (w : FVec F S3x64x64 .f32) : FVec F S64x64 .f32 :=
  shapeCast S64x64 (extractStridedSlice S1x64x64 ![2, 0, 0] w slices_S3x64x64_S1x64x64_2_0_0) shapeCasts_S1x64x64_S64x64
/-- Layer 0's row of a stacked `[3, 64]` bias array. -/
def slabB0 (b : FVec F S3x64 .f32) : FVec F S64 .f32 :=
  shapeCast S64 (extractStridedSlice S1x64 ![0, 0] b slices_S3x64_S1x64_0_0) shapeCasts_S1x64_S64
/-- Layer 1's row. -/
def slabB1 (b : FVec F S3x64 .f32) : FVec F S64 .f32 :=
  shapeCast S64 (extractStridedSlice S1x64 ![1, 0] b slices_S3x64_S1x64_1_0) shapeCasts_S1x64_S64
/-- Layer 2's row. -/
def slabB2 (b : FVec F S3x64 .f32) : FVec F S64 .f32 :=
  shapeCast S64 (extractStridedSlice S1x64 ![2, 0] b slices_S3x64_S1x64_2_0) shapeCasts_S1x64_S64

/-- A bias vector repeated over the nodes. -/
def biasRows (b : FVec F S64 .f32) : FVec F S100000x64 .f32 :=
  broadcastInDim S100000x64 ![0, 1] bcast_S1x64_S100000x64_0_1 (broadcastInDim S1x64 ![1] bcast_S64_S1x64_1 b)

/-- The dense transform before the rectifier: `(x + a)·w₁ᵀ + b₁ + (x ∘ a)·w₂ᵀ + b₂`, summed in that order. -/
def preR (x a : FVec F S100000x64 .f32) (w1 : FVec F S64x64 .f32) (b1 : FVec F S64 .f32) (w2 : FVec F S64x64 .f32)
    (b2 : FVec F S64 .f32) : FVec F S100000x64 .f32 :=
  addf (addf (addf (Host.dotGeneral dot_S100000x64_S64x64_S100000x64_1_0_0_1_n_n none (addf x a)
                      (transpose S64x64 [1, 0] w1 transposes_S64x64_S64x64_1_0))
                   (biasRows b1))
             (Host.dotGeneral dot_S100000x64_S64x64_S100000x64_1_0_0_1_n_n none (mulf x a)
                (transpose S64x64 [1, 0] w2 transposes_S64x64_S64x64_1_0)))
       (biasRows b2)

/-- The leaky rectifier with its slope given as a scalar array. -/
def lreluR (h : FVec F S100000x64 .f32) (slope : FVec F S_ .f32) : FVec F S100000x64 .f32 :=
  select (cmpf .oge h (broadcastInDim S100000x64 ![] bcast_S_S100000x64 (constant S_ .f32 0x00000000#32))) h
    (mulf (broadcastInDim S100000x64 ![] bcast_S_S100000x64 (id slope)) h)

/-- Each node row's Euclidean norm, as a column. -/
def normR (h : FVec F S100000x64 .f32) : FVec F S100000x1 .f32 :=
  Host.sqrt (broadcastInDim S100000x1 ![0] bcast_S100000_S100000x1_0
    (Host.reduceAdd (mulf h h) (constant S_ .f32 0x00000000#32) reducesTo_S100000x64_S100000_d1 h_S_))

/-- Each node row divided by the larger of its norm and the floor. -/
def unitR (h : FVec F S100000x64 .f32) : FVec F S100000x64 .f32 :=
  Host.divf h (broadcastInDim S100000x64 ![0, 1] bcast_S100000x1_S100000x64_0_1
    (maximumf (normR h) (broadcastInDim S100000x1 ![] bcast_S_S100000x1 (constant S_ .f32 0x2B8CBCCC#32))))

/-- One layer: dense transform, rectifier of slope 0.2, row normalisation. -/
def layerR (x a : FVec F S100000x64 .f32) (w1 : FVec F S64x64 .f32) (b1 : FVec F S64 .f32) (w2 : FVec F S64x64 .f32)
    (b2 : FVec F S64 .f32) : FVec F S100000x64 .f32 :=
  unitR (lreluR (preR x a w1 b1 w2 b2) (constant S_ .f32 0x3E4CCCCD#32))

/-- A node array as one slab of a stack along a new middle axis. -/
def asSlab (e : FVec F S100000x64 .f32) : FVec F S100000x1x64 .f32 :=
  broadcastInDim S100000x1x64 ![0, 2] bcast_S100000x64_S100000x1x64_0_2 e

/-- The mean of the four embeddings: stacked, summed over the stacking axis from zero, divided by 4. -/
def meanR (e0 e1 e2 e3 : FVec F S100000x64 .f32) : FVec F S100000x64 .f32 :=
  Host.divf
    (Host.reduceAdd
      (concatenate S100000x4x64 1 [⟨S100000x1x64, asSlab e0⟩, ⟨S100000x1x64, asSlab e1⟩, ⟨S100000x1x64, asSlab e2⟩, ⟨S100000x1x64, asSlab e3⟩]
        concatenates_S100000x1x64_S100000x1x64_S100000x1x64_S100000x1x64_S100000x4x64_d1)
      (constant S_ .f32 0x00000000#32) reducesTo_S100000x4x64_S100000x64_d1 h_S_)
    (broadcastInDim S100000x64 ![] bcast_S_S100000x64 (constant S_ .f32 0x40800000#32))

/-- The users' half of the node array. -/
def userHalf (e : FVec F S100000x64 .f32) : FVec F S50000x64 .f32 :=
  extractStridedSlice S50000x64 ![0, 0] e slices_S100000x64_S50000x64_0_0
/-- The items' half. -/
def itemHalf (e : FVec F S100000x64 .f32) : FVec F S50000x64 .f32 :=
  extractStridedSlice S50000x64 ![50000, 0] e slices_S100000x64_S50000x64_50000_0

/-- A negative batch index counts from the end of a 50000-row table. -/
def wrapBatch (idx : IVec S8192 32) : IVec S8192 32 :=
  select (cmpi .slt idx (broadcastInDim S8192 ![] bcast_S_S8192 (constantI S_ 32 0#32)))
    (addi idx (broadcastInDim S8192 ![] bcast_S_S8192 (constantI S_ 32 50000#32))) idx

/-- The batch's rows of a `[50000, 64]` table. -/
def take64 (x : FVec F S50000x64 .f32) (idx : IVec S8192 32) : FVec F S8192x64 .f32 :=
  Host.gather gather_S50000x64_S8192x1_S8192x64_1_0_n_n_0_1_164 x
    (broadcastInDim S8192x1 ![0] bcast_S8192_S8192x1_0 (wrapBatch idx))
/-- The batch's rows of the `[50000, 2048]` feature table. -/
def take2048 (x : FVec F S50000x2048 .f32) (idx : IVec S8192 32) : FVec F S8192x2048 .f32 :=
  Host.gather gather_S50000x2048_S8192x1_S8192x2048_1_0_n_n_0_1_12048 x
    (broadcastInDim S8192x1 ![0] bcast_S8192_S8192x1_0 (wrapBatch idx))

/-- The batch's projected feature rows before normalisation: `f · pwᵀ + pb`. -/
def projR (f : FVec F S8192x2048 .f32) (pw : FVec F S64x2048 .f32) (pb : FVec F S64 .f32) : FVec F S8192x64 .f32 :=
  addf (Host.dotGeneral dot_S8192x2048_S2048x64_S8192x64_1_0_0_1_n_n none f
          (transpose S2048x64 [1, 0] pw transposes_S64x2048_S2048x64_1_0))
       (broadcastInDim S8192x64 ![0, 1] bcast_S1x64_S8192x64_0_1 (broadcastInDim S1x64 ![1] bcast_S64_S1x64_1 pb))

/-- Each batch row divided by the larger of its norm and the floor. -/
def unitB (h : FVec F S8192x64 .f32) : FVec F S8192x64 .f32 :=
  Host.divf h (broadcastInDim S8192x64 ![0, 1] bcast_S8192x1_S8192x64_0_1
    (maximumf
      (Host.sqrt (broadcastInDim S8192x1 ![0] bcast_S8192_S8192x1_0
        (Host.reduceAdd (mulf h h) (constant S_ .f32 0x00000000#32) reducesTo_S8192x64_S8192_d1 h_S_)))
      (broadcastInDim S8192x1 ![] bcast_S_S8192x1 (constant S_ .f32 0x2B8CBCCC#32))))

/-- Row sums of a batch array, from zero. -/
def rowSumB (h : FVec F S8192x64 .f32) : FVec F S8192 .f32 :=
  Host.reduceAdd h (constant S_ .f32 0x00000000#32) reducesTo_S8192x64_S8192_d1 h_S_

/-- The batch scores: `Σ γᵤ·γᵢ + Σ θᵤ·p` with `p` the normalised projection. -/
def batchR (f : FVec F S8192x2048 .f32) (pw : FVec F S64x2048 .f32) (pb : FVec F S64 .f32)
    (gu gi tu : FVec F S8192x64 .f32) : FVec F S8192 .f32 :=
  addf (rowSumB (mulf gu gi)) (rowSumB (mulf tu (unitB (projR f pw pb))))

/-- The reference's result as a function of its fourteen arguments, in their order. -/
def refOut (Gu Gi Tu : FVec F S50000x64 .f32) (Fe : FVec F S50000x2048 .f32) (pw : FVec F S64x2048 .f32) (pb : FVec F S64 .f32)
    (W1 : FVec F S3x64x64 .f32) (b1 : FVec F S3x64 .f32) (W2 : FVec F S3x64x64 .f32) (b2 : FVec F S3x64 .f32)
    (ew : FVec F S2000000 .f32) (ei : IVec S2x2000000 32) (users items : IVec S8192 32) : FVec F S8192 .f32 :=
  let x0 := nodes Gu Gi
  let h1 := layerR x0 (aggR x0 ew (edgeSrc ei) (edgeDst ei)) (slabW0 W1) (slabB0 b1) (slabW0 W2) (slabB0 b2)
  let h2 := layerR h1 (aggR h1 ew (edgeSrc ei) (edgeDst ei)) (slabW1 W1) (slabB1 b1) (slabW1 W2) (slabB1 b2)
  let h3 := layerR h2 (aggR h2 ew (edgeSrc ei) (edgeDst ei)) (slabW2 W1) (slabB2 b1) (slabW2 W2) (slabB2 b2)
  let e := meanR x0 h1 h2 h3
  batchR (take2048 Fe items) pw pb (take64 (userHalf e) users) (take64 (itemHalf e) items) (take64 Tu users)

end Cert.ReferenceIdeal.Stage

end
-- ==== Proof.RefRead.lean ====
/-
  The reference program's fold read at its result and at its arguments.  The 240 operations are cut at the places where the
  computation hands one array on to the next step: the edge rows and the node array; each of the three layers; the mean of the
  four embeddings and its two halves; the batch scores.  Each piece, from ANY contents, leaves its result buffer at the
  matching stage function of the buffers it reads, and leaves every buffer it does not write alone; chained, the result
  buffer ends at `Stage.refOut` of the fourteen arguments' launch contents and every argument ends unchanged.
-/
import proofs.«174847_j28037546508681_1_alg».proof.Proof.RefOps
import proofs.«174847_j28037546508681_1_alg».proof.Proof.RefStages

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- The contents after two lines run one after the other: the second line's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The operations 1 … 5 of `ops`. -/
abbrev segA : List (HloOp τ sig (Elt F)) :=
  [ StableHlo.unary main_arg11 main_v0 ((extractStridedSlice S1x2000000 ![0, 0] · slices_S2x2000000_S1x2000000_0_0) : (⟨S2x2000000, .i32⟩ : BufTy).Contents (Elt F) → (⟨S1x2000000, .i32⟩ : BufTy).Contents (Elt F)),
    StableHlo.reshape main_v0 main_v1 rfl shapeCasts_S1x2000000_S2000000,
    StableHlo.unary main_arg11 main_v2 ((extractStridedSlice S1x2000000 ![1, 0] · slices_S2x2000000_S1x2000000_1_0) : (⟨S2x2000000, .i32⟩ : BufTy).Contents (Elt F) → (⟨S1x2000000, .i32⟩ : BufTy).Contents (Elt F)),
    StableHlo.reshape main_v2 main_v3 rfl shapeCasts_S1x2000000_S2000000,
    StableHlo.binary main_arg0 main_arg1 main_v4 ((fun a b => concatenate S100000x64 0 [⟨S50000x64, a⟩, ⟨S50000x64, b⟩] concatenates_S50000x64_S50000x64_S100000x64_d0) : (⟨S50000x64, .f32⟩ : BufTy).Contents (Elt F) → (⟨S50000x64, .f32⟩ : BufTy).Contents (Elt F) → (⟨S100000x64, .f32⟩ : BufTy).Contents (Elt F)) ]

/-- The buffers those operations write. -/
abbrev segA_W : List (Ref sig .tc) := [main_v0, main_v1, main_v2, main_v3, main_v4]

set_option maxRecDepth 8192 in
theorem segA_writes : (segA : List (HloOp τ sig (Elt F))).Forall fun op =>
    op.writes ⊆ (segA_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer those operations do not write keeps its contents through them. -/
theorem keepA (W : Valuation τ sig (Elt F)) {r : Ref sig .tc} (h : r ∉ segA_W) :
    after segA W (no_index (Proc.devRef .tc r)) = W (Proc.devRef .tc r) :=
  after_of_writes_sub segA W segA_writes h

/-- The operations 6 … 60 of `ops`. -/
abbrev segL0 : List (HloOp τ sig (Elt F)) :=
  [ StableHlo.nullary main_c (constantI S_ 32 0#32),
    StableHlo.unary main_c main_v5 (broadcastInDim S2000000 ![] bcast_S_S2000000 : (⟨S_, .i32⟩ : BufTy).Contents (Elt F) → (⟨S2000000, .i32⟩ : BufTy).Contents (Elt F)),
    StableHlo.binary main_v1 main_v5 main_v6 (cmpi .slt : (⟨S2000000, .i32⟩ : BufTy).Contents (Elt F) → (⟨S2000000, .i32⟩ : BufTy).Contents (Elt F) → (⟨S2000000, .i1⟩ : BufTy).Contents (Elt F)),
    StableHlo.nullary main_c_0 (constantI S_ 32 100000#32),
    StableHlo.unary main_c_0 main_v7 (broadcastInDim S2000000 ![] bcast_S_S2000000 : (⟨S_, .i32⟩ : BufTy).Contents (Elt F) → (⟨S2000000, .i32⟩ : BufTy).Contents (Elt F)),
    StableHlo.binary main_v1 main_v7 main_v8 (addi : (⟨S2000000, .i32⟩ : BufTy).Contents (Elt F) → (⟨S2000000, .i32⟩ : BufTy).Contents (Elt F) → (⟨S2000000, .i32⟩ : BufTy).Contents (Elt F)),
    StableHlo.ternary main_v6 main_v8 main_v1 main_v9 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v9 main_v10 (broadcastInDim S2000000x1 ![0] bcast_S2000000_S2000000x1_0 : (⟨S2000000, .i32⟩ : BufTy).Contents (Elt F) → (⟨S2000000x1, .i32⟩ : BufTy).Contents (Elt F)),
    StableHlo.binary main_v4 main_v10 main_v11 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    StableHlo.unary main_arg10 main_v12 (broadcastInDim S2000000x1 ![0] bcast_S2000000_S2000000x1_0 : (⟨S2000000, .f32⟩ : BufTy).Contents (Elt F) → (⟨S2000000x1, .f32⟩ : BufTy).Contents (Elt F)),
    StableHlo.unary main_v12 main_v13 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v11 main_v13 main_v14 (mulf : (⟨S2000000x64, .f32⟩ : BufTy).Contents (Elt F) → (⟨S2000000x64, .f32⟩ : BufTy).Contents (Elt F) → (⟨S2000000x64, .f32⟩ : BufTy).Contents (Elt F)),
    StableHlo.nullary main_cst (constant S_ .f32 0x00000000#32),
    StableHlo.unary main_cst main_v15 (broadcastInDim S100000x64 ![] bcast_S_S100000x64 : (⟨S_, .f32⟩ : BufTy).Contents (Elt F) → (⟨S100000x64, .f32⟩ : BufTy).Contents (Elt F)),
    StableHlo.unary main_v3 main_v16 (broadcastInDim S2000000x1 ![0] bcast_S2000000_S2000000x1_0 : (⟨S2000000, .i32⟩ : BufTy).Contents (Elt F) → (⟨S2000000x1, .i32⟩ : BufTy).Contents (Elt F)),
    StableHlo.ternary main_v15 main_v16 main_v14 main_v17 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    StableHlo.binary main_v4 main_v17 main_v18 (addf : (⟨S100000x64, .f32⟩ : BufTy).Contents (Elt F) → (⟨S100000x64, .f32⟩ : BufTy).Contents (Elt F) → (⟨S100000x64, .f32⟩ : BufTy).Contents (Elt F)),
    StableHlo.unary main_arg6 main_v19 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v19 main_v20 rfl shapeCasts_S1x64x64_S64x64,
    StableHlo.unary main_v20 main_v21 ((transpose S64x64 [1, 0] · transposes_S64x64_S64x64_1_0) : (⟨S64x64, .f32⟩ : BufTy).Contents (Elt F) → (⟨S64x64, .f32⟩ : BufTy).Contents (Elt F)),
    StableHlo.binary main_v18 main_v21 main_v22 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg7 main_v23 ((extractStridedSlice S1x64 ![0, 0] · slices_S3x64_S1x64_0_0) : (⟨S3x64, .f32⟩ : BufTy).Contents (Elt F) → (⟨S1x64, .f32⟩ : BufTy).Contents (Elt F)),
    StableHlo.reshape main_v23 main_v24 rfl shapeCasts_S1x64_S64,
    StableHlo.unary main_v24 main_v25 (broadcastInDim S1x64 ![1] bcast_S64_S1x64_1 : (⟨S64, .f32⟩ : BufTy).Contents (Elt F) → (⟨S1x64, .f32⟩ : BufTy).Contents (Elt F)),
    StableHlo.unary main_v25 main_v26 (broadcastInDim S100000x64 ![0, 1] bcast_S1x64_S100000x64_0_1 : (⟨S1x64, .f32⟩ : BufTy).Contents (Elt F) → (⟨S100000x64, .f32⟩ : BufTy).Contents (Elt F)),
    StableHlo.binary main_v22 main_v26 main_v27 (addf : (⟨S100000x64, .f32⟩ : BufTy).Contents (Elt F) → (⟨S100000x64, .f32⟩ : BufTy).Contents (Elt F) → (⟨S100000x64, .f32⟩ : BufTy).Contents (Elt F)),
    StableHlo.binary main_v4 main_v17 main_v28 (mulf : (⟨S100000x64, .f32⟩ : BufTy).Contents (Elt F) → (⟨S100000x64, .f32⟩ : BufTy).Contents (Elt F) → (⟨S100000x64, .f32⟩ : BufTy).Contents (Elt F)),
    StableHlo.unary main_arg8 main_v29 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v29 main_v30 rfl shapeCasts_S1x64x64_S64x64,
    StableHlo.unary main_v30 main_v31 ((transpose S64x64 [1, 0] · transposes_S64x64_S64x64_1_0) : (⟨S64x64, .f32⟩ : BufTy).Contents (Elt F) → (⟨S64x64, .f32⟩ : BufTy).Contents (Elt F)),
    StableHlo.binary main_v28 main_v31 main_v32 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v27 main_v32 main_v33 (addf : (⟨S100000x64, .f32⟩ : BufTy).Contents (Elt F) → (⟨S100000x64, .f32⟩ : BufTy).Contents (Elt F) → (⟨S100000x64, .f32⟩ : BufTy).Contents (Elt F)),
    StableHlo.unary main_arg9 main_v34 ((extractStridedSlice S1x64 ![0, 0] · slices_S3x64_S1x64_0_0) : (⟨S3x64, .f32⟩ : BufTy).Contents (Elt F) → (⟨S1x64, .f32⟩ : BufTy).Contents (Elt F)),
    StableHlo.reshape main_v34 main_v35 rfl shapeCasts_S1x64_S64,
    StableHlo.unary main_v35 main_v36 (broadcastInDim S1x64 ![1] bcast_S64_S1x64_1 : (⟨S64, .f32⟩ : BufTy).Contents (Elt F) → (⟨S1x64, .f32⟩ : BufTy).Contents (Elt F)),
    StableHlo.unary main_v36 main_v37 (broadcastInDim S100000x64 ![0, 1] bcast_S1x64_S100000x64_0_1 : (⟨S1x64, .f32⟩ : BufTy).Contents (Elt F) → (⟨S100000x64, .f32⟩ : BufTy).Contents (Elt F)),
    StableHlo.binary main_v33 main_v37 main_v38 (addf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x3E4CCCCD#32),
    StableHlo.TRef.nullary main_call0.cst (constant S_ .f32 0x00000000#32),
    StableHlo.TRef.unary main_call0.cst main_call0.v0 (broadcastInDim S100000x64 ![] bcast_S_S100000x64),
    StableHlo.TRef.binary (.of main_v38) main_call0.v0 main_call0.v1 (cmpf .oge),
    StableHlo.TRef.unary (.of main_cst_1) main_call0.v2 id,
    StableHlo.TRef.unary main_call0.v2 main_call0.v3 (broadcastInDim S100000x64 ![] bcast_S_S100000x64),
    StableHlo.TRef.binary main_call0.v3 (.of main_v38) main_call0.v4 mulf,
    StableHlo.TRef.ternary main_call0.v1 (.of main_v38) main_call0.v4 main_call0.call0.v0 select,
    StableHlo.TRef.binary (.of main_v39) (.of main_v39) main_call1.v0 mulf,
    StableHlo.TRef.nullary main_call1.cst (constant S_ .f32 0x00000000#32),
    StableHlo.TRef.binary main_call1.v0 main_call1.cst main_call1.v1 (fun x v => Host.reduceAdd x v reducesTo_S100000x64_S100000_d1 h_S_),
    StableHlo.TRef.unary main_call1.v1 main_call1.v2 (broadcastInDim S100000x1 ![0] bcast_S100000_S100000x1_0),
    StableHlo.TRef.unary main_call1.v2 main_call1.v3 Host.sqrt,
    StableHlo.nullary main_cst_2 (constant S_ .f32 0x2B8CBCCC#32),
    StableHlo.unary main_cst_2 main_v41 (broadcastInDim S100000x1 ![] bcast_S_S100000x1 : (⟨S_, .f32⟩ : BufTy).Contents (Elt F) → (⟨S100000x1, .f32⟩ : BufTy).Contents (Elt F)),
    StableHlo.binary main_v40 main_v41 main_v42 (maximumf : (⟨S100000x1, .f32⟩ : BufTy).Contents (Elt F) → (⟨S100000x1, .f32⟩ : BufTy).Contents (Elt F) → (⟨S100000x1, .f32⟩ : BufTy).Contents (Elt F)),
    StableHlo.unary main_v42 main_v43 (broadcastInDim S100000x64 ![0, 1] bcast_S100000x1_S100000x64_0_1 : (⟨S100000x1, .f32⟩ : BufTy).Contents (Elt F) → (⟨S100000x64, .f32⟩ : BufTy).Contents (Elt F)),
    StableHlo.binary main_v39 main_v43 main_v44 (Host.divf : (⟨S100000x64, .f32⟩ : BufTy).Contents (Elt F) → (⟨S100000x64, .f32⟩ : BufTy).Contents (Elt F) → (⟨S100000x64, .f32⟩ : BufTy).Contents (Elt F)) ]

/-- The buffers those operations write. -/
abbrev segL0_W : List (Ref sig .tc) := [main_c, main_v5, main_v6, main_c_0, main_v7, main_v8, main_v9, main_v10, main_v11, main_v12, main_v13, main_v14, main_cst, main_v15, main_v16, main_v17, main_v18, main_v19, main_v20, main_v21, main_v22, main_v23, main_v24, main_v25, main_v26, main_v27, main_v28, main_v29, main_v30, main_v31, main_v32, main_v33, main_v34, main_v35, main_v36, main_v37, main_v38, main_cst_1, main_call0_cst, main_call0_v0, main_call0_v1, main_call0_v2, main_call0_v3, main_call0_v4, main_v39, main_call1_v0, main_call1_cst, main_call1_v1, main_call1_v2, main_v40, main_cst_2, main_v41, main_v42, main_v43, main_v44]

set_option maxRecDepth 8192 in
theorem segL0_writes : (segL0 : List (HloOp τ sig (Elt F))).Forall fun op =>
    op.writes ⊆ (segL0_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer those operations do not write keeps its contents through them. -/
theorem keepL0 (W : Valuation τ sig (Elt F)) {r : Ref sig .tc} (h : r ∉ segL0_W) :
    after segL0 W (no_index (Proc.devRef .tc r)) = W (Proc.devRef .tc r) :=
  after_of_writes_sub segL0 W segL0_writes h

/-- The operations 61 … 115 of `ops`. -/
abbrev segL1 : List (HloOp τ sig (Elt F)) :=
  [ StableHlo.nullary main_c_3 (constantI S_ 32 0#32),
    StableHlo.unary main_c_3 main_v45 (broadcastInDim S2000000 ![] bcast_S_S2000000 : (⟨S_, .i32⟩ : BufTy).Contents (Elt F) → (⟨S2000000, .i32⟩ : BufTy).Contents (Elt F)),
    StableHlo.binary main_v1 main_v45 main_v46 (cmpi .slt : (⟨S2000000, .i32⟩ : BufTy).Contents (Elt F) → (⟨S2000000, .i32⟩ : BufTy).Contents (Elt F) → (⟨S2000000, .i1⟩ : BufTy).Contents (Elt F)),
    StableHlo.nullary main_c_4 (constantI S_ 32 100000#32),
    StableHlo.unary main_c_4 main_v47 (broadcastInDim S2000000 ![] bcast_S_S2000000 : (⟨S_, .i32⟩ : BufTy).Contents (Elt F) → (⟨S2000000, .i32⟩ : BufTy).Contents (Elt F)),
    StableHlo.binary main_v1 main_v47 main_v48 (addi : (⟨S2000000, .i32⟩ : BufTy).Contents (Elt F) → (⟨S2000000, .i32⟩ : BufTy).Contents (Elt F) → (⟨S2000000, .i32⟩ : BufTy).Contents (Elt F)),
    StableHlo.ternary main_v46 main_v48 main_v1 main_v49 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v49 main_v50 (broadcastInDim S2000000x1 ![0] bcast_S2000000_S2000000x1_0 : (⟨S2000000, .i32⟩ : BufTy).Contents (Elt F) → (⟨S2000000x1, .i32⟩ : BufTy).Contents (Elt F)),
    StableHlo.binary main_v44 main_v50 main_v51 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    StableHlo.unary main_arg10 main_v52 (broadcastInDim S2000000x1 ![0] bcast_S2000000_S2000000x1_0 : (⟨S2000000, .f32⟩ : BufTy).Contents (Elt F) → (⟨S2000000x1, .f32⟩ : BufTy).Contents (Elt F)),
    StableHlo.unary main_v52 main_v53 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v51 main_v53 main_v54 (mulf : (⟨S2000000x64, .f32⟩ : BufTy).Contents (Elt F) → (⟨S2000000x64, .f32⟩ : BufTy).Contents (Elt F) → (⟨S2000000x64, .f32⟩ : BufTy).Contents (Elt F)),
    StableHlo.nullary main_cst_5 (constant S_ .f32 0x00000000#32),
    StableHlo.unary main_cst_5 main_v55 (broadcastInDim S100000x64 ![] bcast_S_S100000x64 : (⟨S_, .f32⟩ : BufTy).Contents (Elt F) → (⟨S100000x64, .f32⟩ : BufTy).Contents (Elt F)),
    StableHlo.unary main_v3 main_v56 (broadcastInDim S2000000x1 ![0] bcast_S2000000_S2000000x1_0 : (⟨S2000000, .i32⟩ : BufTy).Contents (Elt F) → (⟨S2000000x1, .i32⟩ : BufTy).Contents (Elt F)),
    StableHlo.ternary main_v55 main_v56 main_v54 main_v57 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    StableHlo.binary main_v44 main_v57 main_v58 (addf : (⟨S100000x64, .f32⟩ : BufTy).Contents (Elt F) → (⟨S100000x64, .f32⟩ : BufTy).Contents (Elt F) → (⟨S100000x64, .f32⟩ : BufTy).Contents (Elt F)),
    StableHlo.unary main_arg6 main_v59 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v59 main_v60 rfl shapeCasts_S1x64x64_S64x64,
    StableHlo.unary main_v60 main_v61 ((transpose S64x64 [1, 0] · transposes_S64x64_S64x64_1_0) : (⟨S64x64, .f32⟩ : BufTy).Contents (Elt F) → (⟨S64x64, .f32⟩ : BufTy).Contents (Elt F)),
    StableHlo.binary main_v58 main_v61 main_v62 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg7 main_v63 ((extractStridedSlice S1x64 ![1, 0] · slices_S3x64_S1x64_1_0) : (⟨S3x64, .f32⟩ : BufTy).Contents (Elt F) → (⟨S1x64, .f32⟩ : BufTy).Contents (Elt F)),
    StableHlo.reshape main_v63 main_v64 rfl shapeCasts_S1x64_S64,
    StableHlo.unary main_v64 main_v65 (broadcastInDim S1x64 ![1] bcast_S64_S1x64_1 : (⟨S64, .f32⟩ : BufTy).Contents (Elt F) → (⟨S1x64, .f32⟩ : BufTy).Contents (Elt F)),
    StableHlo.unary main_v65 main_v66 (broadcastInDim S100000x64 ![0, 1] bcast_S1x64_S100000x64_0_1 : (⟨S1x64, .f32⟩ : BufTy).Contents (Elt F) → (⟨S100000x64, .f32⟩ : BufTy).Contents (Elt F)),
    StableHlo.binary main_v62 main_v66 main_v67 (addf : (⟨S100000x64, .f32⟩ : BufTy).Contents (Elt F) → (⟨S100000x64, .f32⟩ : BufTy).Contents (Elt F) → (⟨S100000x64, .f32⟩ : BufTy).Contents (Elt F)),
    StableHlo.binary main_v44 main_v57 main_v68 (mulf : (⟨S100000x64, .f32⟩ : BufTy).Contents (Elt F) → (⟨S100000x64, .f32⟩ : BufTy).Contents (Elt F) → (⟨S100000x64, .f32⟩ : BufTy).Contents (Elt F)),
    StableHlo.unary main_arg8 main_v69 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v69 main_v70 rfl shapeCasts_S1x64x64_S64x64,
    StableHlo.unary main_v70 main_v71 ((transpose S64x64 [1, 0] · transposes_S64x64_S64x64_1_0) : (⟨S64x64, .f32⟩ : BufTy).Contents (Elt F) → (⟨S64x64, .f32⟩ : BufTy).Contents (Elt F)),
    StableHlo.binary main_v68 main_v71 main_v72 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v67 main_v72 main_v73 (addf : (⟨S100000x64, .f32⟩ : BufTy).Contents (Elt F) → (⟨S100000x64, .f32⟩ : BufTy).Contents (Elt F) → (⟨S100000x64, .f32⟩ : BufTy).Contents (Elt F)),
    StableHlo.unary main_arg9 main_v74 ((extractStridedSlice S1x64 ![1, 0] · slices_S3x64_S1x64_1_0) : (⟨S3x64, .f32⟩ : BufTy).Contents (Elt F) → (⟨S1x64, .f32⟩ : BufTy).Contents (Elt F)),
    StableHlo.reshape main_v74 main_v75 rfl shapeCasts_S1x64_S64,
    StableHlo.unary main_v75 main_v76 (broadcastInDim S1x64 ![1] bcast_S64_S1x64_1 : (⟨S64, .f32⟩ : BufTy).Contents (Elt F) → (⟨S1x64, .f32⟩ : BufTy).Contents (Elt F)),
    StableHlo.unary main_v76 main_v77 (broadcastInDim S100000x64 ![0, 1] bcast_S1x64_S100000x64_0_1 : (⟨S1x64, .f32⟩ : BufTy).Contents (Elt F) → (⟨S100000x64, .f32⟩ : BufTy).Contents (Elt F)),
    StableHlo.binary main_v73 main_v77 main_v78 (addf : (⟨S100000x64, .f32⟩ : BufTy).Contents (Elt F) → (⟨S100000x64, .f32⟩ : BufTy).Contents (Elt F) → (⟨S100000x64, .f32⟩ : BufTy).Contents (Elt F)),
    StableHlo.nullary main_cst_6 (constant S_ .f32 0x3E4CCCCD#32),
    StableHlo.TRef.nullary main_call2.cst (constant S_ .f32 0x00000000#32),
    StableHlo.TRef.unary main_call2.cst main_call2.v0 (broadcastInDim S100000x64 ![] bcast_S_S100000x64),
    StableHlo.TRef.binary (.of main_v78) main_call2.v0 main_call2.v1 (cmpf .oge),
    StableHlo.TRef.unary (.of main_cst_6) main_call2.v2 id,
    StableHlo.TRef.unary main_call2.v2 main_call2.v3 (broadcastInDim S100000x64 ![] bcast_S_S100000x64),
    StableHlo.TRef.binary main_call2.v3 (.of main_v78) main_call2.v4 mulf,
    StableHlo.TRef.ternary main_call2.v1 (.of main_v78) main_call2.v4 main_call2.call0.v0 select,
    StableHlo.TRef.binary (.of main_v79) (.of main_v79) main_call3.v0 mulf,
    StableHlo.TRef.nullary main_call3.cst (constant S_ .f32 0x00000000#32),
    StableHlo.TRef.binary main_call3.v0 main_call3.cst main_call3.v1 (fun x v => Host.reduceAdd x v reducesTo_S100000x64_S100000_d1 h_S_),
    StableHlo.TRef.unary main_call3.v1 main_call3.v2 (broadcastInDim S100000x1 ![0] bcast_S100000_S100000x1_0),
    StableHlo.TRef.unary main_call3.v2 main_call3.v3 Host.sqrt,
    StableHlo.nullary main_cst_7 (constant S_ .f32 0x2B8CBCCC#32),
    StableHlo.unary main_cst_7 main_v81 (broadcastInDim S100000x1 ![] bcast_S_S100000x1 : (⟨S_, .f32⟩ : BufTy).Contents (Elt F) → (⟨S100000x1, .f32⟩ : BufTy).Contents (Elt F)),
    StableHlo.binary main_v80 main_v81 main_v82 (maximumf : (⟨S100000x1, .f32⟩ : BufTy).Contents (Elt F) → (⟨S100000x1, .f32⟩ : BufTy).Contents (Elt F) → (⟨S100000x1, .f32⟩ : BufTy).Contents (Elt F)),
    StableHlo.unary main_v82 main_v83 (broadcastInDim S100000x64 ![0, 1] bcast_S100000x1_S100000x64_0_1 : (⟨S100000x1, .f32⟩ : BufTy).Contents (Elt F) → (⟨S100000x64, .f32⟩ : BufTy).Contents (Elt F)),
    StableHlo.binary main_v79 main_v83 main_v84 (Host.divf : (⟨S100000x64, .f32⟩ : BufTy).Contents (Elt F) → (⟨S100000x64, .f32⟩ : BufTy).Contents (Elt F) → (⟨S100000x64, .f32⟩ : BufTy).Contents (Elt F)) ]

/-- The buffers those operations write. -/
abbrev segL1_W : List (Ref sig .tc) := [main_c_3, main_v45, main_v46, main_c_4, main_v47, main_v48, main_v49, main_v50, main_v51, main_v52, main_v53, main_v54, main_cst_5, main_v55, main_v56, main_v57, main_v58, main_v59, main_v60, main_v61, main_v62, main_v63, main_v64, main_v65, main_v66, main_v67, main_v68, main_v69, main_v70, main_v71, main_v72, main_v73, main_v74, main_v75, main_v76, main_v77, main_v78, main_cst_6, main_call2_cst, main_call2_v0, main_call2_v1, main_call2_v2, main_call2_v3, main_call2_v4, main_v79, main_call3_v0, main_call3_cst, main_call3_v1, main_call3_v2, main_v80, main_cst_7, main_v81, main_v82, main_v83, main_v84]

set_option maxRecDepth 8192 in
theorem segL1_writes : (segL1 : List (HloOp τ sig (Elt F))).Forall fun op =>
    op.writes ⊆ (segL1_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer those operations do not write keeps its contents through them. -/
theorem keepL1 (W : Valuation τ sig (Elt F)) {r : Ref sig .tc} (h : r ∉ segL1_W) :
    after segL1 W (no_index (Proc.devRef .tc r)) = W (Proc.devRef .tc r) :=
  after_of_writes_sub segL1 W segL1_writes h

/-- The operations 116 … 170 of `ops`. -/
abbrev segL2 : List (HloOp τ sig (Elt F)) :=
  [ StableHlo.nullary main_c_8 (constantI S_ 32 0#32),
    StableHlo.unary main_c_8 main_v85 (broadcastInDim S2000000 ![] bcast_S_S2000000 : (⟨S_, .i32⟩ : BufTy).Contents (Elt F) → (⟨S2000000, .i32⟩ : BufTy).Contents (Elt F)),
    StableHlo.binary main_v1 main_v85 main_v86 (cmpi .slt : (⟨S2000000, .i32⟩ : BufTy).Contents (Elt F) → (⟨S2000000, .i32⟩ : BufTy).Contents (Elt F) → (⟨S2000000, .i1⟩ : BufTy).Contents (Elt F)),
    StableHlo.nullary main_c_9 (constantI S_ 32 100000#32),
    StableHlo.unary main_c_9 main_v87 (broadcastInDim S2000000 ![] bcast_S_S2000000 : (⟨S_, .i32⟩ : BufTy).Contents (Elt F) → (⟨S2000000, .i32⟩ : BufTy).Contents (Elt F)),
    StableHlo.binary main_v1 main_v87 main_v88 (addi : (⟨S2000000, .i32⟩ : BufTy).Contents (Elt F) → (⟨S2000000, .i32⟩ : BufTy).Contents (Elt F) → (⟨S2000000, .i32⟩ : BufTy).Contents (Elt F)),
    StableHlo.ternary main_v86 main_v88 main_v1 main_v89 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v89 main_v90 (broadcastInDim S2000000x1 ![0] bcast_S2000000_S2000000x1_0 : (⟨S2000000, .i32⟩ : BufTy).Contents (Elt F) → (⟨S2000000x1, .i32⟩ : BufTy).Contents (Elt F)),
    StableHlo.binary main_v84 main_v90 main_v91 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    StableHlo.unary main_arg10 main_v92 (broadcastInDim S2000000x1 ![0] bcast_S2000000_S2000000x1_0 : (⟨S2000000, .f32⟩ : BufTy).Contents (Elt F) → (⟨S2000000x1, .f32⟩ : BufTy).Contents (Elt F)),
    StableHlo.unary main_v92 main_v93 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v91 main_v93 main_v94 (mulf : (⟨S2000000x64, .f32⟩ : BufTy).Contents (Elt F) → (⟨S2000000x64, .f32⟩ : BufTy).Contents (Elt F) → (⟨S2000000x64, .f32⟩ : BufTy).Contents (Elt F)),
    StableHlo.nullary main_cst_10 (constant S_ .f32 0x00000000#32),
    StableHlo.unary main_cst_10 main_v95 (broadcastInDim S100000x64 ![] bcast_S_S100000x64 : (⟨S_, .f32⟩ : BufTy).Contents (Elt F) → (⟨S100000x64, .f32⟩ : BufTy).Contents (Elt F)),
    StableHlo.unary main_v3 main_v96 (broadcastInDim S2000000x1 ![0] bcast_S2000000_S2000000x1_0 : (⟨S2000000, .i32⟩ : BufTy).Contents (Elt F) → (⟨S2000000x1, .i32⟩ : BufTy).Contents (Elt F)),
    StableHlo.ternary main_v95 main_v96 main_v94 main_v97 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    StableHlo.binary main_v84 main_v97 main_v98 (addf : (⟨S100000x64, .f32⟩ : BufTy).Contents (Elt F) → (⟨S100000x64, .f32⟩ : BufTy).Contents (Elt F) → (⟨S100000x64, .f32⟩ : BufTy).Contents (Elt F)),
    StableHlo.unary main_arg6 main_v99 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v99 main_v100 rfl shapeCasts_S1x64x64_S64x64,
    StableHlo.unary main_v100 main_v101 ((transpose S64x64 [1, 0] · transposes_S64x64_S64x64_1_0) : (⟨S64x64, .f32⟩ : BufTy).Contents (Elt F) → (⟨S64x64, .f32⟩ : BufTy).Contents (Elt F)),
    StableHlo.binary main_v98 main_v101 main_v102 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg7 main_v103 ((extractStridedSlice S1x64 ![2, 0] · slices_S3x64_S1x64_2_0) : (⟨S3x64, .f32⟩ : BufTy).Contents (Elt F) → (⟨S1x64, .f32⟩ : BufTy).Contents (Elt F)),
    StableHlo.reshape main_v103 main_v104 rfl shapeCasts_S1x64_S64,
    StableHlo.unary main_v104 main_v105 (broadcastInDim S1x64 ![1] bcast_S64_S1x64_1 : (⟨S64, .f32⟩ : BufTy).Contents (Elt F) → (⟨S1x64, .f32⟩ : BufTy).Contents (Elt F)),
    StableHlo.unary main_v105 main_v106 (broadcastInDim S100000x64 ![0, 1] bcast_S1x64_S100000x64_0_1 : (⟨S1x64, .f32⟩ : BufTy).Contents (Elt F) → (⟨S100000x64, .f32⟩ : BufTy).Contents (Elt F)),
    StableHlo.binary main_v102 main_v106 main_v107 (addf : (⟨S100000x64, .f32⟩ : BufTy).Contents (Elt F) → (⟨S100000x64, .f32⟩ : BufTy).Contents (Elt F) → (⟨S100000x64, .f32⟩ : BufTy).Contents (Elt F)),
    StableHlo.binary main_v84 main_v97 main_v108 (mulf : (⟨S100000x64, .f32⟩ : BufTy).Contents (Elt F) → (⟨S100000x64, .f32⟩ : BufTy).Contents (Elt F) → (⟨S100000x64, .f32⟩ : BufTy).Contents (Elt F)),
    StableHlo.unary main_arg8 main_v109 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v109 main_v110 rfl shapeCasts_S1x64x64_S64x64,
    StableHlo.unary main_v110 main_v111 ((transpose S64x64 [1, 0] · transposes_S64x64_S64x64_1_0) : (⟨S64x64, .f32⟩ : BufTy).Contents (Elt F) → (⟨S64x64, .f32⟩ : BufTy).Contents (Elt F)),
    StableHlo.binary main_v108 main_v111 main_v112 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v107 main_v112 main_v113 (addf : (⟨S100000x64, .f32⟩ : BufTy).Contents (Elt F) → (⟨S100000x64, .f32⟩ : BufTy).Contents (Elt F) → (⟨S100000x64, .f32⟩ : BufTy).Contents (Elt F)),
    StableHlo.unary main_arg9 main_v114 ((extractStridedSlice S1x64 ![2, 0] · slices_S3x64_S1x64_2_0) : (⟨S3x64, .f32⟩ : BufTy).Contents (Elt F) → (⟨S1x64, .f32⟩ : BufTy).Contents (Elt F)),
    StableHlo.reshape main_v114 main_v115 rfl shapeCasts_S1x64_S64,
    StableHlo.unary main_v115 main_v116 (broadcastInDim S1x64 ![1] bcast_S64_S1x64_1 : (⟨S64, .f32⟩ : BufTy).Contents (Elt F) → (⟨S1x64, .f32⟩ : BufTy).Contents (Elt F)),
    StableHlo.unary main_v116 main_v117 (broadcastInDim S100000x64 ![0, 1] bcast_S1x64_S100000x64_0_1 : (⟨S1x64, .f32⟩ : BufTy).Contents (Elt F) → (⟨S100000x64, .f32⟩ : BufTy).Contents (Elt F)),
    StableHlo.binary main_v113 main_v117 main_v118 (addf : (⟨S100000x64, .f32⟩ : BufTy).Contents (Elt F) → (⟨S100000x64, .f32⟩ : BufTy).Contents (Elt F) → (⟨S100000x64, .f32⟩ : BufTy).Contents (Elt F)),
    StableHlo.nullary main_cst_11 (constant S_ .f32 0x3E4CCCCD#32),
    StableHlo.TRef.nullary main_call4.cst (constant S_ .f32 0x00000000#32),
    StableHlo.TRef.unary main_call4.cst main_call4.v0 (broadcastInDim S100000x64 ![] bcast_S_S100000x64),
    StableHlo.TRef.binary (.of main_v118) main_call4.v0 main_call4.v1 (cmpf .oge),
    StableHlo.TRef.unary (.of main_cst_11) main_call4.v2 id,
    StableHlo.TRef.unary main_call4.v2 main_call4.v3 (broadcastInDim S100000x64 ![] bcast_S_S100000x64),
    StableHlo.TRef.binary main_call4.v3 (.of main_v118) main_call4.v4 mulf,
    StableHlo.TRef.ternary main_call4.v1 (.of main_v118) main_call4.v4 main_call4.call0.v0 select,
    StableHlo.TRef.binary (.of main_v119) (.of main_v119) main_call5.v0 mulf,
    StableHlo.TRef.nullary main_call5.cst (constant S_ .f32 0x00000000#32),
    StableHlo.TRef.binary main_call5.v0 main_call5.cst main_call5.v1 (fun x v => Host.reduceAdd x v reducesTo_S100000x64_S100000_d1 h_S_),
    StableHlo.TRef.unary main_call5.v1 main_call5.v2 (broadcastInDim S100000x1 ![0] bcast_S100000_S100000x1_0),
    StableHlo.TRef.unary main_call5.v2 main_call5.v3 Host.sqrt,
    StableHlo.nullary main_cst_12 (constant S_ .f32 0x2B8CBCCC#32),
    StableHlo.unary main_cst_12 main_v121 (broadcastInDim S100000x1 ![] bcast_S_S100000x1 : (⟨S_, .f32⟩ : BufTy).Contents (Elt F) → (⟨S100000x1, .f32⟩ : BufTy).Contents (Elt F)),
    StableHlo.binary main_v120 main_v121 main_v122 (maximumf : (⟨S100000x1, .f32⟩ : BufTy).Contents (Elt F) → (⟨S100000x1, .f32⟩ : BufTy).Contents (Elt F) → (⟨S100000x1, .f32⟩ : BufTy).Contents (Elt F)),
    StableHlo.unary main_v122 main_v123 (broadcastInDim S100000x64 ![0, 1] bcast_S100000x1_S100000x64_0_1 : (⟨S100000x1, .f32⟩ : BufTy).Contents (Elt F) → (⟨S100000x64, .f32⟩ : BufTy).Contents (Elt F)),
    StableHlo.binary main_v119 main_v123 main_v124 (Host.divf : (⟨S100000x64, .f32⟩ : BufTy).Contents (Elt F) → (⟨S100000x64, .f32⟩ : BufTy).Contents (Elt F) → (⟨S100000x64, .f32⟩ : BufTy).Contents (Elt F)) ]

/-- The buffers those operations write. -/
abbrev segL2_W : List (Ref sig .tc) := [main_c_8, main_v85, main_v86, main_c_9, main_v87, main_v88, main_v89, main_v90, main_v91, main_v92, main_v93, main_v94, main_cst_10, main_v95, main_v96, main_v97, main_v98, main_v99, main_v100, main_v101, main_v102, main_v103, main_v104, main_v105, main_v106, main_v107, main_v108, main_v109, main_v110, main_v111, main_v112, main_v113, main_v114, main_v115, main_v116, main_v117, main_v118, main_cst_11, main_call4_cst, main_call4_v0, main_call4_v1, main_call4_v2, main_call4_v3, main_call4_v4, main_v119, main_call5_v0, main_call5_cst, main_call5_v1, main_call5_v2, main_v120, main_cst_12, main_v121, main_v122, main_v123, main_v124]

set_option maxRecDepth 8192 in
theorem segL2_writes : (segL2 : List (HloOp τ sig (Elt F))).Forall fun op =>
    op.writes ⊆ (segL2_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer those operations do not write keeps its contents through them. -/
theorem keepL2 (W : Valuation τ sig (Elt F)) {r : Ref sig .tc} (h : r ∉ segL2_W) :
    after segL2 W (no_index (Proc.devRef .tc r)) = W (Proc.devRef .tc r) :=
  after_of_writes_sub segL2 W segL2_writes h

/-- The operations 171 … 182 of `ops`. -/
abbrev segM : List (HloOp τ sig (Elt F)) :=
  [ StableHlo.unary main_v4 main_v125 (broadcastInDim S100000x1x64 ![0, 2] bcast_S100000x64_S100000x1x64_0_2 : (⟨S100000x64, .f32⟩ : BufTy).Contents (Elt F) → (⟨S100000x1x64, .f32⟩ : BufTy).Contents (Elt F)),
    StableHlo.unary main_v44 main_v126 (broadcastInDim S100000x1x64 ![0, 2] bcast_S100000x64_S100000x1x64_0_2 : (⟨S100000x64, .f32⟩ : BufTy).Contents (Elt F) → (⟨S100000x1x64, .f32⟩ : BufTy).Contents (Elt F)),
    StableHlo.unary main_v84 main_v127 (broadcastInDim S100000x1x64 ![0, 2] bcast_S100000x64_S100000x1x64_0_2 : (⟨S100000x64, .f32⟩ : BufTy).Contents (Elt F) → (⟨S100000x1x64, .f32⟩ : BufTy).Contents (Elt F)),
    StableHlo.unary main_v124 main_v128 (broadcastInDim S100000x1x64 ![0, 2] bcast_S100000x64_S100000x1x64_0_2 : (⟨S100000x64, .f32⟩ : BufTy).Contents (Elt F) → (⟨S100000x1x64, .f32⟩ : BufTy).Contents (Elt F)),
    StableHlo.nary ![main_v125, main_v126, main_v127, main_v128] main_v129 (fun u => concatenate S100000x4x64 1 [⟨S100000x1x64, u 0⟩, ⟨S100000x1x64, u 1⟩, ⟨S100000x1x64, u 2⟩, ⟨S100000x1x64, u 3⟩] concatenates_S100000x1x64_S100000x1x64_S100000x1x64_S100000x1x64_S100000x4x64_d1),
    StableHlo.nullary main_cst_13 (constant S_ .f32 0x00000000#32),
    StableHlo.binary main_v129 main_cst_13 main_v130 ((fun x v => Host.reduceAdd x v reducesTo_S100000x4x64_S100000x64_d1 h_S_) : (⟨S100000x4x64, .f32⟩ : BufTy).Contents (Elt F) → (⟨S_, .f32⟩ : BufTy).Contents (Elt F) → (⟨S100000x64, .f32⟩ : BufTy).Contents (Elt F)),
    StableHlo.nullary main_cst_14 (constant S_ .f32 0x40800000#32),
    StableHlo.unary main_cst_14 main_v131 (broadcastInDim S100000x64 ![] bcast_S_S100000x64 : (⟨S_, .f32⟩ : BufTy).Contents (Elt F) → (⟨S100000x64, .f32⟩ : BufTy).Contents (Elt F)),
    StableHlo.binary main_v130 main_v131 main_v132 (Host.divf : (⟨S100000x64, .f32⟩ : BufTy).Contents (Elt F) → (⟨S100000x64, .f32⟩ : BufTy).Contents (Elt F) → (⟨S100000x64, .f32⟩ : BufTy).Contents (Elt F)),
    StableHlo.unary main_v132 main_v133 ((extractStridedSlice S50000x64 ![0, 0] · slices_S100000x64_S50000x64_0_0) : (⟨S100000x64, .f32⟩ : BufTy).Contents (Elt F) → (⟨S50000x64, .f32⟩ : BufTy).Contents (Elt F)),
    StableHlo.unary main_v132 main_v134 ((extractStridedSlice S50000x64 ![50000, 0] · slices_S100000x64_S50000x64_50000_0) : (⟨S100000x64, .f32⟩ : BufTy).Contents (Elt F) → (⟨S50000x64, .f32⟩ : BufTy).Contents (Elt F)) ]

/-- The buffers those operations write. -/
abbrev segM_W : List (Ref sig .tc) := [main_v125, main_v126, main_v127, main_v128, main_v129, main_cst_13, main_v130, main_cst_14, main_v131, main_v132, main_v133, main_v134]

set_option maxRecDepth 8192 in
theorem segM_writes : (segM : List (HloOp τ sig (Elt F))).Forall fun op =>
    op.writes ⊆ (segM_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer those operations do not write keeps its contents through them. -/
theorem keepM (W : Valuation τ sig (Elt F)) {r : Ref sig .tc} (h : r ∉ segM_W) :
    after segM W (no_index (Proc.devRef .tc r)) = W (Proc.devRef .tc r) :=
  after_of_writes_sub segM W segM_writes h

/-- The operations 183 … 240 of `ops`. -/
abbrev segB : List (HloOp τ sig (Elt F)) :=
  [ StableHlo.nullary main_c_15 (constantI S_ 32 0#32),
    StableHlo.unary main_c_15 main_v135 (broadcastInDim S8192 ![] bcast_S_S8192 : (⟨S_, .i32⟩ : BufTy).Contents (Elt F) → (⟨S8192, .i32⟩ : BufTy).Contents (Elt F)),
    StableHlo.binary main_arg12 main_v135 main_v136 (cmpi .slt : (⟨S8192, .i32⟩ : BufTy).Contents (Elt F) → (⟨S8192, .i32⟩ : BufTy).Contents (Elt F) → (⟨S8192, .i1⟩ : BufTy).Contents (Elt F)),
    StableHlo.nullary main_c_16 (constantI S_ 32 50000#32),
    StableHlo.unary main_c_16 main_v137 (broadcastInDim S8192 ![] bcast_S_S8192 : (⟨S_, .i32⟩ : BufTy).Contents (Elt F) → (⟨S8192, .i32⟩ : BufTy).Contents (Elt F)),
    StableHlo.binary main_arg12 main_v137 main_v138 (addi : (⟨S8192, .i32⟩ : BufTy).Contents (Elt F) → (⟨S8192, .i32⟩ : BufTy).Contents (Elt F) → (⟨S8192, .i32⟩ : BufTy).Contents (Elt F)),
    StableHlo.ternary main_v136 main_v138 main_arg12 main_v139 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v139 main_v140 (broadcastInDim S8192x1 ![0] bcast_S8192_S8192x1_0 : (⟨S8192, .i32⟩ : BufTy).Contents (Elt F) → (⟨S8192x1, .i32⟩ : BufTy).Contents (Elt F)),
    StableHlo.binary main_v133 main_v140 main_v141 ((fun x i => Host.gather gather_S50000x64_S8192x1_S8192x64_1_0_n_n_0_1_164 x i) : (⟨S50000x64, .f32⟩ : BufTy).Contents (Elt F) → (⟨S8192x1, .i32⟩ : BufTy).Contents (Elt F) → (⟨S8192x64, .f32⟩ : BufTy).Contents (Elt F)),
    StableHlo.nullary main_c_17 (constantI S_ 32 0#32),
    StableHlo.unary main_c_17 main_v142 (broadcastInDim S8192 ![] bcast_S_S8192 : (⟨S_, .i32⟩ : BufTy).Contents (Elt F) → (⟨S8192, .i32⟩ : BufTy).Contents (Elt F)),
    StableHlo.binary main_arg13 main_v142 main_v143 (cmpi .slt : (⟨S8192, .i32⟩ : BufTy).Contents (Elt F) → (⟨S8192, .i32⟩ : BufTy).Contents (Elt F) → (⟨S8192, .i1⟩ : BufTy).Contents (Elt F)),
    StableHlo.nullary main_c_18 (constantI S_ 32 50000#32),
    StableHlo.unary main_c_18 main_v144 (broadcastInDim S8192 ![] bcast_S_S8192 : (⟨S_, .i32⟩ : BufTy).Contents (Elt F) → (⟨S8192, .i32⟩ : BufTy).Contents (Elt F)),
    StableHlo.binary main_arg13 main_v144 main_v145 (addi : (⟨S8192, .i32⟩ : BufTy).Contents (Elt F) → (⟨S8192, .i32⟩ : BufTy).Contents (Elt F) → (⟨S8192, .i32⟩ : BufTy).Contents (Elt F)),
    StableHlo.ternary main_v143 main_v145 main_arg13 main_v146 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v146 main_v147 (broadcastInDim S8192x1 ![0] bcast_S8192_S8192x1_0 : (⟨S8192, .i32⟩ : BufTy).Contents (Elt F) → (⟨S8192x1, .i32⟩ : BufTy).Contents (Elt F)),
    StableHlo.binary main_v134 main_v147 main_v148 ((fun x i => Host.gather gather_S50000x64_S8192x1_S8192x64_1_0_n_n_0_1_164 x i) : (⟨S50000x64, .f32⟩ : BufTy).Contents (Elt F) → (⟨S8192x1, .i32⟩ : BufTy).Contents (Elt F) → (⟨S8192x64, .f32⟩ : BufTy).Contents (Elt F)),
    StableHlo.nullary main_c_19 (constantI S_ 32 0#32),
    StableHlo.unary main_c_19 main_v149 (broadcastInDim S8192 ![] bcast_S_S8192 : (⟨S_, .i32⟩ : BufTy).Contents (Elt F) → (⟨S8192, .i32⟩ : BufTy).Contents (Elt F)),
    StableHlo.binary main_arg12 main_v149 main_v150 (cmpi .slt : (⟨S8192, .i32⟩ : BufTy).Contents (Elt F) → (⟨S8192, .i32⟩ : BufTy).Contents (Elt F) → (⟨S8192, .i1⟩ : BufTy).Contents (Elt F)),
    StableHlo.nullary main_c_20 (constantI S_ 32 50000#32),
    StableHlo.unary main_c_20 main_v151 (broadcastInDim S8192 ![] bcast_S_S8192 : (⟨S_, .i32⟩ : BufTy).Contents (Elt F) → (⟨S8192, .i32⟩ : BufTy).Contents (Elt F)),
    StableHlo.binary main_arg12 main_v151 main_v152 (addi : (⟨S8192, .i32⟩ : BufTy).Contents (Elt F) → (⟨S8192, .i32⟩ : BufTy).Contents (Elt F) → (⟨S8192, .i32⟩ : BufTy).Contents (Elt F)),
    StableHlo.ternary main_v150 main_v152 main_arg12 main_v153 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v153 main_v154 (broadcastInDim S8192x1 ![0] bcast_S8192_S8192x1_0 : (⟨S8192, .i32⟩ : BufTy).Contents (Elt F) → (⟨S8192x1, .i32⟩ : BufTy).Contents (Elt F)),
    StableHlo.binary main_arg2 main_v154 main_v155 ((fun x i => Host.gather gather_S50000x64_S8192x1_S8192x64_1_0_n_n_0_1_164 x i) : (⟨S50000x64, .f32⟩ : BufTy).Contents (Elt F) → (⟨S8192x1, .i32⟩ : BufTy).Contents (Elt F) → (⟨S8192x64, .f32⟩ : BufTy).Contents (Elt F)),
    StableHlo.nullary main_c_21 (constantI S_ 32 0#32),
    StableHlo.unary main_c_21 main_v156 (broadcastInDim S8192 ![] bcast_S_S8192 : (⟨S_, .i32⟩ : BufTy).Contents (Elt F) → (⟨S8192, .i32⟩ : BufTy).Contents (Elt F)),
    StableHlo.binary main_arg13 main_v156 main_v157 (cmpi .slt : (⟨S8192, .i32⟩ : BufTy).Contents (Elt F) → (⟨S8192, .i32⟩ : BufTy).Contents (Elt F) → (⟨S8192, .i1⟩ : BufTy).Contents (Elt F)),
    StableHlo.nullary main_c_22 (constantI S_ 32 50000#32),
    StableHlo.unary main_c_22 main_v158 (broadcastInDim S8192 ![] bcast_S_S8192 : (⟨S_, .i32⟩ : BufTy).Contents (Elt F) → (⟨S8192, .i32⟩ : BufTy).Contents (Elt F)),
    StableHlo.binary main_arg13 main_v158 main_v159 (addi : (⟨S8192, .i32⟩ : BufTy).Contents (Elt F) → (⟨S8192, .i32⟩ : BufTy).Contents (Elt F) → (⟨S8192, .i32⟩ : BufTy).Contents (Elt F)),
    StableHlo.ternary main_v157 main_v159 main_arg13 main_v160 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v160 main_v161 (broadcastInDim S8192x1 ![0] bcast_S8192_S8192x1_0 : (⟨S8192, .i32⟩ : BufTy).Contents (Elt F) → (⟨S8192x1, .i32⟩ : BufTy).Contents (Elt F)),
    StableHlo.binary main_arg3 main_v161 main_v162 ((fun x i => Host.gather gather_S50000x2048_S8192x1_S8192x2048_1_0_n_n_0_1_12048 x i) : (⟨S50000x2048, .f32⟩ : BufTy).Contents (Elt F) → (⟨S8192x1, .i32⟩ : BufTy).Contents (Elt F) → (⟨S8192x2048, .f32⟩ : BufTy).Contents (Elt F)),
    StableHlo.unary main_arg4 main_v163 ((transpose S2048x64 [1, 0] · transposes_S64x2048_S2048x64_1_0) : (⟨S64x2048, .f32⟩ : BufTy).Contents (Elt F) → (⟨S2048x64, .f32⟩ : BufTy).Contents (Elt F)),
    StableHlo.binary main_v162 main_v163 main_v164 ((fun l r => Host.dotGeneral dot_S8192x2048_S2048x64_S8192x64_1_0_0_1_n_n none l r) : (⟨S8192x2048, .f32⟩ : BufTy).Contents (Elt F) → (⟨S2048x64, .f32⟩ : BufTy).Contents (Elt F) → (⟨S8192x64, .f32⟩ : BufTy).Contents (Elt F)),
    StableHlo.unary main_arg5 main_v165 (broadcastInDim S1x64 ![1] bcast_S64_S1x64_1 : (⟨S64, .f32⟩ : BufTy).Contents (Elt F) → (⟨S1x64, .f32⟩ : BufTy).Contents (Elt F)),
    StableHlo.unary main_v165 main_v166 (broadcastInDim S8192x64 ![0, 1] bcast_S1x64_S8192x64_0_1 : (⟨S1x64, .f32⟩ : BufTy).Contents (Elt F) → (⟨S8192x64, .f32⟩ : BufTy).Contents (Elt F)),
    StableHlo.binary main_v164 main_v166 main_v167 (addf : (⟨S8192x64, .f32⟩ : BufTy).Contents (Elt F) → (⟨S8192x64, .f32⟩ : BufTy).Contents (Elt F) → (⟨S8192x64, .f32⟩ : BufTy).Contents (Elt F)),
    StableHlo.TRef.binary (.of main_v167) (.of main_v167) main_call6.v0 mulf,
    StableHlo.TRef.nullary main_call6.cst (constant S_ .f32 0x00000000#32),
    StableHlo.TRef.binary main_call6.v0 main_call6.cst main_call6.v1 (fun x v => Host.reduceAdd x v reducesTo_S8192x64_S8192_d1 h_S_),
    StableHlo.TRef.unary main_call6.v1 main_call6.v2 (broadcastInDim S8192x1 ![0] bcast_S8192_S8192x1_0),
    StableHlo.TRef.unary main_call6.v2 main_call6.v3 Host.sqrt,
    StableHlo.nullary main_cst_23 (constant S_ .f32 0x2B8CBCCC#32),
    StableHlo.unary main_cst_23 main_v169 (broadcastInDim S8192x1 ![] bcast_S_S8192x1 : (⟨S_, .f32⟩ : BufTy).Contents (Elt F) → (⟨S8192x1, .f32⟩ : BufTy).Contents (Elt F)),
    StableHlo.binary main_v168 main_v169 main_v170 (maximumf : (⟨S8192x1, .f32⟩ : BufTy).Contents (Elt F) → (⟨S8192x1, .f32⟩ : BufTy).Contents (Elt F) → (⟨S8192x1, .f32⟩ : BufTy).Contents (Elt F)),
    StableHlo.unary main_v170 main_v171 (broadcastInDim S8192x64 ![0, 1] bcast_S8192x1_S8192x64_0_1 : (⟨S8192x1, .f32⟩ : BufTy).Contents (Elt F) → (⟨S8192x64, .f32⟩ : BufTy).Contents (Elt F)),
    StableHlo.binary main_v167 main_v171 main_v172 (Host.divf : (⟨S8192x64, .f32⟩ : BufTy).Contents (Elt F) → (⟨S8192x64, .f32⟩ : BufTy).Contents (Elt F) → (⟨S8192x64, .f32⟩ : BufTy).Contents (Elt F)),
    StableHlo.binary main_v141 main_v148 main_v173 (mulf : (⟨S8192x64, .f32⟩ : BufTy).Contents (Elt F) → (⟨S8192x64, .f32⟩ : BufTy).Contents (Elt F) → (⟨S8192x64, .f32⟩ : BufTy).Contents (Elt F)),
    StableHlo.nullary main_cst_24 (constant S_ .f32 0x00000000#32),
    StableHlo.binary main_v173 main_cst_24 main_v174 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    StableHlo.binary main_v155 main_v172 main_v175 (mulf : (⟨S8192x64, .f32⟩ : BufTy).Contents (Elt F) → (⟨S8192x64, .f32⟩ : BufTy).Contents (Elt F) → (⟨S8192x64, .f32⟩ : BufTy).Contents (Elt F)),
    StableHlo.nullary main_cst_25 (constant S_ .f32 0x00000000#32),
    StableHlo.binary main_v175 main_cst_25 main_v176 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    StableHlo.binary main_v174 main_v176 main_v177 (addf : (⟨S8192, .f32⟩ : BufTy).Contents (Elt F) → (⟨S8192, .f32⟩ : BufTy).Contents (Elt F) → (⟨S8192, .f32⟩ : BufTy).Contents (Elt F)) ]

/-- The buffers those operations write. -/
abbrev segB_W : List (Ref sig .tc) := [main_c_15, main_v135, main_v136, main_c_16, main_v137, main_v138, main_v139, main_v140, main_v141, main_c_17, main_v142, main_v143, main_c_18, main_v144, main_v145, main_v146, main_v147, main_v148, main_c_19, main_v149, main_v150, main_c_20, main_v151, main_v152, main_v153, main_v154, main_v155, main_c_21, main_v156, main_v157, main_c_22, main_v158, main_v159, main_v160, main_v161, main_v162, main_v163, main_v164, main_v165, main_v166, main_v167, main_call6_v0, main_call6_cst, main_call6_v1, main_call6_v2, main_v168, main_cst_23, main_v169, main_v170, main_v171, main_v172, main_v173, main_cst_24, main_v174, main_v175, main_cst_25, main_v176, main_v177]

set_option maxRecDepth 8192 in
theorem segB_writes : (segB : List (HloOp τ sig (Elt F))).Forall fun op =>
    op.writes ⊆ (segB_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer those operations do not write keeps its contents through them. -/
theorem keepB (W : Valuation τ sig (Elt F)) {r : Ref sig .tc} (h : r ∉ segB_W) :
    after segB W (no_index (Proc.devRef .tc r)) = W (Proc.devRef .tc r) :=
  after_of_writes_sub segB W segB_writes h

/-- The operation list is its six pieces in order. -/
theorem ops_split : (ops : List (HloOp τ sig (Elt F))) = segA ++ (segL0 ++ (segL1 ++ (segL2 ++ (segM ++ segB)))) := rfl

/-- The fold over the whole list is the pieces' folds, one over the other. -/
theorem ops_after (V : Valuation τ sig (Elt F)) :
    after ops V = after segB (after segM (after segL2 (after segL1 (after segL0 (after segA V))))) := by
  rw [ops_split]; simp only [after_app]

attribute [local irreducible] Host.gather Host.scatterAdd Host.reduceAdd

set_option maxRecDepth 8192 in
set_option maxHeartbeats 4000000 in
/-- The edges' sources: row 0 of the edge list. -/
theorem segA_v1 (W : Valuation τ sig (Elt F)) :
    after segA W (no_index (main_v1 : DevRef τ sig)) = Stage.edgeSrc (W (main_arg11 : DevRef τ sig)) := by
  simp only [segA]
  after_results_simp
  rfl

set_option maxRecDepth 8192 in
set_option maxHeartbeats 4000000 in
/-- The edges' targets: row 1 of the edge list. -/
theorem segA_v3 (W : Valuation τ sig (Elt F)) :
    after segA W (no_index (main_v3 : DevRef τ sig)) = Stage.edgeDst (W (main_arg11 : DevRef τ sig)) := by
  simp only [segA]
  after_results_simp
  rfl

set_option maxRecDepth 8192 in
set_option maxHeartbeats 4000000 in
/-- The node array: users above items. -/
theorem segA_v4 (W : Valuation τ sig (Elt F)) :
    after segA W (no_index (main_v4 : DevRef τ sig)) = Stage.nodes (W (main_arg0 : DevRef τ sig)) (W (main_arg1 : DevRef τ sig)) := by
  simp only [segA]
  after_results_simp
  rfl

set_option maxRecDepth 8192 in
set_option maxHeartbeats 4000000 in
/-- Layer 0's operations compute the layer function of the incoming node array, its neighbourhood sum over the
    edges, and the layer's slabs of the four parameter arrays. -/
theorem segL0_out (W : Valuation τ sig (Elt F)) :
    after segL0 W (no_index (main_v44 : DevRef τ sig))
      = Stage.layerR (W (main_v4 : DevRef τ sig))
          (Stage.aggR (W (main_v4 : DevRef τ sig)) (W (main_arg10 : DevRef τ sig)) (W (main_v1 : DevRef τ sig)) (W (main_v3 : DevRef τ sig)))
          (Stage.slabW0 (W (main_arg6 : DevRef τ sig))) (Stage.slabB0 (W (main_arg7 : DevRef τ sig)))
          (Stage.slabW0 (W (main_arg8 : DevRef τ sig))) (Stage.slabB0 (W (main_arg9 : DevRef τ sig))) := by
  simp only [segL0]
  after_results_simp
  rfl

set_option maxRecDepth 8192 in
set_option maxHeartbeats 4000000 in
/-- Layer 1's operations compute the layer function of the incoming node array, its neighbourhood sum over the
    edges, and the layer's slabs of the four parameter arrays. -/
theorem segL1_out (W : Valuation τ sig (Elt F)) :
    after segL1 W (no_index (main_v84 : DevRef τ sig))
      = Stage.layerR (W (main_v44 : DevRef τ sig))
          (Stage.aggR (W (main_v44 : DevRef τ sig)) (W (main_arg10 : DevRef τ sig)) (W (main_v1 : DevRef τ sig)) (W (main_v3 : DevRef τ sig)))
          (Stage.slabW1 (W (main_arg6 : DevRef τ sig))) (Stage.slabB1 (W (main_arg7 : DevRef τ sig)))
          (Stage.slabW1 (W (main_arg8 : DevRef τ sig))) (Stage.slabB1 (W (main_arg9 : DevRef τ sig))) := by
  simp only [segL1]
  after_results_simp
  rfl

set_option maxRecDepth 8192 in
set_option maxHeartbeats 4000000 in
/-- Layer 2's operations compute the layer function of the incoming node array, its neighbourhood sum over the
    edges, and the layer's slabs of the four parameter arrays. -/
theorem segL2_out (W : Valuation τ sig (Elt F)) :
    after segL2 W (no_index (main_v124 : DevRef τ sig))
      = Stage.layerR (W (main_v84 : DevRef τ sig))
          (Stage.aggR (W (main_v84 : DevRef τ sig)) (W (main_arg10 : DevRef τ sig)) (W (main_v1 : DevRef τ sig)) (W (main_v3 : DevRef τ sig)))
          (Stage.slabW2 (W (main_arg6 : DevRef τ sig))) (Stage.slabB2 (W (main_arg7 : DevRef τ sig)))
          (Stage.slabW2 (W (main_arg8 : DevRef τ sig))) (Stage.slabB2 (W (main_arg9 : DevRef τ sig))) := by
  simp only [segL2]
  after_results_simp
  rfl

set_option maxRecDepth 8192 in
set_option maxHeartbeats 4000000 in
/-- The users' half of the mean of the four embeddings. -/
theorem segM_u (W : Valuation τ sig (Elt F)) :
    after segM W (no_index (main_v133 : DevRef τ sig)) = Stage.userHalf (Stage.meanR (W (main_v4 : DevRef τ sig)) (W (main_v44 : DevRef τ sig)) (W (main_v84 : DevRef τ sig)) (W (main_v124 : DevRef τ sig))) := by
  simp only [segM]
  after_results_simp
  rfl

set_option maxRecDepth 8192 in
set_option maxHeartbeats 4000000 in
/-- The items' half of the mean of the four embeddings. -/
theorem segM_i (W : Valuation τ sig (Elt F)) :
    after segM W (no_index (main_v134 : DevRef τ sig)) = Stage.itemHalf (Stage.meanR (W (main_v4 : DevRef τ sig)) (W (main_v44 : DevRef τ sig)) (W (main_v84 : DevRef τ sig)) (W (main_v124 : DevRef τ sig))) := by
  simp only [segM]
  after_results_simp
  rfl

set_option maxRecDepth 8192 in
set_option maxHeartbeats 4000000 in
/-- The batch scores of the looked-up rows. -/
theorem segB_out (W : Valuation τ sig (Elt F)) :
    after segB W (no_index (main_v177 : DevRef τ sig)) = Stage.batchR (Stage.take2048 (W (main_arg3 : DevRef τ sig)) (W (main_arg13 : DevRef τ sig))) (W (main_arg4 : DevRef τ sig)) (W (main_arg5 : DevRef τ sig))
        (Stage.take64 (W (main_v133 : DevRef τ sig)) (W (main_arg12 : DevRef τ sig))) (Stage.take64 (W (main_v134 : DevRef τ sig)) (W (main_arg13 : DevRef τ sig)))
        (Stage.take64 (W (main_arg2 : DevRef τ sig)) (W (main_arg12 : DevRef τ sig))) := by
  simp only [segB]
  after_results_simp
  rfl

set_option maxRecDepth 8192 in
set_option maxHeartbeats 4000000 in
/-- The fold at the result buffer is the reference's value of the fourteen arguments: each piece's result rewritten to
    its stage function, each buffer a piece only carries read through it, down to the launch contents. -/
theorem out_eq (V : Valuation τ sig (Elt F)) :
    after ops V (main_v177 : DevRef τ sig)
      = Stage.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) := by
  rw [ops_after]
  simp (disch := decide) only [segB_out, segM_u, segM_i, segL2_out, segL1_out, segL0_out, segA_v1, segA_v3, segA_v4,
    keepM, keepL2, keepL1, keepL0, keepA]
  rfl

theorem arg0_eq (V : Valuation τ sig (Elt F)) : after ops V (main_arg0 : DevRef τ sig) = V (main_arg0 : DevRef τ sig) := by
  rw [ops_after]; simp (disch := decide) only [keepB, keepM, keepL2, keepL1, keepL0, keepA]

theorem arg1_eq (V : Valuation τ sig (Elt F)) : after ops V (main_arg1 : DevRef τ sig) = V (main_arg1 : DevRef τ sig) := by
  rw [ops_after]; simp (disch := decide) only [keepB, keepM, keepL2, keepL1, keepL0, keepA]

theorem arg2_eq (V : Valuation τ sig (Elt F)) : after ops V (main_arg2 : DevRef τ sig) = V (main_arg2 : DevRef τ sig) := by
  rw [ops_after]; simp (disch := decide) only [keepB, keepM, keepL2, keepL1, keepL0, keepA]

theorem arg3_eq (V : Valuation τ sig (Elt F)) : after ops V (main_arg3 : DevRef τ sig) = V (main_arg3 : DevRef τ sig) := by
  rw [ops_after]; simp (disch := decide) only [keepB, keepM, keepL2, keepL1, keepL0, keepA]

theorem arg4_eq (V : Valuation τ sig (Elt F)) : after ops V (main_arg4 : DevRef τ sig) = V (main_arg4 : DevRef τ sig) := by
  rw [ops_after]; simp (disch := decide) only [keepB, keepM, keepL2, keepL1, keepL0, keepA]

theorem arg5_eq (V : Valuation τ sig (Elt F)) : after ops V (main_arg5 : DevRef τ sig) = V (main_arg5 : DevRef τ sig) := by
  rw [ops_after]; simp (disch := decide) only [keepB, keepM, keepL2, keepL1, keepL0, keepA]

theorem arg6_eq (V : Valuation τ sig (Elt F)) : after ops V (main_arg6 : DevRef τ sig) = V (main_arg6 : DevRef τ sig) := by
  rw [ops_after]; simp (disch := decide) only [keepB, keepM, keepL2, keepL1, keepL0, keepA]

theorem arg7_eq (V : Valuation τ sig (Elt F)) : after ops V (main_arg7 : DevRef τ sig) = V (main_arg7 : DevRef τ sig) := by
  rw [ops_after]; simp (disch := decide) only [keepB, keepM, keepL2, keepL1, keepL0, keepA]

theorem arg8_eq (V : Valuation τ sig (Elt F)) : after ops V (main_arg8 : DevRef τ sig) = V (main_arg8 : DevRef τ sig) := by
  rw [ops_after]; simp (disch := decide) only [keepB, keepM, keepL2, keepL1, keepL0, keepA]

theorem arg9_eq (V : Valuation τ sig (Elt F)) : after ops V (main_arg9 : DevRef τ sig) = V (main_arg9 : DevRef τ sig) := by
  rw [ops_after]; simp (disch := decide) only [keepB, keepM, keepL2, keepL1, keepL0, keepA]

theorem arg10_eq (V : Valuation τ sig (Elt F)) : after ops V (main_arg10 : DevRef τ sig) = V (main_arg10 : DevRef τ sig) := by
  rw [ops_after]; simp (disch := decide) only [keepB, keepM, keepL2, keepL1, keepL0, keepA]

theorem arg11_eq (V : Valuation τ sig (Elt F)) : after ops V (main_arg11 : DevRef τ sig) = V (main_arg11 : DevRef τ sig) := by
  rw [ops_after]; simp (disch := decide) only [keepB, keepM, keepL2, keepL1, keepL0, keepA]

theorem arg12_eq (V : Valuation τ sig (Elt F)) : after ops V (main_arg12 : DevRef τ sig) = V (main_arg12 : DevRef τ sig) := by
  rw [ops_after]; simp (disch := decide) only [keepB, keepM, keepL2, keepL1, keepL0, keepA]

theorem arg13_eq (V : Valuation τ sig (Elt F)) : after ops V (main_arg13 : DevRef τ sig) = V (main_arg13 : DevRef τ sig) := by
  rw [ops_after]; simp (disch := decide) only [keepB, keepM, keepL2, keepL1, keepL0, keepA]

/-- On every device, for any float values, from any memory with zero counters: every weakly fair execution of @main
    terminates with the result buffer at the reference's value of the arguments' launch contents and every argument
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v177)
        = Stage.refOut (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v177).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c)),
      (h c main_arg12).trans (arg12_eq (launchContents m c)),
      (h c main_arg13).trans (arg13_eq (launchContents m c))⟩)
    (run_fold m ρ)

end Cert.ReferenceIdeal.RefRun

end
-- ==== Proof.LibColumnForms.lean ====
/-
  A column vector on the host: its two spellings, and its spread over a matrix.

  A vector of `a` entries becomes the column `[a, 1]` either by a reshape or by a broadcast that sends the vector's axis to
  the column's first axis: the two are one array, entry (i, 0) being the vector's entry i. A column `[R, 1]` broadcast to
  `[R, N]` with its axes kept in place reads, at (r, n), the column's entry r.
-/
import Idealize.ShloMosaic.Lib.ValueIdx
import Idealize.ShloMosaic.Lib.Pipeline.Value
import proofs.«174847_j28037546508681_1_alg».proof.Proof.LibColumn

noncomputable section

namespace Cert.Lib

open Idealize.ShloMosaic Idealize.ShloMosaic.ValueIdx

variable {α : Type}

/-- A column `[R, 1]` broadcast to `[R, N]` (axes kept in place) reads, at `(r, n)`, the column's entry `r`. -/
theorem cols_of_oneCol {R N : ℕ} (hb : (⟨2, ![R, 1]⟩ : Shape).BroadcastsInDim ⟨2, ![R, N]⟩ (![0, 1] : Fin 2 → Fin 2))
    (v : (⟨2, ![R, 1]⟩ : Shape).Idx → α) (r : Fin R) (n : Fin N) :
    broadcastInDim ⟨2, ![R, N]⟩ ![0, 1] hb v (ix2 r n) = v (ix2 r (0 : Fin 1)) :=
  broadcastInDim_apply _ hb v (ix2 r n) (ix2 r (0 : Fin 1)) (fun a => match a with
    | ⟨0, _⟩ => by
      show r.val = if R = 1 then 0 else r.val
      have h1 : r.val < R := r.isLt
      split
      · omega
      · rfl
    | ⟨1, _⟩ => by
      show (0 : ℕ) = if (1 : ℕ) = 1 then 0 else n.val
      rw [if_pos rfl])

/-- A vector reshaped to a column and the same vector broadcast into the column along the first axis are one array. -/
theorem shapeCast_eq_broadcastInDim_col {a : ℕ} (v : (⟨1, ![a]⟩ : Shape).Idx → α)
    (h : (⟨1, ![a]⟩ : Shape).ShapeCasts ⟨2, ![a, 1]⟩)
    (hb : (⟨1, ![a]⟩ : Shape).BroadcastsInDim ⟨2, ![a, 1]⟩ (![0] : Fin 1 → Fin 2)) :
    shapeCast ⟨2, ![a, 1]⟩ v h = broadcastInDim ⟨2, ![a, 1]⟩ ![0] hb v := by
  funext i
  refine ((congrArg (shapeCast ⟨2, ![a, 1]⟩ v h) (eq_ix2 i)).trans (shapeCast_a_a1_apply v h (i 0) (i 1))).trans ?_
  exact (broadcastInDim_apply _ hb v i (ix1 (i 0)) (fun ax => match ax with
    | ⟨0, _⟩ => by
      show (i 0).val = if a = 1 then 0 else (i 0).val
      have h1 : (i 0).val < a := (i 0).isLt
      split
      · omega
      · rfl)).symm

end Cert.Lib

end
-- ==== Proof.LibSlabs.lean ====
/-
  Slabs, unit axes and row broadcasts, read at an index.

  Layout operations that stacked arrays meet on both sides of a kernel and its reference. On the host: a one-row array
  broadcast down `R` rows; an array given a new leading unit axis by a broadcast; slab `l` of an array stacked along its first
  axis, cut out by a slice and its unit axis dropped (rank 3 to a matrix, rank 2 to a vector); a matrix given a unit axis
  between its two axes by a reshape. In a kernel: the unit-stride rectangle that is slab `l` of a rank-3 buffer, its own
  index `(0, p, k)` placed at `(l, p, k)`, and a load through it. Each is stated over any element type and over literal
  coordinates, so that it fires on indices built by `ix1`, `ix2`, `ix3`.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type}

/-! ## Host broadcasts -/

/-- A one-row array broadcast to `R` rows (axes kept in place) reads, at `(r, n)`, the row's entry `n`. -/
theorem rows_of_oneRow {R N : ℕ} (hb2 : (⟨2, ![1, N]⟩ : Shape).BroadcastsInDim ⟨2, ![R, N]⟩ (![0, 1] : Fin 2 → Fin 2))
    (v : (⟨2, ![1, N]⟩ : Shape).Idx → α) (r : Fin R) (n : Fin N) :
    broadcastInDim ⟨2, ![R, N]⟩ ![0, 1] hb2 v (ix2 r n) = v (ix2 (0 : Fin 1) n) :=
  broadcastInDim_apply _ hb2 v (ix2 r n) (ix2 (0 : Fin 1) n) (fun a => match a with
    | ⟨0, _⟩ => by
      show (0 : ℕ) = if (1 : ℕ) = 1 then 0 else r.val
      rw [if_pos rfl]
    | ⟨1, _⟩ => by
      show n.val = if N = 1 then 0 else n.val
      have h1 : n.val < N := n.isLt
      split
      · omega
      · rfl)

/-- A matrix broadcast under a new leading unit axis reads, at `(0, p, k)`, the matrix's `(p, k)`. -/
theorem addUnit_bcast_at {a b : ℕ} (hb : (⟨2, ![a, b]⟩ : Shape).BroadcastsInDim ⟨3, ![1, a, b]⟩ (![1, 2] : Fin 2 → Fin 3))
    (v : (⟨2, ![a, b]⟩ : Shape).Idx → α) (u : Fin 1) (p : Fin a) (k : Fin b) :
    broadcastInDim ⟨3, ![1, a, b]⟩ ![1, 2] hb v (ix3 u p k) = v (ix2 p k) :=
  broadcastInDim_apply _ hb v (ix3 u p k) (ix2 p k) (fun ax => match ax with
    | ⟨0, _⟩ => by
      show p.val = if a = 1 then 0 else p.val
      have h1 : p.val < a := p.isLt
      split
      · omega
      · rfl
    | ⟨1, _⟩ => by
      show k.val = if b = 1 then 0 else k.val
      have h1 : k.val < b := k.isLt
      split
      · omega
      · rfl)

/-! ## A layer's slab of a stacked host array -/

/-- Slab `l` of an array stacked along its first axis, its unit axis dropped: entry `(p, k)` is the array's `(l, p, k)`. -/
theorem hostSlab3 {n0 a b l : ℕ} (hl : l < n0) (X : (⟨3, ![n0, a, b]⟩ : Shape).Idx → α)
    (hs : (⟨3, ![n0, a, b]⟩ : Shape).Slices ![l, 0, 0] ⟨3, ![1, a, b]⟩)
    (hc : (⟨3, ![1, a, b]⟩ : Shape).ShapeCasts ⟨2, ![a, b]⟩) (p : Fin a) (k : Fin b) :
    shapeCast ⟨2, ![a, b]⟩ (extractStridedSlice ⟨3, ![1, a, b]⟩ ![l, 0, 0] X hs) hc (ix2 p k) = X (ix3 (⟨l, hl⟩ : Fin n0) p k) := by
  rw [shapeCast_1ab_ab_apply]
  exact extractStridedSlice_apply _ X hs _ _ (fun ax => match ax with
    | ⟨0, _⟩ => (Nat.add_zero l).symm
    | ⟨1, _⟩ => (Nat.zero_add _).symm
    | ⟨2, _⟩ => (Nat.zero_add _).symm)

/-- Row `l` of a matrix as a vector: entry `n` is the matrix's `(l, n)`. -/
theorem hostSlab2 {n0 a l : ℕ} (hl : l < n0) (X : (⟨2, ![n0, a]⟩ : Shape).Idx → α)
    (hs : (⟨2, ![n0, a]⟩ : Shape).Slices ![l, 0] ⟨2, ![1, a]⟩)
    (hc : (⟨2, ![1, a]⟩ : Shape).ShapeCasts ⟨1, ![a]⟩) (n : Fin a) :
    shapeCast ⟨1, ![a]⟩ (extractStridedSlice ⟨2, ![1, a]⟩ ![l, 0] X hs) hc (ix1 n) = X (ix2 (⟨l, hl⟩ : Fin n0) n) := by
  rw [shapeCast_1a_a_apply]
  exact slice2_axis0_apply l X hs (0 : Fin 1) n ⟨l, hl⟩ (Nat.add_zero l).symm

/-- A matrix with a unit axis put between its two axes: entry `(l, 0, n)` is the matrix's `(l, n)`. -/
theorem midUnit_at {a b : ℕ} (X : (⟨2, ![a, b]⟩ : Shape).Idx → α)
    (h : (⟨2, ![a, b]⟩ : Shape).ShapeCasts ⟨3, ![a, 1, b]⟩) (l : Fin a) (u : Fin 1) (n : Fin b) :
    shapeCast ⟨3, ![a, 1, b]⟩ X h (ix3 l u n) = X (ix2 l n) :=
  shapeCast_apply X h _ _ (by
    have hu : u.val = 0 := by omega
    rw [Shape.rowMajor_val_three, Shape.rowMajor_val_two]
    show l.val * b + n.val = (l.val * 1 + u.val) * b + n.val
    rw [hu, Nat.mul_one, Nat.add_zero])

/-! ## A layer's slab of a stacked buffer in a kernel -/

/-- Slab `l` of a buffer stacked along its first axis: its own index `(0, p, k)` sits at `(l, p, k)`. -/
theorem slab_emb {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (x : (⟨3, ![1, a, b]⟩ : Shape).Idx) :
    (Rect.unit (s := ⟨3, ![n0, a, b]⟩) off ![1, a, b] inb).emb x = ix3 (⟨l, hl⟩ : Fin n0) (x 1) (x 2) := by
  subst ho
  funext ax
  match ax with
  | ⟨0, _⟩ =>
    have h0 : (x 0).val < 1 := (x 0).isLt
    exact Fin.ext (show l + 1 * (x 0).val = l by omega)
  | ⟨1, _⟩ => exact Fin.ext (show 0 + 1 * (x 1).val = (x 1).val by omega)
  | ⟨2, _⟩ => exact Fin.ext (show 0 + 1 * (x 2).val = (x 2).val by omega)

/-- What a load of slab `l` reads at `(0, p, k)` — the buffer's contents at the slab's embedded index — is the contents
    at `(l, p, k)`. -/
theorem ld_slab {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (X : (⟨3, ![n0, a, b]⟩ : Shape).Idx → α) (u : Fin 1) (p : Fin a) (k : Fin b) :
    X ((Rect.unit (s := ⟨3, ![n0, a, b]⟩) off ![1, a, b] inb).emb (ix3 u p k)) = X (ix3 (⟨l, hl⟩ : Fin n0) p k) :=
  congrArg X (slab_emb ho inb hl (ix3 u p k))

end Cert.Lib

end
-- ==== Proof.LibAsRow.lean ====
/-
  A vector as one row.

  A vector of `n` entries laid out as a `[1, n]` array reads, at `(u, k)`, the vector's entry `k`. Two layout operations
  produce that array: a reshape `[n] → [1, n]`, and a broadcast of `[n]` into `[1, n]` that sends the vector's axis to
  the array's second axis. Both are the same function of the vector.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type} {n : ℕ}

/-- The `[1, n]` array whose one row is the vector `v`. -/
def asRow (v : (⟨1, ![n]⟩ : Shape).Idx → α) : (⟨2, ![1, n]⟩ : Shape).Idx → α := fun i => v (ix1 (i 1))

theorem asRow_apply (v : (⟨1, ![n]⟩ : Shape).Idx → α) (u : Fin 1) (k : Fin n) : asRow v (ix2 u k) = v (ix1 k) := rfl

/-- A vector reshaped to `[1, n]` is the vector as one row. -/
theorem shapeCast_eq_asRow (v : (⟨1, ![n]⟩ : Shape).Idx → α) (h : (⟨1, ![n]⟩ : Shape).ShapeCasts ⟨2, ![1, n]⟩) :
    shapeCast ⟨2, ![1, n]⟩ v h = asRow v :=
  funext fun i => (congrArg (shapeCast ⟨2, ![1, n]⟩ v h) (eq_ix2 i)).trans (shapeCast_a_1a_apply v h (i 0) (i 1))

/-- A vector broadcast into `[1, n]` along the second axis is the vector as one row. -/
theorem broadcastInDim_eq_asRow (v : (⟨1, ![n]⟩ : Shape).Idx → α)
    (h : (⟨1, ![n]⟩ : Shape).BroadcastsInDim ⟨2, ![1, n]⟩ (![1] : Fin 1 → Fin 2)) :
    broadcastInDim ⟨2, ![1, n]⟩ ![1] h v = asRow v :=
  funext fun i => broadcastInDim_apply _ h v i (ix1 (i 1)) (fun a => match a with
    | ⟨0, _⟩ => by
      show (i 1).val = if n = 1 then 0 else (i 1).val
      have h1 : (i 1).val < n := (i 1).isLt
      split
      · omega
      · rfl)

end Cert.Lib

end
-- ==== Proof.LibBiasRows.lean ====
import Idealize.ShloMosaic.Lib.ValueIdx
import Idealize.ShloMosaic.Lib.Pipeline.Value
import proofs.«174847_j28037546508681_1_alg».proof.Proof.LibSlabs
import proofs.«174847_j28037546508681_1_alg».proof.Proof.LibAsRow

/-!
# Bias vectors and scalars spread over a matrix, read at an entry

General, program-free lemmas for the host's way of adding a bias: a vector `[n]` laid out as one row `[1, n]`
(`broadcast_in_dim` along axis 1) and repeated over `R` rows (`broadcast_in_dim` keeping both axes) reads, at
`(r, q)`, the vector's entry `q`; a scalar repeated over a matrix reads the scalar at every entry.
-/

noncomputable section

namespace Cert.Lib

open Idealize.ShloMosaic Idealize.ShloMosaic.ValueIdx

variable {α : Type}

/-- A scalar repeated over a matrix reads the scalar everywhere. -/
theorem splat2_apply {a b : ℕ} (x : (⟨0, ![]⟩ : Shape).Idx → α)
    (h0 : (⟨0, ![]⟩ : Shape).BroadcastsInDim ⟨2, ![a, b]⟩ (![] : Fin 0 → Fin 2)) (i : (⟨2, ![a, b]⟩ : Shape).Idx) :
    broadcastInDim ⟨2, ![a, b]⟩ ![] h0 x i = x ix0 :=
  broadcastInDim_apply _ h0 x i ix0 fun ax => ax.elim0

/-- A vector laid out as one row and repeated over `R` rows reads, at `(r, q)`, the vector's entry `q`. -/
theorem biasRows_apply {R n : ℕ} (v : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (q : Fin n) :
    broadcastInDim ⟨2, ![R, n]⟩ ![0, 1] h2 (broadcastInDim ⟨2, ![1, n]⟩ ![1] h1 v) (ix2 r q) = v (ix1 q) := by
  rw [rows_of_oneRow h2 _ r q, broadcastInDim_eq_asRow v h1]
  rfl

end Cert.Lib

end
-- ==== Proof.RefIdx.lean ====
/-
  The reference's stages read at an index, against the row-level specification.

  A layer of the reference is host operations on whole arrays: a `dot_general` against the transposed weight, biases laid as
  one row and repeated over the nodes, a rectifier whose zero and slope are scalar arrays spread over the matrix, a sum of
  squares reduced from an initial zero, broadcast back as a column, and a division.  Read at `(p, q)` each is an operation on
  row `p` alone: the product is the sum over the contracted coordinate (the transposed weight read with its coordinates
  swapped), the reduction is `0 + Σ` over the row, the broadcasts read back their one entry.  So the stage at `(p, q)` is the
  specification's `rowLayer` of row `p` at feature `q`.  The batch score is read the same way, and the mean of the four
  embeddings — stacked along a new middle axis and reduced over it from zero — is their sum in order, divided by the word of 4.
-/
import proofs.«174847_j28037546508681_1_alg».proof.Proof.RefStages
import proofs.«174847_j28037546508681_1_alg».proof.Proof.Spec
import proofs.«174847_j28037546508681_1_alg».proof.Proof.LibMatDot
import proofs.«174847_j28037546508681_1_alg».proof.Proof.LibRowSum
import proofs.«174847_j28037546508681_1_alg».proof.Proof.LibColumnForms
import proofs.«174847_j28037546508681_1_alg».proof.Proof.LibBiasRows
import Idealize.ShloMosaic.Lib.ValueLayout

noncomputable section

namespace Cert.ReferenceIdeal.Idx

open Cert.ReferenceIdeal Cert.ReferenceIdeal.Stage Cert.ReferenceIdeal.Facts₀ Cert.ReferenceIdeal.Facts
open Idealize.ShloMosaic Idealize.ShloMosaic.ValueIdx
open scoped BigOperators

variable {α : Type}

/-- A vector broadcast into a column along the first axis reads, at `(i, u)`, the vector's entry `i`. -/
theorem col_of_vec {a : ℕ} (hb : (⟨1, ![a]⟩ : Shape).BroadcastsInDim ⟨2, ![a, 1]⟩ (![0] : Fin 1 → Fin 2))
    (v : (⟨1, ![a]⟩ : Shape).Idx → α) (i : Fin a) (u : Fin 1) :
    broadcastInDim ⟨2, ![a, 1]⟩ ![0] hb v (ix2 i u) = v (ix1 i) :=
  broadcastInDim_apply _ hb v (ix2 i u) (ix1 i) (fun ax => match ax with
    | ⟨0, _⟩ => by
      show i.val = if a = 1 then 0 else i.val
      have h1 : i.val < a := i.isLt
      split
      · omega
      · rfl)

/-- The host's leaky rectifier (zero and the slope given as scalar arrays spread over the matrix) at an index. -/
theorem lreluHost_apply {R n : ℕ} (h : FVec Ideal ⟨2, ![R, n]⟩ .f32)
    (h0 : (⟨0, ![]⟩ : Shape).BroadcastsInDim ⟨2, ![R, n]⟩ (![] : Fin 0 → Fin 2)) (i : (⟨2, ![R, n]⟩ : Shape).Idx) :
    select (cmpf .oge h (broadcastInDim ⟨2, ![R, n]⟩ ![] h0 (constant (F := Ideal) ⟨0, ![]⟩ .f32 0x00000000#32))) h
        (mulf (broadcastInDim ⟨2, ![R, n]⟩ ![] h0 (id (constant (F := Ideal) ⟨0, ![]⟩ .f32 0x3E4CCCCD#32))) h) i
      = Cert.Spec.lrelu (h i) := by
  rw [select_apply, cmpf_apply, mulf_apply, Cert.Lib.splat2_apply, Cert.Lib.splat2_apply]
  rfl

/-- A row divided by the larger of its Euclidean norm (host sum of squares from zero, laid as a column, square root) and the
    floor, read at an index. -/
theorem unitHost_apply {R n : ℕ} (h : FVec Ideal ⟨2, ![R, n]⟩ .f32)
    (hbc : (⟨2, ![R, 1]⟩ : Shape).BroadcastsInDim ⟨2, ![R, n]⟩ (![0, 1] : Fin 2 → Fin 2))
    (hb0 : (⟨0, ![]⟩ : Shape).BroadcastsInDim ⟨2, ![R, 1]⟩ (![] : Fin 0 → Fin 2))
    (hbv : (⟨1, ![R]⟩ : Shape).BroadcastsInDim ⟨2, ![R, 1]⟩ (![0] : Fin 1 → Fin 2))
    (hr' : (⟨2, ![R, n]⟩ : Shape).ReducesTo [1] ⟨1, ![R]⟩) (hu : 0 < (⟨0, ![]⟩ : Shape).numel) (p : Fin R) (q : Fin n) :
    Host.divf h (broadcastInDim ⟨2, ![R, n]⟩ ![0, 1] hbc
        (maximumf
          (Host.sqrt (broadcastInDim ⟨2, ![R, 1]⟩ ![0] hbv
            (Host.reduceAdd (mulf h h) (constant (F := Ideal) ⟨0, ![]⟩ .f32 0x00000000#32) hr' hu)))
          (broadcastInDim ⟨2, ![R, 1]⟩ ![] hb0 (constant (F := Ideal) ⟨0, ![]⟩ .f32 0x2B8CBCCC#32)))) (ix2 p q)
      = Cert.Spec.unitRow (fun k => h (ix2 p k)) q := by
  have hr : (⟨2, ![R, n]⟩ : Shape).Reduces [1] ⟨1, ![R]⟩ := ⟨hr'.1, Nat.one_pos, hr'.2⟩
  show Ideal.div (h (ix2 p q)) _ = _
  rw [Cert.Lib.cols_of_oneCol, maximumf_apply, Cert.Lib.splat2_apply]
  show Ideal.div _ (max (Ideal.sqrt (broadcastInDim _ _ hbv _ (ix2 p 0))) _) = _
  rw [col_of_vec, Cert.Lib.hostReduceAdd_rows _ _ hr' hr hu p]
  show Ideal.div _ (max (Ideal.sqrt (Ideal.ofBits .f32 0x00000000#32 + _)) _) = _
  rw [Ideal.ofBits_zero_f32, zero_add]
  rfl

/-- The layers' host product at `(p, q)`: row `p` against column `q`. -/
theorem dotR_apply {φ₁ φ₂ : FTy} (l : FVec Ideal S100000x64 φ₁) (r : FVec Ideal S64x64 φ₂) (p : Fin 100000) (q : Fin 64) :
    Host.dotGeneral dot_S100000x64_S64x64_S100000x64_1_0_0_1_n_n none l r (ix2 p q) = ∑ k : Fin 64, l (ix2 p k) * r (ix2 k q) :=
  Cert.Lib.dotGeneral_plain_apply dot_S100000x64_S64x64_S100000x64_1_0_0_1_n_n_wf none .single l r p q

/-- The reference's dense transform at `(p, q)`. -/
theorem preR_apply (x a : FVec Ideal S100000x64 .f32) (w1 : FVec Ideal S64x64 .f32) (b1 : FVec Ideal S64 .f32)
    (w2 : FVec Ideal S64x64 .f32) (b2 : FVec Ideal S64 .f32) (p : Fin 100000) (q : Fin 64) :
    preR (F := Ideal) x a w1 b1 w2 b2 (ix2 p q)
      = Cert.Spec.rowPre (fun k => x (ix2 p k)) (fun k => a (ix2 p k)) (fun k q' => w1 (ix2 q' k)) (fun k q' => w2 (ix2 q' k))
          (fun q' => b1 (ix1 q')) (fun q' => b2 (ix1 q')) q := by
  unfold preR biasRows
  rw [addf_apply, addf_apply, addf_apply, dotR_apply, dotR_apply, Cert.Lib.biasRows_apply, Cert.Lib.biasRows_apply]
  unfold Cert.Spec.rowPre
  refine congrArg₂ (· + ·) (congrArg₂ (· + ·) (congrArg₂ (· + ·) (Finset.sum_congr rfl fun k _ => ?_) rfl)
    (Finset.sum_congr rfl fun k _ => ?_)) rfl
  · rw [transpose_ix2_apply]; rfl
  · rw [transpose_ix2_apply]; rfl

/-- A reference layer at `(p, q)` is the specification's layer on row `p`, at feature `q` (the stage transposes its weights, so
    its `w (q', k)` is the specification's `w k q'`). -/
theorem layerR_apply (x a : FVec Ideal S100000x64 .f32) (w1 w2 : FVec Ideal S64x64 .f32) (b1 b2 : FVec Ideal S64 .f32) (p : Fin 100000) (q : Fin 64) :
    layerR (F := Ideal) x a w1 b1 w2 b2 (ix2 p q) = Cert.Spec.rowLayer (fun k => x (ix2 p k)) (fun k => a (ix2 p k)) (fun k q' => w1 (ix2 q' k)) (fun k q' => w2 (ix2 q' k)) (fun q' => b1 (ix1 q')) (fun q' => b2 (ix1 q')) q := by
  unfold layerR unitR normR
  refine (unitHost_apply _ _ _ _ _ _ p q).trans ?_
  unfold Cert.Spec.rowLayer
  refine congrArg (fun f => Cert.Spec.unitRow f q) (funext fun k => ?_)
  unfold lreluR
  refine (lreluHost_apply _ _ _).trans ?_
  exact congrArg Cert.Spec.lrelu (preR_apply x a w1 b1 w2 b2 p k)

/-- A batch array's host row sum from zero, at row `p`: the sum over that row. -/
theorem rowSumB_apply (h : FVec Ideal S8192x64 .f32) (p : Fin 8192) :
    rowSumB (F := Ideal) h (ix1 p) = ∑ k : Fin 64, h (ix2 p k) := by
  unfold rowSumB
  have hr : S8192x64.Reduces [1] S8192 :=
    ⟨reducesTo_S8192x64_S8192_d1.1, Nat.one_pos, reducesTo_S8192x64_S8192_d1.2⟩
  rw [Cert.Lib.hostReduceAdd_rows _ _ reducesTo_S8192x64_S8192_d1 hr h_S_ p]
  show Ideal.ofBits .f32 0x00000000#32 + _ = _
  rw [Ideal.ofBits_zero_f32, zero_add]

/-- The batch's host product at `(p, q)`: row `p` against column `q`. -/
theorem dotB_apply {φ₁ φ₂ : FTy} (l : FVec Ideal S8192x2048 φ₁) (r : FVec Ideal S2048x64 φ₂) (p : Fin 8192) (q : Fin 64) :
    Host.dotGeneral dot_S8192x2048_S2048x64_S8192x64_1_0_0_1_n_n none l r (ix2 p q) = ∑ k : Fin 2048, l (ix2 p k) * r (ix2 k q) :=
  Cert.Lib.dotGeneral_plain_apply dot_S8192x2048_S2048x64_S8192x64_1_0_0_1_n_n_wf none .single l r p q

/-- The batch's projected feature row before normalisation, at `(p, q)`. -/
theorem projR_apply (f : FVec Ideal S8192x2048 .f32) (pw : FVec Ideal S64x2048 .f32) (pb : FVec Ideal S64 .f32)
    (p : Fin 8192) (q : Fin 64) :
    projR (F := Ideal) f pw pb (ix2 p q) = (∑ j : Fin 2048, f (ix2 p j) * pw (ix2 q j)) + pb (ix1 q) := by
  unfold projR
  rw [addf_apply, dotB_apply, Cert.Lib.biasRows_apply]
  refine congrArg₂ (· + ·) (Finset.sum_congr rfl fun j _ => ?_) rfl
  rw [transpose_ix2_apply]

/-- The reference's batch score at row `p` is the specification's score of that row's pair (the stage transposes the
    projection, so its `pw (q, j)` is the specification's `pw j q`). -/
theorem batchR_apply (f : FVec Ideal S8192x2048 .f32) (pw : FVec Ideal S64x2048 .f32) (pb : FVec Ideal S64 .f32) (gu gi tu : FVec Ideal S8192x64 .f32) (p : Fin 8192) :
    batchR (F := Ideal) f pw pb gu gi tu (ix1 p) = Cert.Spec.rowBatch (fun j => f (ix2 p j)) (fun j q => pw (ix2 q j)) (fun q => pb (ix1 q)) (fun k => gu (ix2 p k)) (fun k => gi (ix2 p k)) (fun k => tu (ix2 p k)) := by
  unfold batchR
  rw [addf_apply, rowSumB_apply, rowSumB_apply]
  unfold Cert.Spec.rowBatch
  refine congrArg₂ (· + ·) rfl (Finset.sum_congr rfl fun k _ => ?_)
  rw [mulf_apply]
  refine congrArg (tu (ix2 p k) * ·) ?_
  unfold unitB
  refine (unitHost_apply _ _ _ _ _ _ p k).trans ?_
  exact congrArg (fun g => Cert.Spec.unitRow g k) (funext fun q => projR_apply f pw pb p q)

/-! ## The mean of the four embeddings -/

/-- The reduced index `(p, q)` with coordinate `k` put back on the middle axis is `(p, k, q)`. -/
theorem lift_midAxis3 {N M K : ℕ} (h : (⟨3, ![N, M, K]⟩ : Shape).Reduces [1] (⟨2, ![N, K]⟩ : Shape)) (p : Fin N) (q : Fin K)
    (k : Fin ((⟨3, ![N, M, K]⟩ : Shape).size 1)) : h.lift (ix2 p q) k = ix3 p (⟨k.val, k.isLt⟩ : Fin M) q := by
  funext c; apply Fin.ext
  fin_cases c <;> rfl

/-- The host's sum over the middle axis of an `[N, M, K]` array, at `(p, q)`: the initial value plus the sum over that axis. -/
theorem hostReduceAdd_mid {φ : FTy} {N M K : ℕ} {u : Shape} (x : FVec Ideal ⟨3, ![N, M, K]⟩ φ) (init : u.Idx → Ideal φ)
    (h' : (⟨3, ![N, M, K]⟩ : Shape).ReducesTo [1] (⟨2, ![N, K]⟩ : Shape)) (hu : 0 < u.numel) (p : Fin N) (q : Fin K) :
    Host.reduceAdd x init h' hu (ix2 p q) = init (Shape.Idx.first hu) + ∑ k : Fin M, x (ix3 p k q) := by
  have h : (⟨3, ![N, M, K]⟩ : Shape).Reduces [1] (⟨2, ![N, K]⟩ : Shape) := ⟨h'.1, Nat.two_pos, h'.2⟩
  unfold Host.reduceAdd
  rw [Ideal.hostReduceAdd_def, Ideal.hostReduceAdd_single h' h]
  exact congrArg (_ + ·) (Finset.sum_congr rfl fun k _ => congrArg x (lift_midAxis3 h p q k))

/-- A matrix laid as one slab of a stack along a new middle axis reads, at `(p, u, q)`, the matrix's `(p, q)`. -/
theorem midSlab_apply {N K : ℕ} (hb : (⟨2, ![N, K]⟩ : Shape).BroadcastsInDim ⟨3, ![N, 1, K]⟩ (![0, 2] : Fin 2 → Fin 3))
    (v : (⟨2, ![N, K]⟩ : Shape).Idx → α) (p : Fin N) (u : Fin 1) (q : Fin K) :
    broadcastInDim ⟨3, ![N, 1, K]⟩ ![0, 2] hb v (ix3 p u q) = v (ix2 p q) :=
  broadcastInDim_apply _ hb v (ix3 p u q) (ix2 p q) (fun ax => match ax with
    | ⟨0, _⟩ => by
      show p.val = if N = 1 then 0 else p.val
      have h1 : p.val < N := p.isLt
      split
      · omega
      · rfl
    | ⟨1, _⟩ => by
      show q.val = if K = 1 then 0 else q.val
      have h1 : q.val < K := q.isLt
      split
      · omega
      · rfl)

/-- Four one-slab arrays joined along the middle axis read, at `(p, k, q)`, slab `k` at `(p, 0, q)`. -/
theorem stack4_apply {N K : ℕ} (s0 s1 s2 s3 : (⟨3, ![N, 1, K]⟩ : Shape).Idx → α)
    (h : Shape.Concatenates [(⟨3, ![N, 1, K]⟩ : Shape), ⟨3, ![N, 1, K]⟩, ⟨3, ![N, 1, K]⟩, ⟨3, ![N, 1, K]⟩] ⟨3, ![N, 4, K]⟩ 1)
    (p : Fin N) (k : Fin 4) (q : Fin K) :
    concatenate ⟨3, ![N, 4, K]⟩ 1 [⟨⟨3, ![N, 1, K]⟩, s0⟩, ⟨⟨3, ![N, 1, K]⟩, s1⟩, ⟨⟨3, ![N, 1, K]⟩, s2⟩, ⟨⟨3, ![N, 1, K]⟩, s3⟩] h (ix3 p k q)
      = (![s0, s1, s2, s3] k) (ix3 p (0 : Fin 1) q) := by
  have hi : ∀ b : Fin 3, b.cast (rfl : (3 : ℕ) = 3) ≠ (1 : Fin 3) →
      ((ix3 p (0 : Fin 1) q : (⟨3, ![N, 1, K]⟩ : Shape).Idx) b).val = ((ix3 p k q : (⟨3, ![N, 4, K]⟩ : Shape).Idx) (b.cast rfl)).val :=
    fun b hb => match b, hb with
      | ⟨0, _⟩, _ => rfl
      | ⟨1, _⟩, hb => absurd rfl hb
      | ⟨2, _⟩, _ => rfl
  fin_cases k
  · exact concatenate_apply_piece (t := ⟨3, ![N, 4, K]⟩) 1
      [⟨⟨3, ![N, 1, K]⟩, s0⟩, ⟨⟨3, ![N, 1, K]⟩, s1⟩, ⟨⟨3, ![N, 1, K]⟩, s2⟩, ⟨⟨3, ![N, 1, K]⟩, s3⟩] h _ 0 (show 0 < 4 by omega) _ s0 rfl rfl 0 rfl
      (ix3 p (0 : Fin 1) q) hi rfl
  · exact concatenate_apply_piece (t := ⟨3, ![N, 4, K]⟩) 1
      [⟨⟨3, ![N, 1, K]⟩, s0⟩, ⟨⟨3, ![N, 1, K]⟩, s1⟩, ⟨⟨3, ![N, 1, K]⟩, s2⟩, ⟨⟨3, ![N, 1, K]⟩, s3⟩] h _ 1 (show 1 < 4 by omega) _ s1 rfl rfl 1 rfl
      (ix3 p (0 : Fin 1) q) hi rfl
  · exact concatenate_apply_piece (t := ⟨3, ![N, 4, K]⟩) 1
      [⟨⟨3, ![N, 1, K]⟩, s0⟩, ⟨⟨3, ![N, 1, K]⟩, s1⟩, ⟨⟨3, ![N, 1, K]⟩, s2⟩, ⟨⟨3, ![N, 1, K]⟩, s3⟩] h _ 2 (show 2 < 4 by omega) _ s2 rfl rfl 2 rfl
      (ix3 p (0 : Fin 1) q) hi rfl
  · exact concatenate_apply_piece (t := ⟨3, ![N, 4, K]⟩) 1
      [⟨⟨3, ![N, 1, K]⟩, s0⟩, ⟨⟨3, ![N, 1, K]⟩, s1⟩, ⟨⟨3, ![N, 1, K]⟩, s2⟩, ⟨⟨3, ![N, 1, K]⟩, s3⟩] h _ 3 (show 3 < 4 by omega) _ s3 rfl rfl 3 rfl
      (ix3 p (0 : Fin 1) q) hi rfl

/-- A node array as one slab of the stack reads, at `(p, u, q)`, the array's `(p, q)`. -/
theorem asSlab_apply (e : FVec Ideal S100000x64 .f32) (p : Fin 100000) (u : Fin 1) (q : Fin 64) :
    asSlab (F := Ideal) e (ix3 p u q) = e (ix2 p q) := by
  unfold asSlab
  exact midSlab_apply _ e p u q

/-- The mean of the four embeddings at `(p, q)`: their sum, taken in order from zero, divided by the word of 4. -/
theorem meanR_apply (e0 e1 e2 e3 : FVec Ideal S100000x64 .f32) (p : Fin 100000) (q : Fin 64) :
    meanR (F := Ideal) e0 e1 e2 e3 (ix2 p q) = Ideal.div (((e0 (ix2 p q) + e1 (ix2 p q)) + e2 (ix2 p q)) + e3 (ix2 p q)) (Ideal.ofBits .f32 0x40800000#32) := by
  unfold meanR
  show Ideal.div _ _ = _
  rw [Cert.Lib.splat2_apply, hostReduceAdd_mid, Fin.sum_univ_four, stack4_apply, stack4_apply, stack4_apply, stack4_apply]
  show Ideal.div (Ideal.ofBits .f32 0x00000000#32 + (((asSlab (F := Ideal) e0 (ix3 p 0 q) + asSlab (F := Ideal) e1 (ix3 p 0 q))
    + asSlab (F := Ideal) e2 (ix3 p 0 q)) + asSlab (F := Ideal) e3 (ix3 p 0 q))) _ = _
  rw [Ideal.ofBits_zero_f32, zero_add, asSlab_apply, asSlab_apply, asSlab_apply, asSlab_apply]
  rfl

end Cert.ReferenceIdeal.Idx
end
-- ==== Proof.LibColumnBack.lean ====
/-
  A column read back as a vector.

  An `[a, 1]` column reshaped to a vector of `a` entries reads, at `i`, the column's entry `(i, 0)`: the inverse of laying
  a vector as a column.
-/
import Idealize.ShloMosaic.Lib.ValueIdx
import Idealize.ShloMosaic.Lib.Pipeline.Value

noncomputable section

namespace Cert.Lib

open Idealize.ShloMosaic Idealize.ShloMosaic.ValueIdx

variable {α : Type}

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Lib

end
-- ==== Proof.BridgeCore.lean ====
/-
  The two programs' stages, compared.

  The kernel program and the reference prepare the same operands with the same host operations (the node array, the edge
  rows, the weighted neighbourhood sum, the parameter slabs, the two halves, the row look-ups): those stages are one function
  under two names.  Where they differ — a layer, the mean of the four embeddings, the batch scores — each side is read at
  an index: the kernel program's region leaves the row specification of each row by construction, on weights transposed and
  biases laid as one row beforehand; the reference's whole-array operations read at an index are the same row specification,
  on the weights with their coordinates swapped and the biases themselves.  A transposed matrix read at `(k, q)` is the
  matrix at `(q, k)`, a vector laid as one row read at `(0, q)` is the vector at `q`, so the two agree entry by entry.
-/
import proofs.«174847_j28037546508681_1_alg».proof.Proof.KerStages
import proofs.«174847_j28037546508681_1_alg».proof.Proof.KerArr
import proofs.«174847_j28037546508681_1_alg».proof.Proof.RefIdx
import proofs.«174847_j28037546508681_1_alg».proof.Proof.LibColumnBack
import Idealize.ShloMosaic.Lib.ValueLayout

noncomputable section

namespace Cert.Bridge

open Idealize.ShloMosaic Idealize.ShloMosaic.ValueIdx

/-! ## The shared host stages: the same operations under two names -/

attribute [local irreducible] Host.gather Host.scatterAdd in
theorem nodes_eq (gu gi : FVec Ideal Cert.KernelIdeal.S50000x64 .f32) : Cert.KernelIdeal.Stage.nodes gu gi = Cert.ReferenceIdeal.Stage.nodes (F := Ideal) gu gi := rfl
theorem edgeSrc_eq (ei : IVec Cert.KernelIdeal.S2x2000000 32) : Cert.KernelIdeal.Stage.edgeSrc ei = Cert.ReferenceIdeal.Stage.edgeSrc ei := rfl
theorem edgeDst_eq (ei : IVec Cert.KernelIdeal.S2x2000000 32) : Cert.KernelIdeal.Stage.edgeDst ei = Cert.ReferenceIdeal.Stage.edgeDst ei := rfl
attribute [local irreducible] Host.gather Host.scatterAdd in
theorem agg_eq (x : FVec Ideal Cert.KernelIdeal.S100000x64 .f32) (ew : FVec Ideal Cert.KernelIdeal.S2000000 .f32) (src dst : IVec Cert.KernelIdeal.S2000000 32) :
    Cert.KernelIdeal.Stage.aggK x ew src dst = Cert.ReferenceIdeal.Stage.aggR (F := Ideal) x ew src dst := rfl
theorem slabW0_eq (w : FVec Ideal Cert.KernelIdeal.S3x64x64 .f32) : Cert.KernelIdeal.Stage.slabW0 w = Cert.ReferenceIdeal.Stage.slabW0 (F := Ideal) w := rfl
theorem slabB0_eq (b : FVec Ideal Cert.KernelIdeal.S3x64 .f32) : Cert.KernelIdeal.Stage.slabB0 b = Cert.ReferenceIdeal.Stage.slabB0 (F := Ideal) b := rfl
theorem slabW1_eq (w : FVec Ideal Cert.KernelIdeal.S3x64x64 .f32) : Cert.KernelIdeal.Stage.slabW1 w = Cert.ReferenceIdeal.Stage.slabW1 (F := Ideal) w := rfl
theorem slabB1_eq (b : FVec Ideal Cert.KernelIdeal.S3x64 .f32) : Cert.KernelIdeal.Stage.slabB1 b = Cert.ReferenceIdeal.Stage.slabB1 (F := Ideal) b := rfl
theorem slabW2_eq (w : FVec Ideal Cert.KernelIdeal.S3x64x64 .f32) : Cert.KernelIdeal.Stage.slabW2 w = Cert.ReferenceIdeal.Stage.slabW2 (F := Ideal) w := rfl
theorem slabB2_eq (b : FVec Ideal Cert.KernelIdeal.S3x64 .f32) : Cert.KernelIdeal.Stage.slabB2 b = Cert.ReferenceIdeal.Stage.slabB2 (F := Ideal) b := rfl
theorem userHalf_eq (e : FVec Ideal Cert.KernelIdeal.S100000x64 .f32) : Cert.KernelIdeal.Stage.userHalf e = Cert.ReferenceIdeal.Stage.userHalf (F := Ideal) e := rfl
theorem itemHalf_eq (e : FVec Ideal Cert.KernelIdeal.S100000x64 .f32) : Cert.KernelIdeal.Stage.itemHalf e = Cert.ReferenceIdeal.Stage.itemHalf (F := Ideal) e := rfl
attribute [local irreducible] Host.gather Host.scatterAdd in
theorem take64_eq (x : FVec Ideal Cert.KernelIdeal.S50000x64 .f32) (idx : IVec Cert.KernelIdeal.S8192 32) : Cert.KernelIdeal.Stage.take64 x idx = Cert.ReferenceIdeal.Stage.take64 (F := Ideal) x idx := rfl
attribute [local irreducible] Host.gather Host.scatterAdd in
theorem take2048_eq (x : FVec Ideal Cert.KernelIdeal.S50000x2048 .f32) (idx : IVec Cert.KernelIdeal.S8192 32) : Cert.KernelIdeal.Stage.take2048 x idx = Cert.ReferenceIdeal.Stage.take2048 (F := Ideal) x idx := rfl

/-! ## A layer -/

/-- The region's layer function on the transposed weights and one-row biases, at node `p` and feature `q`, is the
    reference's layer there: both are the row specification of row `p`, the weights read with their coordinates swapped
    and the bias row read at its one row. -/
theorem layer_at (x a : FVec Ideal Cert.KernelIdeal.S100000x64 .f32) (w1 : FVec Ideal Cert.KernelIdeal.S64x64 .f32) (b1 : FVec Ideal Cert.KernelIdeal.S64 .f32) (w2 : FVec Ideal Cert.KernelIdeal.S64x64 .f32) (b2 : FVec Ideal Cert.KernelIdeal.S64 .f32)
    (p : Fin 100000) (q : Fin 64) :
    Cert.Arr.layerArr x a (Cert.KernelIdeal.Stage.tr64 w1) (Cert.KernelIdeal.Stage.asRow64 b1) (Cert.KernelIdeal.Stage.tr64 w2) (Cert.KernelIdeal.Stage.asRow64 b2) (ix2 p q)
      = Cert.ReferenceIdeal.Stage.layerR (F := Ideal) x a w1 b1 w2 b2 (ix2 p q) := by
  rw [Cert.ReferenceIdeal.Idx.layerR_apply]
  exact Cert.Arr.rowLayer_congr (fun _ => rfl) (fun _ => rfl) (fun k r => transpose_ix2_apply w1 _ k r)
    (fun k r => transpose_ix2_apply w2 _ k r) (fun r => shapeCast_a_1a_apply b1 _ 0 r) (fun r => shapeCast_a_1a_apply b2 _ 0 r) rfl

/-- The same as whole arrays. -/
theorem layer_eq (x a : FVec Ideal Cert.KernelIdeal.S100000x64 .f32) (w1 : FVec Ideal Cert.KernelIdeal.S64x64 .f32) (b1 : FVec Ideal Cert.KernelIdeal.S64 .f32) (w2 : FVec Ideal Cert.KernelIdeal.S64x64 .f32) (b2 : FVec Ideal Cert.KernelIdeal.S64 .f32) :
    Cert.Arr.layerArr x a (Cert.KernelIdeal.Stage.tr64 w1) (Cert.KernelIdeal.Stage.asRow64 b1) (Cert.KernelIdeal.Stage.tr64 w2) (Cert.KernelIdeal.Stage.asRow64 b2)
      = Cert.ReferenceIdeal.Stage.layerR (F := Ideal) x a w1 b1 w2 b2 :=
  funext fun i => by
    rw [eq_ix2 i]
    exact layer_at x a w1 b1 w2 b2 (i 0) (i 1)

/-! ## The mean of the four embeddings -/

/-- The running sum divided by 4, at an entry, is the reference's stacked mean there: the four entries added in order and
    divided by the word of 4. -/
theorem mean_at (e0 e1 e2 e3 : FVec Ideal Cert.KernelIdeal.S100000x64 .f32) (p : Fin 100000) (q : Fin 64) :
    Cert.KernelIdeal.Stage.mean4K e0 e1 e2 e3 (ix2 p q) = Cert.ReferenceIdeal.Stage.meanR (F := Ideal) e0 e1 e2 e3 (ix2 p q) := by
  rw [Cert.ReferenceIdeal.Idx.meanR_apply]
  show Ideal.div (((e0 (ix2 p q) + e1 (ix2 p q)) + e2 (ix2 p q)) + e3 (ix2 p q)) (broadcastInDim _ _ _ _ (ix2 p q)) = _
  rw [Cert.Lib.splat2_apply]
  rfl

/-- The same as whole arrays. -/
theorem mean_eq (e0 e1 e2 e3 : FVec Ideal Cert.KernelIdeal.S100000x64 .f32) :
    Cert.KernelIdeal.Stage.mean4K e0 e1 e2 e3 = Cert.ReferenceIdeal.Stage.meanR (F := Ideal) e0 e1 e2 e3 :=
  funext fun i => by
    rw [eq_ix2 i]
    exact mean_at e0 e1 e2 e3 (i 0) (i 1)

/-! ## The batch scores -/

/-- The batch region's one-column score array read back as a vector, at pair `p`, is the reference's score there: both are
    the pair specification, the projection read with its coordinates swapped and its bias row read at its one row. -/
theorem batch_at (f : FVec Ideal Cert.KernelIdeal.S8192x2048 .f32) (pw : FVec Ideal Cert.KernelIdeal.S64x2048 .f32) (pb : FVec Ideal Cert.KernelIdeal.S64 .f32) (gu gi tu : FVec Ideal Cert.KernelIdeal.S8192x64 .f32) (p : Fin 8192) :
    Cert.KernelIdeal.Stage.colVec (Cert.Arr.batchArr f (Cert.KernelIdeal.Stage.trPw pw) (Cert.KernelIdeal.Stage.asRow64 pb) gu gi tu) (ix1 p)
      = Cert.ReferenceIdeal.Stage.batchR (F := Ideal) f pw pb gu gi tu (ix1 p) := by
  rw [Cert.ReferenceIdeal.Idx.batchR_apply]
  refine (Cert.Lib.shapeCast_a1_a_apply _ _ p).trans ?_
  exact Cert.Arr.rowBatch_congr (fun _ => rfl) (fun j r => transpose_ix2_apply pw _ j r) (fun r => shapeCast_a_1a_apply pb _ 0 r)
    (fun _ => rfl) (fun _ => rfl) (fun _ => rfl)

/-- The same as whole vectors. -/
theorem batch_eq (f : FVec Ideal Cert.KernelIdeal.S8192x2048 .f32) (pw : FVec Ideal Cert.KernelIdeal.S64x2048 .f32) (pb : FVec Ideal Cert.KernelIdeal.S64 .f32) (gu gi tu : FVec Ideal Cert.KernelIdeal.S8192x64 .f32) :
    Cert.KernelIdeal.Stage.colVec (Cert.Arr.batchArr f (Cert.KernelIdeal.Stage.trPw pw) (Cert.KernelIdeal.Stage.asRow64 pb) gu gi tu) = Cert.ReferenceIdeal.Stage.batchR (F := Ideal) f pw pb gu gi tu :=
  funext fun i => by
    rw [eq_ix1 i]
    exact batch_at f pw pb gu gi tu (i 0)

end Cert.Bridge

end
-- ==== Proof.Bridge.lean ====
/-
  The kernel program's result and the reference's are one function of the fourteen arguments.

  Both results are chains of the same shape — node array, three layers each fed its neighbourhood sum, the mean of the four
  embeddings, its halves, the batch's rows, the scores.  Rewriting the kernel program's chain stage by stage with the
  comparisons of each stage turns it into the reference's.
-/
import proofs.«174847_j28037546508681_1_alg».proof.Proof.KerChain
import proofs.«174847_j28037546508681_1_alg».proof.Proof.BridgeCore

noncomputable section

namespace Cert.Bridge

open Idealize.ShloMosaic Idealize.ShloMosaic.ValueIdx

/-- A layer of the kernel program — the neighbourhood sum, then the region's layer function on the layer's transposed slabs and
    one-row biases — is the reference's layer on the same node array. -/
theorem layK0_eq (x : FVec Ideal Cert.KernelIdeal.S100000x64 .f32) (W1 : FVec Ideal Cert.KernelIdeal.S3x64x64 .f32) (b1 : FVec Ideal Cert.KernelIdeal.S3x64 .f32) (W2 : FVec Ideal Cert.KernelIdeal.S3x64x64 .f32) (b2 : FVec Ideal Cert.KernelIdeal.S3x64 .f32)
    (ew : FVec Ideal Cert.KernelIdeal.S2000000 .f32) (ei : IVec Cert.KernelIdeal.S2x2000000 32) :
    Cert.KernelIdeal.Chain.layK0 x W1 b1 W2 b2 ew ei
      = Cert.ReferenceIdeal.Stage.layerR (F := Ideal) x (Cert.ReferenceIdeal.Stage.aggR x ew (Cert.ReferenceIdeal.Stage.edgeSrc ei) (Cert.ReferenceIdeal.Stage.edgeDst ei)) (Cert.ReferenceIdeal.Stage.slabW0 W1) (Cert.ReferenceIdeal.Stage.slabB0 b1) (Cert.ReferenceIdeal.Stage.slabW0 W2) (Cert.ReferenceIdeal.Stage.slabB0 b2) := by
  unfold Cert.KernelIdeal.Chain.layK0
  rw [layer_eq, agg_eq, edgeSrc_eq, edgeDst_eq, slabW0_eq, slabB0_eq, slabW0_eq, slabB0_eq]
theorem layK1_eq (x : FVec Ideal Cert.KernelIdeal.S100000x64 .f32) (W1 : FVec Ideal Cert.KernelIdeal.S3x64x64 .f32) (b1 : FVec Ideal Cert.KernelIdeal.S3x64 .f32) (W2 : FVec Ideal Cert.KernelIdeal.S3x64x64 .f32) (b2 : FVec Ideal Cert.KernelIdeal.S3x64 .f32)
    (ew : FVec Ideal Cert.KernelIdeal.S2000000 .f32) (ei : IVec Cert.KernelIdeal.S2x2000000 32) :
    Cert.KernelIdeal.Chain.layK1 x W1 b1 W2 b2 ew ei
      = Cert.ReferenceIdeal.Stage.layerR (F := Ideal) x (Cert.ReferenceIdeal.Stage.aggR x ew (Cert.ReferenceIdeal.Stage.edgeSrc ei) (Cert.ReferenceIdeal.Stage.edgeDst ei)) (Cert.ReferenceIdeal.Stage.slabW1 W1) (Cert.ReferenceIdeal.Stage.slabB1 b1) (Cert.ReferenceIdeal.Stage.slabW1 W2) (Cert.ReferenceIdeal.Stage.slabB1 b2) := by
  unfold Cert.KernelIdeal.Chain.layK1
  rw [layer_eq, agg_eq, edgeSrc_eq, edgeDst_eq, slabW1_eq, slabB1_eq, slabW1_eq, slabB1_eq]
theorem layK2_eq (x : FVec Ideal Cert.KernelIdeal.S100000x64 .f32) (W1 : FVec Ideal Cert.KernelIdeal.S3x64x64 .f32) (b1 : FVec Ideal Cert.KernelIdeal.S3x64 .f32) (W2 : FVec Ideal Cert.KernelIdeal.S3x64x64 .f32) (b2 : FVec Ideal Cert.KernelIdeal.S3x64 .f32)
    (ew : FVec Ideal Cert.KernelIdeal.S2000000 .f32) (ei : IVec Cert.KernelIdeal.S2x2000000 32) :
    Cert.KernelIdeal.Chain.layK2 x W1 b1 W2 b2 ew ei
      = Cert.ReferenceIdeal.Stage.layerR (F := Ideal) x (Cert.ReferenceIdeal.Stage.aggR x ew (Cert.ReferenceIdeal.Stage.edgeSrc ei) (Cert.ReferenceIdeal.Stage.edgeDst ei)) (Cert.ReferenceIdeal.Stage.slabW2 W1) (Cert.ReferenceIdeal.Stage.slabB2 b1) (Cert.ReferenceIdeal.Stage.slabW2 W2) (Cert.ReferenceIdeal.Stage.slabB2 b2) := by
  unfold Cert.KernelIdeal.Chain.layK2
  rw [layer_eq, agg_eq, edgeSrc_eq, edgeDst_eq, slabW2_eq, slabB2_eq, slabW2_eq, slabB2_eq]

/-- The two programs compute one function of the fourteen arguments: stage by stage the kernel program's chain is the
    reference's. -/
theorem out_eq (Gu Gi Tu : FVec Ideal Cert.KernelIdeal.S50000x64 .f32) (Fe : FVec Ideal Cert.KernelIdeal.S50000x2048 .f32) (pw : FVec Ideal Cert.KernelIdeal.S64x2048 .f32) (pb : FVec Ideal Cert.KernelIdeal.S64 .f32)
    (W1 : FVec Ideal Cert.KernelIdeal.S3x64x64 .f32) (b1 : FVec Ideal Cert.KernelIdeal.S3x64 .f32) (W2 : FVec Ideal Cert.KernelIdeal.S3x64x64 .f32) (b2 : FVec Ideal Cert.KernelIdeal.S3x64 .f32)
    (ew : FVec Ideal Cert.KernelIdeal.S2000000 .f32) (ei : IVec Cert.KernelIdeal.S2x2000000 32) (users items : IVec Cert.KernelIdeal.S8192 32) :
    Cert.KernelIdeal.Chain.kerOut Gu Gi Tu Fe pw pb W1 b1 W2 b2 ew ei users items
      = Cert.ReferenceIdeal.Stage.refOut (F := Ideal) Gu Gi Tu Fe pw pb W1 b1 W2 b2 ew ei users items := by
  unfold Cert.KernelIdeal.Chain.kerOut Cert.ReferenceIdeal.Stage.refOut
  simp only [nodes_eq, layK0_eq, layK1_eq, layK2_eq, mean_eq, userHalf_eq, itemHalf_eq, take64_eq, take2048_eq, batch_eq]

end Cert.Bridge

end
-- ==== Proof.lean ====
/-
  The certificate of an NGCF recommender forward pass: a Pallas program against its jnp reference, on the extended reals.

  Both programs embed users and items in one node array, run three graph layers and score a batch of (user, item) pairs.
  A layer is  h = unit( lrelu( (x + a)·W₁ᵀ + b₁ + (x ∘ a)·W₂ᵀ + b₂ ) )  row by row, where `a` is the weighted neighbourhood sum
  of `x` (rows looked up at the edges' sources, scaled, accumulated at the targets), `lrelu` the leaky rectifier of slope 0.2
  and `unit` the division of a row by the larger of its Euclidean norm and 1e-12.  The score of a pair is
  Σ γᵤ·γᵢ + Σ θᵤ·unit(f·Pᵀ + pb), with γ the mean of the four embeddings.

  The kernel program computes each layer in a region tiled by 2000 node rows (casts to bf16, a matrix unit product into a zero
  accumulator, lane sums, keepdims columns) and the scores in a region tiled by 512 pairs, keeps a running sum of the embeddings
  and divides it by 4; the reference uses host products of transposed weights, sums from an initial zero, and stacks the four
  embeddings before averaging.  On the extended reals a change of float format is the identity, a sum is a sum whatever its
  tiling or initial zero, and  ((e₀ + e₁) + e₂) + e₃ = 0 + (e₀ + e₁ + e₂ + e₃)  in a commutative monoid: so every stage of the
  kernel program is the reference's stage, entry by entry (the row-level specification `Cert.Spec` both are read against), and
  the neighbourhood sums, the row look-ups and the index wrap-around are the same host operations on both sides and are never
  opened.  No finiteness of the inputs is used.

  The modules: `Spec` (the row-level specification), `KerPay` / `RefIdx` (the kernels' arithmetic and the reference's stages read
  at an entry), `KerRegion0…3` (each region's output array from its blocks), `KerHost` / `KerChain` (the kernel program's nine
  segments followed from the launch to the return), `KerRun` (its run), `RefOps` / `RefRead` (the reference's run), `Bridge`
  (the two results are one function of the arguments).
-/
import proofs.«174847_j28037546508681_1_alg».proof.Defs
import proofs.«174847_j28037546508681_1_alg».proof.Proof.Gen.Kernel
import proofs.«174847_j28037546508681_1_alg».proof.Proof.Gen.Kernel.Frame
import proofs.«174847_j28037546508681_1_alg».proof.Proof.Gen.KernelIdeal
import proofs.«174847_j28037546508681_1_alg».proof.Proof.Gen.KernelIdeal.Frame
import proofs.«174847_j28037546508681_1_alg».proof.Proof.Gen.ReferenceIdeal
import proofs.«174847_j28037546508681_1_alg».proof.Proof.Gen.Pre_finite_inputs
import proofs.«174847_j28037546508681_1_alg».proof.Proof.KerRun
import proofs.«174847_j28037546508681_1_alg».proof.Proof.KerChain
import proofs.«174847_j28037546508681_1_alg».proof.Proof.RefRead
import proofs.«174847_j28037546508681_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- On the extended reals both programs, run from memories that agree on the arguments, end with the same scores: the kernel
    program's result buffer is `kerOut` of the arguments, the reference's is `refOut` of them, and the two are one function. -/
theorem algebraic : Cert.algebraic_KernelIdeal_ReferenceIdeal := by
  intro m ρ m' ρ' _ hagree
  refine ⟨fun c => Cert.KernelIdeal.Chain.kerOut (Cert.KernelIdeal.Chain.a0 m c) (Cert.KernelIdeal.Chain.a1 m c)
    (Cert.KernelIdeal.Chain.a2 m c) (Cert.KernelIdeal.Chain.a3 m c) (Cert.KernelIdeal.Chain.a4 m c) (Cert.KernelIdeal.Chain.a5 m c)
    (Cert.KernelIdeal.Chain.a6 m c) (Cert.KernelIdeal.Chain.a7 m c) (Cert.KernelIdeal.Chain.a8 m c) (Cert.KernelIdeal.Chain.a9 m c)
    (Cert.KernelIdeal.Chain.a10 m c) (Cert.KernelIdeal.Chain.a11 m c) (Cert.KernelIdeal.Chain.a12 m c) (Cert.KernelIdeal.Chain.a13 m c), ?_, ?_⟩
  · exact (θ_run Cert.KernelIdeal.defs _ _).mono
      (fun r h c => ⟨(h c).1.trans (Cert.KernelIdeal.Chain.W9_result m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.RefRun.run (F := Ideal) m' ρ')
    obtain ⟨h0, h1, h2, h3, h4, h5, h6, h7, h8, h9, h10, h11, h12, h13⟩ := hagree c
    rw [h0, h1, h2, h3, h4, h5, h6, h7, h8, h9, h10, h11, h12, h13]
    exact (Cert.Bridge.out_eq _ _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
